-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S512x6144 : Shape := ⟨2, ![512, 6144]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S6656x3328 : Shape := ⟨2, ![6656, 3328]⟩
abbrev S3328 : Shape := ⟨1, ![3328]⟩
abbrev S3328x128 : Shape := ⟨2, ![3328, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S512x6144 : S_.BroadcastsInDim S512x6144 (![] : Fin 0 → Fin S512x6144.rank)
  reducesTo_S512x6144_S_d0_1 : S512x6144.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S6656x3328 : S_.BroadcastsInDim S6656x3328 (![] : Fin 0 → Fin S6656x3328.rank)
  reducesTo_S6656x3328_S_d0_1 : S6656x3328.ReducesTo [0, 1] S_
  bcast_S_S3328 : S_.BroadcastsInDim S3328 (![] : Fin 0 → Fin S3328.rank)
  reducesTo_S3328_S_d0 : S3328.ReducesTo [0] S_
  bcast_S_S3328x128 : S_.BroadcastsInDim S3328x128 (![] : Fin 0 → Fin S3328x128.rank)
  reducesTo_S3328x128_S_d0_1 : S3328x128.ReducesTo [0, 1] S_

variable [Facts]

def fn_part7 {F : FTy → Type} [FloatOps F] (main_arg27 : FVec F S128 .f32) (main_v118 : IVec S_ 1) (main_v119 : FVec F S3328x128 .f32) : IVec S_ 1 :=
  let main_cst_46 : FVec F S_ .f32 := constant S_ .f32 0x7F800000#32
  let main_v120 : FVec F S3328x128 .f32 := broadcastInDim S3328x128 ![] bcast_S_S3328x128 main_cst_46
  let main_v121 : IVec S3328x128 1 := cmpf .olt main_v119 main_v120
  let main_c_47 : IVec S_ 1 := constantI S_ 1 1#1
  let main_v122 : IVec S_ 1 := (fun x v => Host.reduce IntOp.andi x v reducesTo_S3328x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg23 : FVec F S3328 .f32) (main_arg24 : FVec F S3328 .f32) (main_arg25 : FVec F S3328 .f32) (main_arg26 : FVec F S3328x128 .f32) (main_arg27 : FVec F S128 .f32) (main_v98 : IVec S_ 1) (main_v101 : IVec S6656x3328 1) (main_c_39 : IVec S_ 1) : IVec S_ 1 :=
  let main_v102 : IVec S_ 1 := (fun x v => Host.reduce IntOp.andi x v reducesTo_S6656x3328_S_d0_1 h_S_) main_v101 main_c_39
  let main_v103 : IVec S_ 1 := andi main_v98 main_v102
  let main_v104 : FVec F S3328 .f32 := Host.absf main_arg23
  let main_cst_40 : FVec F S_ .f32 := constant S_ .f32 0x7F800000#32
  let main_v105 : FVec F S3328 .f32 := broadcastInDim S3328 ![] bcast_S_S3328 main_cst_40
  let main_v106 : IVec S3328 1 := cmpf .olt main_v104 main_v105
  let main_c_41 : IVec S_ 1 := constantI S_ 1 1#1
  let main_v107 : IVec S_ 1 := (fun x v => Host.reduce IntOp.andi x v reducesTo_S3328_S_d0 h_S_) main_v106 main_c_41
  let main_v108 : IVec S_ 1 := andi main_v103 main_v107
  let main_v109 : FVec F S3328 .f32 := Host.absf main_arg24
  let main_cst_42 : FVec F S_ .f32 := constant S_ .f32 0x7F800000#32
  let main_v110 : FVec F S3328 .f32 := broadcastInDim S3328 ![] bcast_S_S3328 main_cst_42
  let main_v111 : IVec S3328 1 := cmpf .olt main_v109 main_v110
  let main_c_43 : IVec S_ 1 := constantI S_ 1 1#1
  let main_v112 : IVec S_ 1 := (fun x v => Host.reduce IntOp.andi x v reducesTo_S3328_S_d0 h_S_) main_v111 main_c_43
  let main_v113 : IVec S_ 1 := andi main_v108 main_v112
  let main_v114 : FVec F S3328 .f32 := Host.absf main_arg25
  let main_cst_44 : FVec F S_ .f32 := constant S_ .f32 0x7F800000#32
  let main_v115 : FVec F S3328 .f32 := broadcastInDim S3328 ![] bcast_S_S3328 main_cst_44
  let main_v116 : IVec S3328 1 := cmpf .olt main_v114 main_v115
  let main_c_45 : IVec S_ 1 := constantI S_ 1 1#1
  let main_v117 : IVec S_ 1 := (fun x v => Host.reduce IntOp.andi x v reducesTo_S3328_S_d0 h_S_) main_v116 main_c_45
  let main_v118 : IVec S_ 1 := andi main_v113 main_v117
  let main_v119 : FVec F S3328x128 .f32 := Host.absf main_arg26
  fn_part7 (F := F) main_arg27 main_v118 main_v119

def fn_part5 {F : FTy → Type} [FloatOps F] (main_arg20 : FVec F S256 .f32) (main_arg21 : FVec F S256 .f32) (main_arg22 : FVec F S6656x3328 .f32) (main_arg23 : FVec F S3328 .f32) (main_arg24 : FVec F S3328 .f32) (main_arg25 : FVec F S3328 .f32) (main_arg26 : FVec F S3328x128 .f32) (main_arg27 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S6656x3328 .f32 := Host.absf main_arg22
  let main_cst_38 : FVec F S_ .f32 := constant S_ .f32 0x7F800000#32
  let main_v100 : FVec F S6656x3328 .f32 := broadcastInDim S6656x3328 ![] bcast_S_S6656x3328 main_cst_38
  let main_v101 : IVec S6656x3328 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S256 .f32) (main_arg21 : FVec F S256 .f32) (main_arg22 : FVec F S6656x3328 .f32) (main_arg23 : FVec F S3328 .f32) (main_arg24 : FVec F S3328 .f32) (main_arg25 : FVec F S3328 .f32) (main_arg26 : FVec F S3328x128 .f32) (main_arg27 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S256 .f32) (main_arg14 : FVec F S256x256 .f32) (main_arg15 : FVec F S256 .f32) (main_arg16 : FVec F S128 .f32) (main_arg17 : FVec F S128 .f32) (main_arg18 : FVec F S128 .f32) (main_arg19 : FVec F S128 .f32) (main_arg20 : FVec F S256 .f32) (main_arg21 : FVec F S256 .f32) (main_arg22 : FVec F S6656x3328 .f32) (main_arg23 : FVec F S3328 .f32) (main_arg24 : FVec F S3328 .f32) (main_arg25 : FVec F S3328 .f32) (main_arg26 : FVec F S3328x128 .f32) (main_arg27 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S128 .f32) (main_arg10 : FVec F S128x128 .f32) (main_arg11 : FVec F S128 .f32) (main_arg12 : FVec F S128x256 .f32) (main_arg13 : FVec F S256 .f32) (main_arg14 : FVec F S256x256 .f32) (main_arg15 : FVec F S256 .f32) (main_arg16 : FVec F S128 .f32) (main_arg17 : FVec F S128 .f32) (main_arg18 : FVec F S128 .f32) (main_arg19 : FVec F S128 .f32) (main_arg20 : FVec F S256 .f32) (main_arg21 : FVec F S256 .f32) (main_arg22 : FVec F S6656x3328 .f32) (main_arg23 : FVec F S3328 .f32) (main_arg24 : FVec F S3328 .f32) (main_arg25 : FVec F S3328 .f32) (main_arg26 : FVec F S3328x128 .f32) (main_arg27 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg12
  let main_cst_18 : FVec F S_ .f32 := constant S_ .f32 0x7F800000#32
  let main_v50 : FVec F S128x256 .f32 := broadcastInDim S128x256 ![] bcast_S_S128x256 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x256 .f32) (main_arg13 : FVec F S256 .f32) (main_arg14 : FVec F S256x256 .f32) (main_arg15 : FVec F S256 .f32) (main_arg16 : FVec F S128 .f32) (main_arg17 : FVec F S128 .f32) (main_arg18 : FVec F S128 .f32) (main_arg19 : FVec F S128 .f32) (main_arg20 : FVec F S256 .f32) (main_arg21 : FVec F S256 .f32) (main_arg22 : FVec F S6656x3328 .f32) (main_arg23 : FVec F S3328 .f32) (main_arg24 : FVec F S3328 .f32) (main_arg25 : FVec F S3328 .f32) (main_arg26 : FVec F S3328x128 .f32) (main_arg27 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x64 .f32) (main_arg1 : IVec S2x1600000 32) (main_arg2 : IVec S100000 32) (main_arg3 : FVec F S512x6144 .f32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x256 .f32) (main_arg13 : FVec F S256 .f32) (main_arg14 : FVec F S256x256 .f32) (main_arg15 : FVec F S256 .f32) (main_arg16 : FVec F S128 .f32) (main_arg17 : FVec F S128 .f32) (main_arg18 : FVec F S128 .f32) (main_arg19 : FVec F S128 .f32) (main_arg20 : FVec F S256 .f32) (main_arg21 : FVec F S256 .f32) (main_arg22 : FVec F S6656x3328 .f32) (main_arg23 : FVec F S3328 .f32) (main_arg24 : FVec F S3328 .f32) (main_arg25 : FVec F S3328 .f32) (main_arg26 : FVec F S3328x128 .f32) (main_arg27 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S512x6144 .f32 := Host.absf main_arg3
  let main_cst_0 : FVec F S_ .f32 := constant S_ .f32 0x7F800000#32
  let main_v5 : FVec F S512x6144 .f32 := broadcastInDim S512x6144 ![] bcast_S_S512x6144 main_cst_0
  let main_v6 : IVec S512x6144 1 := cmpf .olt main_v4 main_v5
  let main_c_1 : IVec S_ 1 := constantI S_ 1 1#1
  let main_v7 : IVec S_ 1 := (fun x v => Host.reduce IntOp.andi x v reducesTo_S512x6144_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S512x6144 : Shape := ⟨2, ![512, 6144]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S6656x3328 : Shape := ⟨2, ![6656, 3328]⟩
abbrev S3328 : Shape := ⟨1, ![3328]⟩
abbrev S3328x128 : Shape := ⟨2, ![3328, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1600000x128 : Shape := ⟨2, ![1600000, 128]⟩
abbrev S1x256 : Shape := ⟨2, ![1, 256]⟩
abbrev S100000x256 : Shape := ⟨2, ![100000, 256]⟩
abbrev S2000x256 : Shape := ⟨2, ![2000, 256]⟩
abbrev S512x128 : Shape := ⟨2, ![512, 128]⟩
abbrev S100000x1 : Shape := ⟨2, ![100000, 1]⟩
abbrev S512x256 : Shape := ⟨2, ![512, 256]⟩
abbrev S512x6656 : Shape := ⟨2, ![512, 6656]⟩
abbrev S1x3328 : Shape := ⟨2, ![1, 3328]⟩
abbrev S512x512 : Shape := ⟨2, ![512, 512]⟩
abbrev S512x3328 : Shape := ⟨2, ![512, 3328]⟩

abbrev nBuf : Space → Nat
  | .hbm => 127
  | .vmem => 47
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S512x6144, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S256, .f32⟩
  | .hbm, ⟨21, _⟩ => ⟨S256, .f32⟩
  | .hbm, ⟨22, _⟩ => ⟨S6656x3328, .f32⟩
  | .hbm, ⟨23, _⟩ => ⟨S3328, .f32⟩
  | .hbm, ⟨24, _⟩ => ⟨S3328, .f32⟩
  | .hbm, ⟨25, _⟩ => ⟨S3328, .f32⟩
  | .hbm, ⟨26, _⟩ => ⟨S3328x128, .f32⟩
  | .hbm, ⟨27, _⟩ => ⟨S128, .f32⟩
  | .hbm, ⟨28, _⟩ => ⟨S1x1600000, .i32⟩
  | .hbm, ⟨29, _⟩ => ⟨S1600000, .i32⟩
  | .hbm, ⟨30, _⟩ => ⟨S1x1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S1x256, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S100000x256, .f32⟩
  | .hbm, ⟨101, _⟩ => ⟨S_, .f32⟩
  | .hbm, ⟨102, _⟩ => ⟨S512x128, .f32⟩
  | .hbm, ⟨103, _⟩ => ⟨S100000x1, .i32⟩
  | .hbm, ⟨104, _⟩ => ⟨S512x128, .f32⟩
  | .hbm, ⟨105, _⟩ => ⟨S_, .f32⟩
  | .hbm, ⟨106, _⟩ => ⟨S512x128, .f32⟩
  | .hbm, ⟨107, _⟩ => ⟨S100000x1, .i32⟩
  | .hbm, ⟨108, _⟩ => ⟨S512x128, .f32⟩
  | .hbm, ⟨109, _⟩ => ⟨S_, .f32⟩
  | .hbm, ⟨110, _⟩ => ⟨S512x256, .f32⟩
  | .hbm, ⟨111, _⟩ => ⟨S100000x1, .i32⟩
  | .hbm, ⟨112, _⟩ => ⟨S512x256, .f32⟩
  | .hbm, ⟨113, _⟩ => ⟨S512x6656, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S3328, .f32⟩
  | .hbm, ⟨118, _⟩ => ⟨S3328, .f32⟩
  | .hbm, ⟨119, _⟩ => ⟨S512x6656, .bf16⟩
  | .hbm, ⟨120, _⟩ => ⟨S6656x3328, .bf16⟩
  | .hbm, ⟨121, _⟩ => ⟨S3328x128, .bf16⟩
  | .hbm, ⟨122, _⟩ => ⟨S1x3328, .f32⟩
  | .hbm, ⟨123, _⟩ => ⟨S1x3328, .f32⟩
  | .hbm, ⟨124, _⟩ => ⟨S1x3328, .f32⟩
  | .hbm, ⟨125, _⟩ => ⟨S1x128, .f32⟩
  | .hbm, ⟨126, _⟩ => ⟨S512x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x256, .f32⟩
  | .local _ .vmem, ⟨29, _⟩ => ⟨S1x256, .f32⟩
  | .local _ .vmem, ⟨30, _⟩ => ⟨S256x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S512x512, .bf16⟩
  | .local _ .vmem, ⟨37, _⟩ => ⟨S512x512, .bf16⟩
  | .local _ .vmem, ⟨38, _⟩ => ⟨S512x3328, .bf16⟩
  | .local _ .vmem, ⟨39, _⟩ => ⟨S512x3328, .bf16⟩
  | .local _ .vmem, ⟨40, _⟩ => ⟨S1x3328, .f32⟩
  | .local _ .vmem, ⟨41, _⟩ => ⟨S1x3328, .f32⟩
  | .local _ .vmem, ⟨42, _⟩ => ⟨S1x3328, .f32⟩
  | .local _ .vmem, ⟨43, _⟩ => ⟨S3328x128, .bf16⟩
  | .local _ .vmem, ⟨44, _⟩ => ⟨S1x128, .f32⟩
  | .local _ .vmem, ⟨45, _⟩ => ⟨S512x128, .f32⟩
  | .local _ .vmem, ⟨46, _⟩ => ⟨S512x3328, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_2 : Ref sig .tc := ⟨.hbm, 55, rfl⟩
abbrev main_v23 : Ref sig .tc := ⟨.hbm, 56, rfl⟩
abbrev main_v24 : Ref sig .tc := ⟨.hbm, 57, rfl⟩
abbrev main_c_3 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_6 : Ref sig .tc := ⟨.hbm, 78, rfl⟩
abbrev main_v42 : Ref sig .tc := ⟨.hbm, 79, rfl⟩
abbrev main_v43 : Ref sig .tc := ⟨.hbm, 80, rfl⟩
abbrev main_c_7 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_8 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_9 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_10 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_13 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![13], ![false]⟩

def k3_cond2 (i : grid3.Coords) : BitVec 1 :=
  let arg0 : BitVec 32 := BitVec.ofNat 32 (i 0).val
  let c12_i32 : BitVec 32 := 12#32
  let v13 : BitVec 1 := Scalar.cmpi .eq arg0 c12_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x3328 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x3328 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x3328 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x3328 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3328x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S128 : S_.BroadcastsInDim S128 (![] : Fin 0 → Fin S128.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S2000x128_S2000x128 : S2000x128.ShapeCasts S2000x128
  bcast_S_S256 : S_.BroadcastsInDim S256 (![] : Fin 0 → Fin S256.rank)
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512x256 : S_.BroadcastsInDim S512x256 (![] : Fin 0 → Fin S512x256.rank)
  concatenates_S512x128_S512x128_S512x256_S512x6144_S512x6656_d1 : Shape.Concatenates [S512x128, S512x128, S512x256, S512x6144] S512x6656 1
  bcast_S_S3328 : S_.BroadcastsInDim S3328 (![] : Fin 0 → Fin S3328.rank)
  shapeCasts_S3328_S1x3328 : S3328.ShapeCasts S1x3328
  inb_S512x3328_S512x3328_0_0 : ∀ a, (![0, 0] : Fin 2 → Nat) a + S512x3328.size a ≤ S512x3328.size a
  h_S512x3328 : 0 < S512x3328.numel
  shapeCasts_S512x3328_S512x3328 : S512x3328.ShapeCasts S512x3328
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x3328_S1x3328_0_0 : ∀ a, (![0, 0] : Fin 2 → Nat) a + S1x3328.size a ≤ S1x3328.size a
  h_S1x3328 : 0 < S1x3328.numel
  shapeCasts_S1x3328_S1x3328 : S1x3328.ShapeCasts S1x3328
  broadcasts_S1x3328_S512x3328 : S1x3328.Broadcasts S512x3328
  inb_S3328x128_S3328x128_0_0 : ∀ a, (![0, 0] : Fin 2 → Nat) a + S3328x128.size a ≤ S3328x128.size a
  h_S3328x128 : 0 < S3328x128.numel
  shapeCasts_S3328x128_S3328x128 : S3328x128.ShapeCasts S3328x128
  broadcasts_S1x128_S512x128 : S1x128.Broadcasts S512x128
  inb_S512x128_S512x128_0_0 : ∀ a, (![0, 0] : Fin 2 → Nat) a + S512x128.size a ≤ S512x128.size a
  h_S512x128 : 0 < S512x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  scatter_S512x128_S100000x1_S100000x128_1_0_0_1_wf : ScatterDims.WF S512x128 S100000x1 S100000x128 [1] [0] [0] 1
  scatter_S512x256_S100000x1_S100000x256_1_0_0_1_wf : ScatterDims.WF S512x256 S100000x1 S100000x256 [1] [0] [0] 1
  dot_S512x512_S512x3328_S512x3328_1_0_0_1_n_n_wf : DotDims.WF S512x512 S512x3328 S512x3328 [1] [0] [0] [1] [] []
  dot_S512x3328_S3328x128_S512x128_1_0_0_1_n_n_wf : DotDims.WF S512x3328 S3328x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S100000x256.size a
  hwx2_8 : ∀ i : grid2.Coords, EltTy.bits .f32 = 32 ∨ (Rect.block (s := S100000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S512x6656.size a
  hwx3_0 : ∀ i : grid3.Coords, EltTy.bits .bf16 = 32 ∨ (Rect.block (s := S512x6656) S512x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x3328.size a ≤ S6656x3328.size a
  hwx3_1 : ∀ i : grid3.Coords, EltTy.bits .bf16 = 32 ∨ (Rect.block (s := S6656x3328) S512x3328.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3328.size a ≤ S1x3328.size a
  hwx3_2 : ∀ i : grid3.Coords, EltTy.bits .f32 = 32 ∨ (Rect.block (s := S1x3328) S1x3328.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x3328.size a ≤ S1x3328.size a
  hwx3_3 : ∀ i : grid3.Coords, EltTy.bits .f32 = 32 ∨ (Rect.block (s := S1x3328) S1x3328.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x3328.size a ≤ S1x3328.size a
  hwx3_4 : ∀ i : grid3.Coords, EltTy.bits .f32 = 32 ∨ (Rect.block (s := S1x3328) S1x3328.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3328x128.size a ≤ S3328x128.size a
  hwx3_5 : ∀ i : grid3.Coords, EltTy.bits .bf16 = 32 ∨ (Rect.block (s := S3328x128) S3328x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x128.size a ≤ S512x128.size a
  hwx3_7 : ∀ i : grid3.Coords, EltTy.bits .f32 = 32 ∨ (Rect.block (s := S512x128) S512x128.size (cc3_transform_7 i) (hinb3_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def dot_S512x512_S512x3328_S512x3328_1_0_0_1_n_n : DotDims S512x512 S512x3328 S512x3328 where
  lhsContracting := [1]
  rhsContracting := [0]
  lhsNonContracting := [0]
  rhsNonContracting := [1]
  lhsBatch := []
  rhsBatch := []
  wf := dot_S512x512_S512x3328_S512x3328_1_0_0_1_n_n_wf
def dot_S512x3328_S3328x128_S512x128_1_0_0_1_n_n : DotDims S512x3328 S3328x128 S512x128 where
  lhsContracting := [1]
  rhsContracting := [0]
  lhsNonContracting := [0]
  rhsNonContracting := [1]
  lhsBatch := []
  rhsBatch := []
  wf := dot_S512x3328_S3328x128_S512x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v75) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S512x3328.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x3328.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x3328.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x3328.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S3328x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v82) S512x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S512x6144 : Shape := ⟨2, ![512, 6144]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S6656x3328 : Shape := ⟨2, ![6656, 3328]⟩
abbrev S3328 : Shape := ⟨1, ![3328]⟩
abbrev S3328x128 : Shape := ⟨2, ![3328, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x256 : Shape := ⟨2, ![100000, 256]⟩
abbrev S1x256 : Shape := ⟨2, ![1, 256]⟩
abbrev S512x128 : Shape := ⟨2, ![512, 128]⟩
abbrev S100000x1 : Shape := ⟨2, ![100000, 1]⟩
abbrev S512x256 : Shape := ⟨2, ![512, 256]⟩
abbrev S512x6656 : Shape := ⟨2, ![512, 6656]⟩
abbrev S512x3328 : Shape := ⟨2, ![512, 3328]⟩
abbrev S1x3328 : Shape := ⟨2, ![1, 3328]⟩

abbrev nBuf : Space → Nat
  | .hbm => 184
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S512x6144, .f32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x256, .f32⟩
  | 13 => ⟨S256, .f32⟩
  | 14 => ⟨S256x256, .f32⟩
  | 15 => ⟨S256, .f32⟩
  | 16 => ⟨S128, .f32⟩
  | 17 => ⟨S128, .f32⟩
  | 18 => ⟨S128, .f32⟩
  | 19 => ⟨S128, .f32⟩
  | 20 => ⟨S256, .f32⟩
  | 21 => ⟨S256, .f32⟩
  | 22 => ⟨S6656x3328, .f32⟩
  | 23 => ⟨S3328, .f32⟩
  | 24 => ⟨S3328, .f32⟩
  | 25 => ⟨S3328, .f32⟩
  | 26 => ⟨S3328x128, .f32⟩
  | 27 => ⟨S128, .f32⟩
  | 28 => ⟨S1x1600000, .i32⟩
  | 29 => ⟨S1600000, .i32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S100000x64, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S_, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S_, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x128, .f32⟩
  | 124 => ⟨S100000x256, .f32⟩
  | 125 => ⟨S1x256, .f32⟩
  | 126 => ⟨S100000x256, .f32⟩
  | 127 => ⟨S100000x256, .f32⟩
  | _ => ⟨S100000x64, .f32⟩

abbrev hbmTy0_1 (i : Nat) : BufTy := match i % 128 with
  | 0 => ⟨S_, .f32⟩
  | 1 => ⟨S100000x256, .f32⟩
  | 2 => ⟨S100000x256, .f32⟩
  | 3 => ⟨S100000x256, .f32⟩
  | 4 => ⟨S1x256, .f32⟩
  | 5 => ⟨S100000x256, .f32⟩
  | 6 => ⟨S100000x256, .f32⟩
  | 7 => ⟨S_, .f32⟩
  | 8 => ⟨S_, .f32⟩
  | 9 => ⟨S_, .f32⟩
  | 10 => ⟨S256, .f32⟩
  | 11 => ⟨S256, .f32⟩
  | 12 => ⟨S1x256, .f32⟩
  | 13 => ⟨S100000x256, .f32⟩
  | 14 => ⟨S100000x256, .f32⟩
  | 15 => ⟨S1x256, .f32⟩
  | 16 => ⟨S100000x256, .f32⟩
  | 17 => ⟨S100000x256, .f32⟩
  | 18 => ⟨S_, .f32⟩
  | 19 => ⟨S100000x256, .f32⟩
  | 20 => ⟨S100000x256, .f32⟩
  | 21 => ⟨S_, .f32⟩
  | 22 => ⟨S512x128, .f32⟩
  | 23 => ⟨S100000x1, .i32⟩
  | 24 => ⟨S512x128, .f32⟩
  | 25 => ⟨S_, .f32⟩
  | 26 => ⟨S512x128, .f32⟩
  | 27 => ⟨S100000x1, .i32⟩
  | 28 => ⟨S512x128, .f32⟩
  | 29 => ⟨S_, .f32⟩
  | 30 => ⟨S512x256, .f32⟩
  | 31 => ⟨S100000x1, .i32⟩
  | 32 => ⟨S512x256, .f32⟩
  | 33 => ⟨S512x6656, .f32⟩
  | 34 => ⟨S512x3328, .f32⟩
  | 35 => ⟨S1x3328, .f32⟩
  | 36 => ⟨S512x3328, .f32⟩
  | 37 => ⟨S512x3328, .f32⟩
  | 38 => ⟨S_, .f32⟩
  | 39 => ⟨S_, .f32⟩
  | 40 => ⟨S_, .f32⟩
  | 41 => ⟨S3328, .f32⟩
  | 42 => ⟨S3328, .f32⟩
  | 43 => ⟨S1x3328, .f32⟩
  | 44 => ⟨S512x3328, .f32⟩
  | 45 => ⟨S512x3328, .f32⟩
  | 46 => ⟨S1x3328, .f32⟩
  | 47 => ⟨S512x3328, .f32⟩
  | 48 => ⟨S512x3328, .f32⟩
  | 49 => ⟨S_, .f32⟩
  | 50 => ⟨S512x3328, .f32⟩
  | 51 => ⟨S512x3328, .f32⟩
  | 52 => ⟨S512x128, .f32⟩
  | 53 => ⟨S1x128, .f32⟩
  | 54 => ⟨S512x128, .f32⟩
  | 55 => ⟨S512x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call0_cst : Ref sig .tc := ⟨.hbm, 50, rfl⟩
abbrev main_call0_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_1 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call1_cst : Ref sig .tc := ⟨.hbm, 68, rfl⟩
abbrev main_call1_v0 : Ref sig .tc := ⟨.hbm, 69, rfl⟩
abbrev main_v34 : Ref sig .tc := ⟨.hbm, 70, rfl⟩
abbrev main_c_2 : Ref sig .tc := ⟨.hbm, 71, rfl⟩
abbrev main_v35 : Ref sig .tc := ⟨.hbm, 72, rfl⟩
abbrev main_v36 : Ref sig .tc := ⟨.hbm, 73, rfl⟩
abbrev main_c_3 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_call2_cst : Ref sig .tc := ⟨.hbm, 89, rfl⟩
abbrev main_call2_v0 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_5 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call3_cst : Ref sig .tc := ⟨.hbm, 107, rfl⟩
abbrev main_call3_v0 : Ref sig .tc := ⟨.hbm, 108, rfl⟩
abbrev main_v65 : Ref sig .tc := ⟨.hbm, 109, rfl⟩
abbrev main_c_6 : Ref sig .tc := ⟨.hbm, 110, rfl⟩
abbrev main_v66 : Ref sig .tc := ⟨.hbm, 111, rfl⟩
abbrev main_v67 : Ref sig .tc := ⟨.hbm, 112, rfl⟩
abbrev main_c_7 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_8 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_call4_cst : Ref sig .tc := ⟨.hbm, 128, rfl⟩
abbrev main_call4_v0 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_9 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_call5_cst : Ref sig .tc := ⟨.hbm, 146, rfl⟩
abbrev main_call5_v0 : Ref sig .tc := ⟨.hbm, 147, rfl⟩
abbrev main_v96 : Ref sig .tc := ⟨.hbm, 148, rfl⟩
abbrev main_cst_10 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_11 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_12 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_13 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_call6_cst : Ref sig .tc := ⟨.hbm, 177, rfl⟩
abbrev main_call6_v0 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128 : S_.BroadcastsInDim S128 (![] : Fin 0 → Fin S128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S256 : S_.BroadcastsInDim S256 (![] : Fin 0 → Fin S256.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512x256 : S_.BroadcastsInDim S512x256 (![] : Fin 0 → Fin S512x256.rank)
  concatenates_S512x128_S512x128_S512x256_S512x6144_S512x6656_d1 : Shape.Concatenates [S512x128, S512x128, S512x256, S512x6144] S512x6656 1
  bcast_S3328_S1x3328_1 : S3328.BroadcastsInDim S1x3328 (![1] : Fin 1 → Fin S1x3328.rank)
  bcast_S1x3328_S512x3328_0_1 : S1x3328.BroadcastsInDim S512x3328 (![0, 1] : Fin 2 → Fin S512x3328.rank)
  bcast_S_S3328 : S_.BroadcastsInDim S3328 (![] : Fin 0 → Fin S3328.rank)
  bcast_S_S512x3328 : S_.BroadcastsInDim S512x3328 (![] : Fin 0 → Fin S512x3328.rank)
  bcast_S1x128_S512x128_0_1 : S1x128.BroadcastsInDim S512x128 (![0, 1] : Fin 2 → Fin S512x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  scatter_S512x128_S100000x1_S100000x128_1_0_0_1_wf : ScatterDims.WF S512x128 S100000x1 S100000x128 [1] [0] [0] 1
  scatter_S512x256_S100000x1_S100000x256_1_0_0_1_wf : ScatterDims.WF S512x256 S100000x1 S100000x256 [1] [0] [0] 1
  dot_S512x6656_S6656x3328_S512x3328_1_0_0_1_n_n_wf : DotDims.WF S512x6656 S6656x3328 S512x3328 [1] [0] [0] [1] [] []
  dot_S512x3328_S3328x128_S512x128_1_0_0_1_n_n_wf : DotDims.WF S512x3328 S3328x128 S512x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def dot_S512x6656_S6656x3328_S512x3328_1_0_0_1_n_n : DotDims S512x6656 S6656x3328 S512x3328 where
  lhsContracting := [1]
  rhsContracting := [0]
  lhsNonContracting := [0]
  rhsNonContracting := [1]
  lhsBatch := []
  rhsBatch := []
  wf := dot_S512x6656_S6656x3328_S512x3328_1_0_0_1_n_n_wf
def dot_S512x3328_S3328x128_S512x128_1_0_0_1_n_n : DotDims S512x3328 S3328x128 S512x128 where
  lhsContracting := [1]
  rhsContracting := [0]
  lhsNonContracting := [0]
  rhsNonContracting := [1]
  lhsBatch := []
  rhsBatch := []
  wf := dot_S512x3328_S3328x128_S512x128_1_0_0_1_n_n_wf

class Facts : Prop extends Facts₀ where

variable [Facts]
-- ==== Proof.BitsConvRegion0.lean ====
/-
  Region 0 of @main: the row-blocked layer kernel on its grid of 50 points. A point's block of the two row-blocked
  operands is 2000 consecutive rows; the two weight matrices and the four row vectors are whole and stay resident. The
  body reads every input block whole and overwrites the output block whole with ONE value, the layer's formula of
  the eight input blocks. Stated at any contents `V` of the buffers when the region is entered, for any float instance.
-/
import proofs.«104188_j20804821582443_1_alg».proof.Proof.Gen.Kernel.Launch
import proofs.«104188_j20804821582443_1_alg».proof.Proof.Gen.Kernel.Skeleton
import proofs.«104188_j20804821582443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is not
    fetched its block index has not moved since the last fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: where it is not
    fetched its block index has not moved since the last fetch. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body reads and writes whole blocks -/

abbrev rc0_S2000x64 : Rect S2000x64 := Rect.unit (s := S2000x64) ![0, 0] S2000x64.size inb_S2000x64_S2000x64_0_0
abbrev rc0_S64x128 : Rect S64x128 := Rect.unit (s := S64x128) ![0, 0] S64x128.size inb_S64x128_S64x128_0_0
abbrev rc0_S1x128 : Rect S1x128 := Rect.unit (s := S1x128) ![0, 0] S1x128.size inb_S1x128_S1x128_0_0
abbrev rc0_S128x128 : Rect S128x128 := Rect.unit (s := S128x128) ![0, 0] S128x128.size inb_S128x128_S128x128_0_0
abbrev rc0_S2000x128 : Rect S2000x128 := Rect.unit (s := S2000x128) ![0, 0] S2000x128.size inb_S2000x128_S2000x128_0_0

/-- The output block after the body: its one whole-block store, the layer's formula of the eight input blocks. -/
def out0_8 (x0 : Vec F S2000x64 .f32) (x1 : Vec F S2000x64 .f32) (x2 : Vec F S64x128 .f32) (x3 : Vec F S1x128 .f32) (x4 : Vec F S128x128 .f32) (x5 : Vec F S1x128 .f32) (x6 : Vec F S1x128 .f32) (x7 : Vec F S1x128 .f32) : Vec F S2000x128 .f32 :=
  View.canon [⟨rc0_S2000x128, k0_pay1 (View.ld x0 rc0_S2000x64) (View.ld x1 rc0_S2000x64) (View.ld x2 rc0_S64x128) (View.ld x3 rc0_S1x128) (View.ld x4 rc0_S128x128) (View.ld x5 rc0_S1x128) (View.ld x6 rc0_S1x128) (View.ld x7 rc0_S1x128)⟩]

/-- The one store covers the block. -/
theorem cover0_8 (p0 : Vec F S2000x128 .f32) (y : S2000x128.Idx) :
    ∃ pc ∈ ([⟨rc0_S2000x128, p0⟩] : List (View.Piece (Elt F) S2000x128 .f32)), y ∈ pc.1.set :=
  View.cover_of_tiled [⟨rc0_S2000x128, p0⟩] S2000x128.size (by rfl) y

/-! ## The body's triple -/

set_option maxHeartbeats 4000000 in
/-- On whole staging memrefs, the inputs' at contents `xJ` and the output's at anything, the body runs to the
    continuation with the inputs' as they were and the output's at `out0_8` of the inputs'. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x64 .f32) (x1 : Vec F S2000x64 .f32) (x2 : Vec F S64x128 .f32) (x3 : Vec F S1x128 .f32) (x4 : Vec F S128x128 .f32) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__conv_kernel i arg1 harg1 arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The proof data -/

/-- The arrays as the region finds them; after the body at point `t` each input's buffer at its block and the output's
    at the layer's formula of the input blocks; the invariant carries nothing but the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- At any point the inputs' memrefs hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.BitsConvRegion1.lean ====
/-
  Region 1 of @main: the row-blocked layer kernel on its grid of 50 points. A point's block of the two row-blocked
  operands is 2000 consecutive rows; the two weight matrices and the four row vectors are whole and stay resident. The
  body reads every input block whole and overwrites the output block whole with ONE value, the layer's formula of
  the eight input blocks. Stated at any contents `V` of the buffers when the region is entered, for any float instance.
-/
import proofs.«104188_j20804821582443_1_alg».proof.Proof.Gen.Kernel.Launch
import proofs.«104188_j20804821582443_1_alg».proof.Proof.Gen.Kernel.Skeleton
import proofs.«104188_j20804821582443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body reads and writes whole blocks -/

abbrev rc1_S2000x128 : Rect S2000x128 := Rect.unit (s := S2000x128) ![0, 0] S2000x128.size inb_S2000x128_S2000x128_0_0
abbrev rc1_S128x128 : Rect S128x128 := Rect.unit (s := S128x128) ![0, 0] S128x128.size inb_S128x128_S128x128_0_0
abbrev rc1_S1x128 : Rect S1x128 := Rect.unit (s := S1x128) ![0, 0] S1x128.size inb_S1x128_S1x128_0_0

/-- The output block after the body: its one whole-block store, the layer's formula of the eight input blocks. -/
def out1_8 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) : Vec F S2000x128 .f32 :=
  View.canon [⟨rc1_S2000x128, k1_pay1 (View.ld x0 rc1_S2000x128) (View.ld x1 rc1_S2000x128) (View.ld x2 rc1_S128x128) (View.ld x3 rc1_S1x128) (View.ld x4 rc1_S128x128) (View.ld x5 rc1_S1x128) (View.ld x6 rc1_S1x128) (View.ld x7 rc1_S1x128)⟩]

/-- The one store covers the block. -/
theorem cover1_8 (p0 : Vec F S2000x128 .f32) (y : S2000x128.Idx) :
    ∃ pc ∈ ([⟨rc1_S2000x128, p0⟩] : List (View.Piece (Elt F) S2000x128 .f32)), y ∈ pc.1.set :=
  View.cover_of_tiled [⟨rc1_S2000x128, p0⟩] S2000x128.size (by rfl) y

/-! ## The body's triple -/

set_option maxHeartbeats 4000000 in
/-- On whole staging memrefs, the inputs' at contents `xJ` and the output's at anything, the body runs to the
    continuation with the inputs' as they were and the output's at `out1_8` of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__conv_kernel i arg1 harg1 arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The proof data -/

/-- The arrays as the region finds them; after the body at point `t` each input's buffer at its block and the output's
    at the layer's formula of the input blocks; the invariant carries nothing but the untouched rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- At any point the inputs' memrefs hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.BitsConvRegion2.lean ====
/-
  Region 2 of @main: the row-blocked layer kernel on its grid of 50 points. A point's block of the two row-blocked
  operands is 2000 consecutive rows; the two weight matrices and the four row vectors are whole and stay resident. The
  body reads every input block whole and overwrites the output block whole with ONE value, the layer's formula of
  the eight input blocks. Stated at any contents `V` of the buffers when the region is entered, for any float instance.
-/
import proofs.«104188_j20804821582443_1_alg».proof.Proof.Gen.Kernel.Launch
import proofs.«104188_j20804821582443_1_alg».proof.Proof.Gen.Kernel.Skeleton
import proofs.«104188_j20804821582443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched its block index has not moved since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it is not
    fetched its block index has not moved since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: where it is not
    fetched its block index has not moved since the last fetch. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body reads and writes whole blocks -/

abbrev rc2_S2000x128 : Rect S2000x128 := Rect.unit (s := S2000x128) ![0, 0] S2000x128.size inb_S2000x128_S2000x128_0_0
abbrev rc2_S128x256 : Rect S128x256 := Rect.unit (s := S128x256) ![0, 0] S128x256.size inb_S128x256_S128x256_0_0
abbrev rc2_S1x256 : Rect S1x256 := Rect.unit (s := S1x256) ![0, 0] S1x256.size inb_S1x256_S1x256_0_0
abbrev rc2_S256x256 : Rect S256x256 := Rect.unit (s := S256x256) ![0, 0] S256x256.size inb_S256x256_S256x256_0_0
abbrev rc2_S2000x256 : Rect S2000x256 := Rect.unit (s := S2000x256) ![0, 0] S2000x256.size inb_S2000x256_S2000x256_0_0

/-- The output block after the body: its one whole-block store, the layer's formula of the eight input blocks. -/
def out2_8 (x0 : Vec F S2000x128 .f32) (x1 : Vec F S2000x128 .f32) (x2 : Vec F S128x256 .f32) (x3 : Vec F S1x256 .f32) (x4 : Vec F S256x256 .f32) (x5 : Vec F S1x256 .f32) (x6 : Vec F S1x256 .f32) (x7 : Vec F S1x256 .f32) : Vec F S2000x256 .f32 :=
  View.canon [⟨rc2_S2000x256, k2_pay1 (View.ld x0 rc2_S2000x128) (View.ld x1 rc2_S2000x128) (View.ld x2 rc2_S128x256) (View.ld x3 rc2_S1x256) (View.ld x4 rc2_S256x256) (View.ld x5 rc2_S1x256) (View.ld x6 rc2_S1x256) (View.ld x7 rc2_S1x256)⟩]

/-- The one store covers the block. -/
theorem cover2_8 (p0 : Vec F S2000x256 .f32) (y : S2000x256.Idx) :
    ∃ pc ∈ ([⟨rc2_S2000x256, p0⟩] : List (View.Piece (Elt F) S2000x256 .f32)), y ∈ pc.1.set :=
  View.cover_of_tiled [⟨rc2_S2000x256, p0⟩] S2000x256.size (by rfl) y

/-! ## The body's triple -/

set_option maxHeartbeats 4000000 in
/-- On whole staging memrefs, the inputs' at contents `xJ` and the output's at anything, the body runs to the
    continuation with the inputs' as they were and the output's at `out2_8` of the inputs'. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2000x256 .f32) (harg9 : arg9.IsWhole)
    (x0 : Vec F S2000x128 .f32) (x1 : Vec F S2000x128 .f32) (x2 : Vec F S128x256 .f32) (x3 : Vec F S1x256 .f32) (x4 : Vec F S256x256 .f32) (x5 : Vec F S1x256 .f32) (x6 : Vec F S1x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9) K := by
  simp only [cc2__conv_kernel_eq_skeleton]; unfold cc2__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The proof data -/

/-- The arrays as the region finds them; after the body at point `t` each input's buffer at its block and the output's
    at the layer's formula of the input blocks; the invariant carries nothing but the untouched rest; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- At any point the inputs' memrefs hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.BitsFinalRegion.lean ====
/- Region 3 of @main — custom_call 3, `cc3__final_kernel` (pipeline 3: eight windows, inputs 0 to 6 and output 7, a grid of
   13 points) — at a PARAMETER `V`, the TensorCore's buffer contents when the region is entered.

   The body carries an f32 accumulator in a VMEM scratch (`cc3_scratch0`) across the grid: at the first point it zeroes
   the scratch whole, at every point it adds the product of the point's blocks of windows 0 and 1, and at the last point it
   stores the output block, a readout of the final accumulator and of the five resident blocks (windows 2 to 6). So the
   region invariant is not constant: it owns the scratch at the accumulator's contents after the points so far
   (`acc3`: the zero tile `k3_pay1`, then `k3_pay2` of the sum so far and the point's two blocks), at anything before the
   first point. The output window is idle at every point but the last, where its staging buffer is left at `k3_pay3` of
   the final accumulator (`out3_7`).

   Stated here, at any `F`: the body's triple in each of its three control cases (`kernelRun3_first`, `kernelRun3_mid`,
   `kernelRun3_last`), the proof data `dat3`, the body obligation `body_obligation3`, and the two entailments that take the
   scoped rest and the generator register into the invariant before the first point (`hin3`) and back out of it after
   the last (`hout3`); and the output array after the region read through the last point's block (`outRead3`). -/
import proofs.«104188_j20804821582443_1_alg».proof.Proof.Gen.Kernel.Launch
import proofs.«104188_j20804821582443_1_alg».proof.Proof.Gen.Kernel.Skeleton
import proofs.«104188_j20804821582443_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole buffer's own rectangle

Every access of this body is through the rectangle at zero offsets of the buffer's own sizes: a load through it
reads the buffer's contents, a store through it leaves its payload whatever was there, and a load after such a
store reads that payload. -/

/-- The zero offsets of a rank-two rectangle, as the body spells them. -/
theorem zeros_two : (![0, 0] : Fin 2 → ℕ) = fun _ => 0 := by
  funext a; fin_cases a <;> rfl

/-- A load through the whole-shape rectangle reads what the view reads. -/
theorem readAt_unit_zero {sig' : RefSig} {κ : Kind} {sp : Space} {Val : EltTy → Type} {S : Shape} {e : EltTy}
    (v : View sig' κ sp S e) {off : Fin S.rank → ℕ} (h : off = fun _ => 0) (inb : ∀ a, off a + S.size a ≤ S.size a)
    (f : v.ty.Contents Val) :
    v.readAt Val (Rect.unit off S.size inb).toLoadRect f = v.read Val f :=
  (View.readAt_eq_ld v f (Rect.unit off S.size inb)).trans (View.ld_unit_zero h inb _)

/-- After a last store through the whole-shape rectangle the view reads that store's payload. -/
theorem read_writes_cons_unit_zero {sig' : RefSig} {κ : Kind} {sp : Space} {Val : EltTy → Type} [∀ e, Nonempty (Val e)]
    {S : Shape} {e : EltTy} (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

/-- A load through the whole-shape rectangle after a last store through it reads that store's payload. -/
theorem readCov_cons_unit_zero {sig' : RefSig} {κ : Kind} {sp : Space} {Val : EltTy → Type} [∀ e, Nonempty (Val e)]
    {S : Shape} {e : EltTy} (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

/-- The condition of the body's first `scf.if` (zero the accumulator), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The condition of the body's second `scf.if` (compute the output block). -/
abbrev cond3_1 (i : grid3.Coords) : Prop := k3_cond2 i = 1#1
/-- It holds at the last point only. -/
theorem hcond3_1 : ∀ t : Fin cfg3.N, cond3_1 (grid3.coords t) ↔ t.val = 12 :=
  (by decide +kernel : ∀ t : Fin grid3.N, cond3_1 (grid3.coords t) ↔ t.val = 12)

/-! ## The body's triple, one per control case

On whole memrefs — the seven inputs' staging memrefs at read contents `x0 … x6`, the output's staging memref, the
accumulator scratch —, the printed body is its skeleton, run operation by operation, each `scf.if` decided by the case's
hypotheses. What each buffer reads afterwards is stated in closed form over the skeleton's payloads. -/

set_option maxHeartbeats 1000000 in
/-- A MIDDLE point (neither `scf.if` taken): the accumulator, found at `a`, is left at `a` plus the product of the
    point's two blocks (`k3_pay2 a x0 x1`); the output's buffer is handed back as found (`x7`). -/
theorem kernelRun3_mid (c : Dev nD) (i : grid3.Coords) (arg1 : Memref sig .tc .vmem S512x512 .bf16) (harg1 : arg1.IsWhole) (arg2 : Memref sig .tc .vmem S512x3328 .bf16) (harg2 : arg2.IsWhole) (arg3 : Memref sig .tc .vmem S1x3328 .f32) (harg3 : arg3.IsWhole) (arg4 : Memref sig .tc .vmem S1x3328 .f32) (harg4 : arg4.IsWhole) (arg5 : Memref sig .tc .vmem S1x3328 .f32) (harg5 : arg5.IsWhole) (arg6 : Memref sig .tc .vmem S3328x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S512x3328 .f32) (harg9 : arg9.IsWhole) (hc0 : ¬cond3_0 i) (hc1 : ¬cond3_1 i)
    (x0 : Vec F S512x512 .bf16) (x1 : Vec F S512x3328 .bf16) (x2 : Vec F S1x3328 .f32) (x3 : Vec F S1x3328 .f32) (x4 : Vec F S1x3328 .f32) (x5 : Vec F S3328x128 .bf16) (x6 : Vec F S1x128 .f32) (x7 : Vec F S512x128 .f32) (a : Vec F S512x3328 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare a
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
              ∗ owns (c : Thread nD τ) arg9 fullShare (k3_pay2 a x0 x1)) -∗ K ⟨⟩))
          ⊢ wp frame (wpE (defs₀ (F := F)) Variants.none c none) E (cc3__final_kernel i arg1 harg1 arg2 harg2 arg3 harg3 arg4 harg4 arg5 harg5 arg6 harg6 arg7 harg7 arg8 harg8 arg9 harg9) K := by
    intro E K
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, Hk⟩
    subst hf0 hf1 hf2 hf3 hf4 hf5 hf6 hf7 hf9
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    iexists _; isplitr; swap; · iexact H9
    ipureintro
    refine (read_writes_cons_unit_zero (S := S512x3328) _ _ zeros_two _ _ _).trans ?_
    rw [readAt_unit_zero (S := S512x3328) _ zeros_two, readAt_unit_zero (S := S512x512) _ zeros_two, readAt_unit_zero (S := S512x3328) _ zeros_two]

set_option maxHeartbeats 1000000 in
/-- The FIRST point (the first `scf.if` taken, the second not): the accumulator, found at anything, is overwritten
    whole by the zero tile `k3_pay1` and then left at the zero tile plus the product of the point's two blocks; the
    output's buffer is handed back as found (`x7`). -/
theorem kernelRun3_first (c : Dev nD) (i : grid3.Coords) (arg1 : Memref sig .tc .vmem S512x512 .bf16) (harg1 : arg1.IsWhole) (arg2 : Memref sig .tc .vmem S512x3328 .bf16) (harg2 : arg2.IsWhole) (arg3 : Memref sig .tc .vmem S1x3328 .f32) (harg3 : arg3.IsWhole) (arg4 : Memref sig .tc .vmem S1x3328 .f32) (harg4 : arg4.IsWhole) (arg5 : Memref sig .tc .vmem S1x3328 .f32) (harg5 : arg5.IsWhole) (arg6 : Memref sig .tc .vmem S3328x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S512x3328 .f32) (harg9 : arg9.IsWhole) (hc0 : cond3_0 i) (hc1 : ¬cond3_1 i)
    (x0 : Vec F S512x512 .bf16) (x1 : Vec F S512x3328 .bf16) (x2 : Vec F S1x3328 .f32) (x3 : Vec F S1x3328 .f32) (x4 : Vec F S1x3328 .f32) (x5 : Vec F S3328x128 .bf16) (x6 : Vec F S1x128 .f32) (x7 : Vec F S512x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
              ∗ owns (c : Thread nD τ) arg9 fullShare (k3_pay2 (k3_pay1 (F := F)) x0 x1)) -∗ K ⟨⟩))
          ⊢ wp frame (wpE (defs₀ (F := F)) Variants.none c none) E (cc3__final_kernel i arg1 harg1 arg2 harg2 arg3 harg3 arg4 harg4 arg5 harg5 arg6 harg6 arg7 harg7 arg8 harg8 arg9 harg9) K := by
    intro E K
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, Hk⟩
    subst hf0 hf1 hf2 hf3 hf4 hf5 hf6 hf7
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    iexists _; isplitr; swap; · iexact H9
    ipureintro
    refine (read_writes_cons_unit_zero (S := S512x3328) _ _ zeros_two _ _ _).trans ?_
    sl_unfold_run_names
    rw [readCov_cons_unit_zero (S := S512x3328) _ zeros_two, readAt_unit_zero (S := S512x512) _ zeros_two, readAt_unit_zero (S := S512x3328) _ zeros_two]

set_option maxHeartbeats 1000000 in
/-- The LAST point (the second `scf.if` taken, the first not): the accumulator, found at `a`, is left at
    `k3_pay2 a x0 x1`, and the output's buffer, found at anything, is stored whole with the readout `k3_pay3` of that
    final accumulator and the five resident blocks. -/
theorem kernelRun3_last (c : Dev nD) (i : grid3.Coords) (arg1 : Memref sig .tc .vmem S512x512 .bf16) (harg1 : arg1.IsWhole) (arg2 : Memref sig .tc .vmem S512x3328 .bf16) (harg2 : arg2.IsWhole) (arg3 : Memref sig .tc .vmem S1x3328 .f32) (harg3 : arg3.IsWhole) (arg4 : Memref sig .tc .vmem S1x3328 .f32) (harg4 : arg4.IsWhole) (arg5 : Memref sig .tc .vmem S1x3328 .f32) (harg5 : arg5.IsWhole) (arg6 : Memref sig .tc .vmem S3328x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S512x3328 .f32) (harg9 : arg9.IsWhole) (hc0 : ¬cond3_0 i) (hc1 : cond3_1 i)
    (x0 : Vec F S512x512 .bf16) (x1 : Vec F S512x3328 .bf16) (x2 : Vec F S1x3328 .f32) (x3 : Vec F S1x3328 .f32) (x4 : Vec F S1x3328 .f32) (x5 : Vec F S3328x128 .bf16) (x6 : Vec F S1x128 .f32) (a : Vec F S512x3328 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ (∃ d, owns (c : Thread nD τ) arg8 fullShare d) ∗ owns (c : Thread nD τ) arg9 fullShare a
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k3_pay3 (k3_pay2 a x0 x1) x2 x3 x4 x5 x6)
              ∗ owns (c : Thread nD τ) arg9 fullShare (k3_pay2 a x0 x1)) -∗ K ⟨⟩))
          ⊢ wp frame (wpE (defs₀ (F := F)) Variants.none c none) E (cc3__final_kernel i arg1 harg1 arg2 harg2 arg3 harg3 arg4 harg4 arg5 harg5 arg6 harg6 arg7 harg7 arg8 harg8 arg9 harg9) K := by
    intro E K
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f9, %hf9, H9⟩, Hk⟩
    subst hf0 hf1 hf2 hf3 hf4 hf5 hf6 hf9
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; swap; · iexact H7
      ipureintro
      refine (read_writes_cons_unit_zero (S := S512x128) _ _ zeros_two _ _ _).trans ?_
      sl_unfold_run_names
      rw [readCov_cons_unit_zero (S := S512x3328) _ zeros_two, readAt_unit_zero (S := S512x3328) _ zeros_two, readAt_unit_zero (S := S512x512) _ zeros_two, readAt_unit_zero (S := S512x3328) _ zeros_two,
        readAt_unit_zero (S := S1x3328) _ zeros_two, readAt_unit_zero (S := S1x3328) _ zeros_two, readAt_unit_zero (S := S1x3328) _ zeros_two,
        readAt_unit_zero (S := S3328x128) _ zeros_two, readAt_unit_zero (S := S1x128) _ zeros_two]
    iexists _; isplitr; swap; · iexact H9
    ipureintro
    sl_unfold_run_names
    refine (read_writes_cons_unit_zero (S := S512x3328) _ _ zeros_two _ _ _).trans ?_
    rw [readAt_unit_zero (S := S512x3328) _ zeros_two, readAt_unit_zero (S := S512x512) _ zeros_two, readAt_unit_zero (S := S512x3328) _ zeros_two]

section Region
-- the TensorCore's buffer contents when the region is entered: the parameter the region's proof data is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not (windows 0 and 1
    move with the point and are fetched at each; windows 2 to 6 have a constant block index and are fetched at the first
    point only), for ANY proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator and the output block -/

/-- The accumulator's contents after `n` points: the zero tile, then at each point the sum so far plus the product of
    the point's blocks of windows 0 and 1 (the skeleton's payloads `k3_pay1`, `k3_pay2`). -/
def acc3 (c : Dev nD) : (n : ℕ) → n ≤ cfg3.N → Vec F S512x3328 .f32
  | 0, _ => k3_pay1 (F := F)
  | n + 1, hn => k3_pay2 (acc3 c n (Nat.le_of_succ_le hn)) (iblk3 V c 0 ⟨n, hn⟩) (iblk3 V c 1 ⟨n, hn⟩)

/-- Before any point the accumulator is the zero tile. -/
theorem acc3_zero (c : Dev nD) (n : ℕ) (h : n ≤ cfg3.N) (hz : n = 0) : acc3 V c n h = k3_pay1 (F := F) := by
  subst hz; rfl

/-- After point `t`: what it was before the point plus the product of the point's two blocks. -/
theorem acc3_succ (c : Dev nD) (t : Fin cfg3.N) :
    acc3 V c (t.val + 1) t.isLt = k3_pay2 (acc3 V c t.val (Nat.le_of_lt t.isLt)) (iblk3 V c 0 t) (iblk3 V c 1 t) := by
  rw [acc3]

/-- What the body's store leaves in the output window's staging buffer at a point that stores it (the last): the
    readout `k3_pay3` of the accumulator after the point and the five resident blocks. -/
def out3_7 (c : Dev nD) (t : Fin cfg3.N) : Vec F S512x128 .f32 :=
  k3_pay3 (acc3 V c (t.val + 1) t.isLt) (iblk3 V c 2 t) (iblk3 V c 3 t) (iblk3 V c 4 t) (iblk3 V c 5 t) (iblk3 V c 6 t)

/-! ## The staging memrefs, the scratch and the invariant -/

/-- Each window's current staging memref at point `t`, spelled as the pipeline passes it (`bodyAt3`), and its wholeness. -/
abbrev ms3_0 (t : Fin cfg3.N) : Memref sig .tc .vmem S512x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x3328 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x3328 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x3328 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x3328 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S3328x128 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x128 .f32 := win3_7.stage (cfg3.slots t 7)
abbrev hs3_7 (t : Fin cfg3.N) : (ms3_7 t).IsWhole := hstage3_7 ((cfg3.slots t 7).cast nbuf3_7)
/-- The accumulator: the call's scratch operand, a whole scoped buffer of its own. -/
abbrev scM3 : Memref sig .tc .vmem S512x3328 .f32 := Memref.whole cc3_scratch0

/-- What rides through every point untouched: every other scoped buffer that is no staging buffer of this call, at some
    contents each, and the generator register at some state. -/
abbrev restS3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The region invariant before position `n`: the accumulator scratch owned whole — before the first point at anything
    (the first point overwrites it whole), afterwards at `acc3 n` —, beside `restS3`. -/
def PhiS3 (c : Dev nD) (n : ℕ) (h : n ≤ cfg3.N) : sProp 𝕄 :=
  iprop((∃ d, ⌜n ≠ 0 → d = acc3 V c n h⌝ ∗ owns (c : Thread nD τ) scM3 fullShare d) ∗ restS3 (F := F) c)

/-! ## The pipeline's proof data -/

/-- The proof data of pipeline 3 on core `c`: the arrays as the region finds them (`V`); after the body at point `t`
    each input's buffer at its block and the output's at `out3_7`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- The invariant at a point's start and end, restated at the point's position. -/
theorem Phi3_castSucc (c : Dev nD) (t : Fin cfg3.N) :
    (dat3 V c).Φ t.castSucc = PhiS3 V c t.val (Nat.le_of_lt t.isLt) := by
  dsimp only [dat3]; simp only [Fin.coe_castSucc]
theorem Phi3_succ (c : Dev nD) (t : Fin cfg3.N) :
    (dat3 V c).Φ t.succ = PhiS3 V c (t.val + 1) t.isLt := rfl

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
/-- Where the second `scf.if` is not taken the output window is idle (nothing is stored into it) and is not written back. -/
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
/-- Where it is taken the window is live. -/
theorem liveAt3_7 : ∀ t : Fin cfg3.N, cond3_1 (grid3.coords t) → cfg3.idle 7 (grid3.coords t) = false := by decide +kernel

/-! ## The body obligation, at a generic point -/

/-- What the body is called with at point `t` (`BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4000000 in
/-- The body at any point: the inputs' memrefs hold their blocks; the conditions' closed forms say which case the point
    is in; the invariant hands the body the accumulator (at anything before the first point, else at `acc3` of the
    position) and takes it back at `acc3` of the next position; the output's buffer is handed back as found where the
    window is idle and at `out3_7` at the last point; `restS3` and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [Phi3_succ, Phi3_castSucc]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  unfold PhiS3
  by_cases h1 : t.val = 12
  · have h0 : ¬ t.val = 0 := by omega
    rw [show (dat3 V c).leavesExact 7 t = owns (c : Thread nD τ) (ms3_7 t) fullShare ((dat3 V c).after 7 t) from by
      unfold Dat.leavesExact; rw [liveAt3_7 t ((hcond3_1 t).mpr h1)], after3_7]
    unfold out3_7
    rw [acc3_succ]
    iintro ⟨⟨⟨%a, %ha, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := ha h0
    iapply (kernelRun3_last c (grid3.coords t) _ _ _ _ _ _ _ _ _ _ _ _ _ _ _ _ _ _ (fun h => h0 ((hcond3_0 t).mp h)) ((hcond3_1 t).mpr h1)
      (iblk3 V c 0 t) (iblk3 V c 1 t) (iblk3 V c 2 t) (iblk3 V c 3 t) (iblk3 V c 4 t) (iblk3 V c 5 t) (iblk3 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest]
    · isplitl [HS]
      · iexists _; isplitr; · ipureintro; intro _; rfl
        iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat3 V c) 7 t (idleAt3_7 t (fun h => h1 ((hcond3_1 t).mp h))) (noFlush3_7 t (fun h => h1 ((hcond3_1 t).mp h)))]
    rw [acc3_succ]
    by_cases h0 : t.val = 0
    · rw [acc3_zero V c _ _ h0]
      iintro ⟨⟨⟨%a, -, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun3_first c (grid3.coords t) _ _ _ _ _ _ _ _ _ _ _ _ _ _ _ _ _ _ ((hcond3_0 t).mpr h0) (fun h => h1 ((hcond3_1 t).mp h))
        (iblk3 V c 0 t) (iblk3 V c 1 t) (iblk3 V c 2 t) (iblk3 V c 3 t) (iblk3 V c 4 t) (iblk3 V c 5 t) (iblk3 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS Hrest]
      · isplitl [HS]
        · iexists _; isplitr; · ipureintro; intro _; rfl
          iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · iintro ⟨⟨⟨%a, %ha, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha h0
      iapply (kernelRun3_mid c (grid3.coords t) _ _ _ _ _ _ _ _ _ _ _ _ _ _ _ _ _ _ (fun h => h0 ((hcond3_0 t).mp h)) (fun h => h1 ((hcond3_1 t).mp h))
        (iblk3 V c 0 t) (iblk3 V c 1 t) (iblk3 V c 2 t) (iblk3 V c 3 t) (iblk3 V c 4 t) (iblk3 V c 5 t) (iblk3 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hrest]
      · isplitl [HS]
        · iexists _; isplitr; · ipureintro; intro _; rfl
          iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant at the first point and out of it after the last -/

/-- The call's scratch as the region hands it over (whole, at some contents) is the accumulator memref owned at some contents. -/
theorem scratch3_eq (c : Dev nD) :
    (iprop(∃ f : Buf (Elt F) ((c : Thread nD τ).loc cc3_scratch0), ((c : Thread nD τ).loc cc3_scratch0) ↦{fullShare} f) : sProp 𝕄)
      = iprop(∃ d, owns (c : Thread nD τ) scM3 fullShare d) := by
  simp only [scM3, owns_whole]; try rfl

/-- ENTRY: the generator register and the scoped buffers no window stages make the invariant before the first point —
    the accumulator comes out of the scoped rest at whatever it holds. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = PhiS3 V c 0 (Nat.zero_le _) from rfl]; unfold PhiS3
  rw [scopedRest3_split, scratch3_eq]
  iintro ⟨Hp, ⟨%d, Hs⟩, Hr⟩
  isplitl [Hs]
  · iexists d; isplitr; · ipureintro; intro h; exact absurd rfl h
    iexact Hs
  isplitl [Hr]; · iexact Hr
  iexact Hp

/-- EXIT: the invariant at any position gives the generator register and those scoped buffers back — what the
    accumulator holds is forgotten. -/
theorem Phi3_out (c : Dev nD) (n : ℕ) (h : n ≤ cfg3.N) :
    PhiS3 V c n h
      ⊢ iprop((∃ r, prngReg c r) ∗ Pipeline.scopedRest (Ix := Unit) (Name := ℕ) (U := UR sig nD τ) (Lvl := ℕ) (Val := Elt F) spec3 c) := by
  unfold PhiS3
  rw [scopedRest3_split, scratch3_eq]
  iintro ⟨⟨%d, -, Hs⟩, Hr, Hp⟩
  isplitl [Hp]; · iexact Hp
  isplitl [Hs]; · iexists d; iexact Hs
  iexact Hr

/-- The same after the last point. -/
theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) :=
  Phi3_out V c _ _

/-! ## The output array after the region -/

/-- Only the last point writes the output window back, so no two write-backs meet. -/
theorem flushDisj3_7 : ∀ t t' : Fin cfg3.N, (cfg3.win 7).flush t = true → (cfg3.win 7).flush t' = true → t ≠ t' →
    Disjoint ((cfg3.win 7).blk t).view.set ((cfg3.win 7).blk t').view.set := by
  intro t t' h h' hne
  exfalso
  have e := (flush3_7 t).mp h
  have e' := (flush3_7 t').mp h'
  have hN : cfg3.N = 13 := N_3
  have ht := t.isLt
  have ht' := t'.isLt
  exact hne (Fin.ext (by omega))

/-- The output array after the region's write-backs, read through the block of the last point, is the readout of the
    final accumulator: what the body left in the staging buffer there. -/
theorem outRead3 (c : Dev nD) :
    ((cfg3.win 7).blk t3_12).view.read (Elt F) ((dat3 V c).arrAt 7 cfg3.N) = out3_7 V c t3_12 :=
  ((dat3 V c).read_blk_arrAt_eq_flushed 7 flushDisj3_7 cfg3.N t3_12 t3_12.isLt ((flush3_7 t3_12).mpr (by decide))).trans
    (after3_7 V c t3_12)

end Region

end Cert.Kernel.Gen

end
-- ==== Proof.BitsRunChain.lean ====
/-
  The buffers' contents at every boundary of @main, from the launch memory `m`: a stretch of host operations is applied
  to the contents before it; a region changes only its output array, which ends holding what its blocks wrote back.
  For each region the two facts its exit needs: its arrays end at those contents, and nothing else moved.
-/
import proofs.«104188_j20804821582443_1_alg».proof.Proof.Gen.Kernel.Regions
import proofs.«104188_j20804821582443_1_alg».proof.Proof.BitsConvRegion0
import proofs.«104188_j20804821582443_1_alg».proof.Proof.BitsConvRegion1
import proofs.«104188_j20804821582443_1_alg».proof.Proof.BitsConvRegion2
import proofs.«104188_j20804821582443_1_alg».proof.Proof.BitsFinalRegion

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The buffers when region 0 is entered: the first stretch of host operations applied to the launch memory. -/
abbrev A1 (c : Dev nD) : Valuation τ sig (Elt F) := StableHlo.after hostOps0 (fun b => m (c, b))
abbrev B1 : (c : Dev nD) → (b : Ref sig .tc) → Buf (Elt F) ((c : Thread nD τ).loc b) := fun c b => A1 m c b

/-! ## Region 0 -/

/-- What region 0 leaves in its output array: its blocks' write-backs over all points. -/
def o22 (c : Dev nD) : Buf (Elt F) ((c : Thread nD τ).loc main_v22) := (dat0 (B1 m) c).arrAt 8 cfg0.N
/-- The buffers when region 0 is left: its output array at what it wrote, every other buffer as entered. -/
abbrev A2 (c : Dev nD) : Valuation τ sig (Elt F) := Function.update (A1 m c) main_v22 (o22 m c)
theorem A2_of (c : Dev nD) (r : Ref sig .tc) (h : r ≠ main_v22) : A2 m c r = A1 m c r := by
  simp only [A2, Function.update_of_ne (StableHlo.devRef_ne_of_ne h : (Proc.devRef .tc r : DevRef τ sig) ≠ Proc.devRef .tc main_v22)]
theorem A2_same (c : Dev nD) : A2 m c main_v22 = o22 m c := by
  simp only [A2, Function.update_self]
theorem arr0_0_ne : Pipeline.arrRef spec0 0 ≠ main_v22 := by decide
theorem arr0_1_ne : Pipeline.arrRef spec0 1 ≠ main_v22 := by decide
theorem arr0_2_ne : Pipeline.arrRef spec0 2 ≠ main_v22 := by decide
theorem arr0_3_ne : Pipeline.arrRef spec0 3 ≠ main_v22 := by decide
theorem arr0_4_ne : Pipeline.arrRef spec0 4 ≠ main_v22 := by decide
theorem arr0_5_ne : Pipeline.arrRef spec0 5 ≠ main_v22 := by decide
theorem arr0_6_ne : Pipeline.arrRef spec0 6 ≠ main_v22 := by decide
theorem arr0_7_ne : Pipeline.arrRef spec0 7 ≠ main_v22 := by decide
/-- An input array ends as entered (no point writes it back); the output array ends at its write-backs. -/
theorem hF0_0 (c : Dev nD) : (dat0 (B1 m) c).arrAt 0 cfg0.N = A2 m c (Pipeline.arrRef spec0 0) :=
  ((dat0 (B1 m) c).arrAt_in 0 rfl _).trans ((A_eq0 (B1 m) c 0).trans (A2_of m c (Pipeline.arrRef spec0 0) arr0_0_ne).symm)
theorem hF0_1 (c : Dev nD) : (dat0 (B1 m) c).arrAt 1 cfg0.N = A2 m c (Pipeline.arrRef spec0 1) :=
  ((dat0 (B1 m) c).arrAt_in 1 rfl _).trans ((A_eq0 (B1 m) c 1).trans (A2_of m c (Pipeline.arrRef spec0 1) arr0_1_ne).symm)
theorem hF0_2 (c : Dev nD) : (dat0 (B1 m) c).arrAt 2 cfg0.N = A2 m c (Pipeline.arrRef spec0 2) :=
  ((dat0 (B1 m) c).arrAt_in 2 rfl _).trans ((A_eq0 (B1 m) c 2).trans (A2_of m c (Pipeline.arrRef spec0 2) arr0_2_ne).symm)
theorem hF0_3 (c : Dev nD) : (dat0 (B1 m) c).arrAt 3 cfg0.N = A2 m c (Pipeline.arrRef spec0 3) :=
  ((dat0 (B1 m) c).arrAt_in 3 rfl _).trans ((A_eq0 (B1 m) c 3).trans (A2_of m c (Pipeline.arrRef spec0 3) arr0_3_ne).symm)
theorem hF0_4 (c : Dev nD) : (dat0 (B1 m) c).arrAt 4 cfg0.N = A2 m c (Pipeline.arrRef spec0 4) :=
  ((dat0 (B1 m) c).arrAt_in 4 rfl _).trans ((A_eq0 (B1 m) c 4).trans (A2_of m c (Pipeline.arrRef spec0 4) arr0_4_ne).symm)
theorem hF0_5 (c : Dev nD) : (dat0 (B1 m) c).arrAt 5 cfg0.N = A2 m c (Pipeline.arrRef spec0 5) :=
  ((dat0 (B1 m) c).arrAt_in 5 rfl _).trans ((A_eq0 (B1 m) c 5).trans (A2_of m c (Pipeline.arrRef spec0 5) arr0_5_ne).symm)
theorem hF0_6 (c : Dev nD) : (dat0 (B1 m) c).arrAt 6 cfg0.N = A2 m c (Pipeline.arrRef spec0 6) :=
  ((dat0 (B1 m) c).arrAt_in 6 rfl _).trans ((A_eq0 (B1 m) c 6).trans (A2_of m c (Pipeline.arrRef spec0 6) arr0_6_ne).symm)
theorem hF0_7 (c : Dev nD) : (dat0 (B1 m) c).arrAt 7 cfg0.N = A2 m c (Pipeline.arrRef spec0 7) :=
  ((dat0 (B1 m) c).arrAt_in 7 rfl _).trans ((A_eq0 (B1 m) c 7).trans (A2_of m c (Pipeline.arrRef spec0 7) arr0_7_ne).symm)
theorem hF0_8 (c : Dev nD) : (dat0 (B1 m) c).arrAt 8 cfg0.N = A2 m c (Pipeline.arrRef spec0 8) := (A2_same m c).symm
set_option maxHeartbeats 2000000 in
/-- Each of the region's arrays ends at what the pipeline leaves there. -/
theorem hF0 (c : Dev nD) : ∀ w : Fin cfg0.W, (dat0 (B1 m) c).arrAt w cfg0.N = A2 m c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨8, _⟩ => hF0_8 m c
/-- Off the region's arrays nothing changed. -/
theorem hrest0 (c : Dev nD) : ∀ b, b ∉ Finset.univ.image (Pipeline.arrRef spec0) → A2 m c b = A1 m c b :=
  fun b hb => A2_of m c b fun e => hb (Finset.mem_image.mpr ⟨8, Finset.mem_univ _, e.symm⟩)
/-- The buffers when region 1 is entered: the next stretch of host operations applied. -/
abbrev A3 (c : Dev nD) : Valuation τ sig (Elt F) := StableHlo.after hostOps1 (A2 m c)
/-- The same, read at the TensorCore's references. -/
abbrev B3 : (c : Dev nD) → (b : Ref sig .tc) → Buf (Elt F) ((c : Thread nD τ).loc b) := fun c b => A3 m c b

/-! ## Region 1 -/

/-- What region 1 leaves in its output array: its blocks' write-backs over all points. -/
def o41 (c : Dev nD) : Buf (Elt F) ((c : Thread nD τ).loc main_v41) := (dat1 (B3 m) c).arrAt 8 cfg1.N
/-- The buffers when region 1 is left: its output array at what it wrote, every other buffer as entered. -/
abbrev A4 (c : Dev nD) : Valuation τ sig (Elt F) := Function.update (A3 m c) main_v41 (o41 m c)
theorem A4_of (c : Dev nD) (r : Ref sig .tc) (h : r ≠ main_v41) : A4 m c r = A3 m c r := by
  simp only [A4, Function.update_of_ne (StableHlo.devRef_ne_of_ne h : (Proc.devRef .tc r : DevRef τ sig) ≠ Proc.devRef .tc main_v41)]
theorem A4_same (c : Dev nD) : A4 m c main_v41 = o41 m c := by
  simp only [A4, Function.update_self]
theorem arr1_0_ne : Pipeline.arrRef spec1 0 ≠ main_v41 := by decide
theorem arr1_1_ne : Pipeline.arrRef spec1 1 ≠ main_v41 := by decide
theorem arr1_2_ne : Pipeline.arrRef spec1 2 ≠ main_v41 := by decide
theorem arr1_3_ne : Pipeline.arrRef spec1 3 ≠ main_v41 := by decide
theorem arr1_4_ne : Pipeline.arrRef spec1 4 ≠ main_v41 := by decide
theorem arr1_5_ne : Pipeline.arrRef spec1 5 ≠ main_v41 := by decide
theorem arr1_6_ne : Pipeline.arrRef spec1 6 ≠ main_v41 := by decide
theorem arr1_7_ne : Pipeline.arrRef spec1 7 ≠ main_v41 := by decide
/-- An input array ends as entered (no point writes it back); the output array ends at its write-backs. -/
theorem hF1_0 (c : Dev nD) : (dat1 (B3 m) c).arrAt 0 cfg1.N = A4 m c (Pipeline.arrRef spec1 0) :=
  ((dat1 (B3 m) c).arrAt_in 0 rfl _).trans ((A_eq1 (B3 m) c 0).trans (A4_of m c (Pipeline.arrRef spec1 0) arr1_0_ne).symm)
theorem hF1_1 (c : Dev nD) : (dat1 (B3 m) c).arrAt 1 cfg1.N = A4 m c (Pipeline.arrRef spec1 1) :=
  ((dat1 (B3 m) c).arrAt_in 1 rfl _).trans ((A_eq1 (B3 m) c 1).trans (A4_of m c (Pipeline.arrRef spec1 1) arr1_1_ne).symm)
theorem hF1_2 (c : Dev nD) : (dat1 (B3 m) c).arrAt 2 cfg1.N = A4 m c (Pipeline.arrRef spec1 2) :=
  ((dat1 (B3 m) c).arrAt_in 2 rfl _).trans ((A_eq1 (B3 m) c 2).trans (A4_of m c (Pipeline.arrRef spec1 2) arr1_2_ne).symm)
theorem hF1_3 (c : Dev nD) : (dat1 (B3 m) c).arrAt 3 cfg1.N = A4 m c (Pipeline.arrRef spec1 3) :=
  ((dat1 (B3 m) c).arrAt_in 3 rfl _).trans ((A_eq1 (B3 m) c 3).trans (A4_of m c (Pipeline.arrRef spec1 3) arr1_3_ne).symm)
theorem hF1_4 (c : Dev nD) : (dat1 (B3 m) c).arrAt 4 cfg1.N = A4 m c (Pipeline.arrRef spec1 4) :=
  ((dat1 (B3 m) c).arrAt_in 4 rfl _).trans ((A_eq1 (B3 m) c 4).trans (A4_of m c (Pipeline.arrRef spec1 4) arr1_4_ne).symm)
theorem hF1_5 (c : Dev nD) : (dat1 (B3 m) c).arrAt 5 cfg1.N = A4 m c (Pipeline.arrRef spec1 5) :=
  ((dat1 (B3 m) c).arrAt_in 5 rfl _).trans ((A_eq1 (B3 m) c 5).trans (A4_of m c (Pipeline.arrRef spec1 5) arr1_5_ne).symm)
theorem hF1_6 (c : Dev nD) : (dat1 (B3 m) c).arrAt 6 cfg1.N = A4 m c (Pipeline.arrRef spec1 6) :=
  ((dat1 (B3 m) c).arrAt_in 6 rfl _).trans ((A_eq1 (B3 m) c 6).trans (A4_of m c (Pipeline.arrRef spec1 6) arr1_6_ne).symm)
theorem hF1_7 (c : Dev nD) : (dat1 (B3 m) c).arrAt 7 cfg1.N = A4 m c (Pipeline.arrRef spec1 7) :=
  ((dat1 (B3 m) c).arrAt_in 7 rfl _).trans ((A_eq1 (B3 m) c 7).trans (A4_of m c (Pipeline.arrRef spec1 7) arr1_7_ne).symm)
theorem hF1_8 (c : Dev nD) : (dat1 (B3 m) c).arrAt 8 cfg1.N = A4 m c (Pipeline.arrRef spec1 8) := (A4_same m c).symm
set_option maxHeartbeats 2000000 in
/-- Each of the region's arrays ends at what the pipeline leaves there. -/
theorem hF1 (c : Dev nD) : ∀ w : Fin cfg1.W, (dat1 (B3 m) c).arrAt w cfg1.N = A4 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
  | ⟨8, _⟩ => hF1_8 m c
/-- Off the region's arrays nothing changed. -/
theorem hrest1 (c : Dev nD) : ∀ b, b ∉ Finset.univ.image (Pipeline.arrRef spec1) → A4 m c b = A3 m c b :=
  fun b hb => A4_of m c b fun e => hb (Finset.mem_image.mpr ⟨8, Finset.mem_univ _, e.symm⟩)
/-- The buffers when region 2 is entered: the next stretch of host operations applied. -/
abbrev A5 (c : Dev nD) : Valuation τ sig (Elt F) := StableHlo.after hostOps2 (A4 m c)
/-- The same, read at the TensorCore's references. -/
abbrev B5 : (c : Dev nD) → (b : Ref sig .tc) → Buf (Elt F) ((c : Thread nD τ).loc b) := fun c b => A5 m c b

/-! ## Region 2 -/

/-- What region 2 leaves in its output array: its blocks' write-backs over all points. -/
def o60 (c : Dev nD) : Buf (Elt F) ((c : Thread nD τ).loc main_v60) := (dat2 (B5 m) c).arrAt 8 cfg2.N
/-- The buffers when region 2 is left: its output array at what it wrote, every other buffer as entered. -/
abbrev A6 (c : Dev nD) : Valuation τ sig (Elt F) := Function.update (A5 m c) main_v60 (o60 m c)
theorem A6_of (c : Dev nD) (r : Ref sig .tc) (h : r ≠ main_v60) : A6 m c r = A5 m c r := by
  simp only [A6, Function.update_of_ne (StableHlo.devRef_ne_of_ne h : (Proc.devRef .tc r : DevRef τ sig) ≠ Proc.devRef .tc main_v60)]
theorem A6_same (c : Dev nD) : A6 m c main_v60 = o60 m c := by
  simp only [A6, Function.update_self]
theorem arr2_0_ne : Pipeline.arrRef spec2 0 ≠ main_v60 := by decide
theorem arr2_1_ne : Pipeline.arrRef spec2 1 ≠ main_v60 := by decide
theorem arr2_2_ne : Pipeline.arrRef spec2 2 ≠ main_v60 := by decide
theorem arr2_3_ne : Pipeline.arrRef spec2 3 ≠ main_v60 := by decide
theorem arr2_4_ne : Pipeline.arrRef spec2 4 ≠ main_v60 := by decide
theorem arr2_5_ne : Pipeline.arrRef spec2 5 ≠ main_v60 := by decide
theorem arr2_6_ne : Pipeline.arrRef spec2 6 ≠ main_v60 := by decide
theorem arr2_7_ne : Pipeline.arrRef spec2 7 ≠ main_v60 := by decide
/-- An input array ends as entered (no point writes it back); the output array ends at its write-backs. -/
theorem hF2_0 (c : Dev nD) : (dat2 (B5 m) c).arrAt 0 cfg2.N = A6 m c (Pipeline.arrRef spec2 0) :=
  ((dat2 (B5 m) c).arrAt_in 0 rfl _).trans ((A_eq2 (B5 m) c 0).trans (A6_of m c (Pipeline.arrRef spec2 0) arr2_0_ne).symm)
theorem hF2_1 (c : Dev nD) : (dat2 (B5 m) c).arrAt 1 cfg2.N = A6 m c (Pipeline.arrRef spec2 1) :=
  ((dat2 (B5 m) c).arrAt_in 1 rfl _).trans ((A_eq2 (B5 m) c 1).trans (A6_of m c (Pipeline.arrRef spec2 1) arr2_1_ne).symm)
theorem hF2_2 (c : Dev nD) : (dat2 (B5 m) c).arrAt 2 cfg2.N = A6 m c (Pipeline.arrRef spec2 2) :=
  ((dat2 (B5 m) c).arrAt_in 2 rfl _).trans ((A_eq2 (B5 m) c 2).trans (A6_of m c (Pipeline.arrRef spec2 2) arr2_2_ne).symm)
theorem hF2_3 (c : Dev nD) : (dat2 (B5 m) c).arrAt 3 cfg2.N = A6 m c (Pipeline.arrRef spec2 3) :=
  ((dat2 (B5 m) c).arrAt_in 3 rfl _).trans ((A_eq2 (B5 m) c 3).trans (A6_of m c (Pipeline.arrRef spec2 3) arr2_3_ne).symm)
theorem hF2_4 (c : Dev nD) : (dat2 (B5 m) c).arrAt 4 cfg2.N = A6 m c (Pipeline.arrRef spec2 4) :=
  ((dat2 (B5 m) c).arrAt_in 4 rfl _).trans ((A_eq2 (B5 m) c 4).trans (A6_of m c (Pipeline.arrRef spec2 4) arr2_4_ne).symm)
theorem hF2_5 (c : Dev nD) : (dat2 (B5 m) c).arrAt 5 cfg2.N = A6 m c (Pipeline.arrRef spec2 5) :=
  ((dat2 (B5 m) c).arrAt_in 5 rfl _).trans ((A_eq2 (B5 m) c 5).trans (A6_of m c (Pipeline.arrRef spec2 5) arr2_5_ne).symm)
theorem hF2_6 (c : Dev nD) : (dat2 (B5 m) c).arrAt 6 cfg2.N = A6 m c (Pipeline.arrRef spec2 6) :=
  ((dat2 (B5 m) c).arrAt_in 6 rfl _).trans ((A_eq2 (B5 m) c 6).trans (A6_of m c (Pipeline.arrRef spec2 6) arr2_6_ne).symm)
theorem hF2_7 (c : Dev nD) : (dat2 (B5 m) c).arrAt 7 cfg2.N = A6 m c (Pipeline.arrRef spec2 7) :=
  ((dat2 (B5 m) c).arrAt_in 7 rfl _).trans ((A_eq2 (B5 m) c 7).trans (A6_of m c (Pipeline.arrRef spec2 7) arr2_7_ne).symm)
theorem hF2_8 (c : Dev nD) : (dat2 (B5 m) c).arrAt 8 cfg2.N = A6 m c (Pipeline.arrRef spec2 8) := (A6_same m c).symm
set_option maxHeartbeats 2000000 in
/-- Each of the region's arrays ends at what the pipeline leaves there. -/
theorem hF2 (c : Dev nD) : ∀ w : Fin cfg2.W, (dat2 (B5 m) c).arrAt w cfg2.N = A6 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c
/-- Off the region's arrays nothing changed. -/
theorem hrest2 (c : Dev nD) : ∀ b, b ∉ Finset.univ.image (Pipeline.arrRef spec2) → A6 m c b = A5 m c b :=
  fun b hb => A6_of m c b fun e => hb (Finset.mem_image.mpr ⟨8, Finset.mem_univ _, e.symm⟩)
/-- The buffers when region 3 is entered: the next stretch of host operations applied. -/
abbrev A7 (c : Dev nD) : Valuation τ sig (Elt F) := StableHlo.after hostOps3 (A6 m c)
/-- The same, read at the TensorCore's references. -/
abbrev B7 : (c : Dev nD) → (b : Ref sig .tc) → Buf (Elt F) ((c : Thread nD τ).loc b) := fun c b => A7 m c b

/-! ## Region 3 -/

/-- What region 3 leaves in its output array: its blocks' write-backs over all points. -/
def o82 (c : Dev nD) : Buf (Elt F) ((c : Thread nD τ).loc main_v82) := (dat3 (B7 m) c).arrAt 7 cfg3.N
/-- The buffers when region 3 is left: its output array at what it wrote, every other buffer as entered. -/
abbrev A8 (c : Dev nD) : Valuation τ sig (Elt F) := Function.update (A7 m c) main_v82 (o82 m c)
theorem A8_of (c : Dev nD) (r : Ref sig .tc) (h : r ≠ main_v82) : A8 m c r = A7 m c r := by
  simp only [A8, Function.update_of_ne (StableHlo.devRef_ne_of_ne h : (Proc.devRef .tc r : DevRef τ sig) ≠ Proc.devRef .tc main_v82)]
theorem A8_same (c : Dev nD) : A8 m c main_v82 = o82 m c := by
  simp only [A8, Function.update_self]
theorem arr3_0_ne : Pipeline.arrRef spec3 0 ≠ main_v82 := by decide
theorem arr3_1_ne : Pipeline.arrRef spec3 1 ≠ main_v82 := by decide
theorem arr3_2_ne : Pipeline.arrRef spec3 2 ≠ main_v82 := by decide
theorem arr3_3_ne : Pipeline.arrRef spec3 3 ≠ main_v82 := by decide
theorem arr3_4_ne : Pipeline.arrRef spec3 4 ≠ main_v82 := by decide
theorem arr3_5_ne : Pipeline.arrRef spec3 5 ≠ main_v82 := by decide
theorem arr3_6_ne : Pipeline.arrRef spec3 6 ≠ main_v82 := by decide
/-- An input array ends as entered (no point writes it back); the output array ends at its write-backs. -/
theorem hF3_0 (c : Dev nD) : (dat3 (B7 m) c).arrAt 0 cfg3.N = A8 m c (Pipeline.arrRef spec3 0) :=
  ((dat3 (B7 m) c).arrAt_in 0 rfl _).trans ((A_eq3 (B7 m) c 0).trans (A8_of m c (Pipeline.arrRef spec3 0) arr3_0_ne).symm)
theorem hF3_1 (c : Dev nD) : (dat3 (B7 m) c).arrAt 1 cfg3.N = A8 m c (Pipeline.arrRef spec3 1) :=
  ((dat3 (B7 m) c).arrAt_in 1 rfl _).trans ((A_eq3 (B7 m) c 1).trans (A8_of m c (Pipeline.arrRef spec3 1) arr3_1_ne).symm)
theorem hF3_2 (c : Dev nD) : (dat3 (B7 m) c).arrAt 2 cfg3.N = A8 m c (Pipeline.arrRef spec3 2) :=
  ((dat3 (B7 m) c).arrAt_in 2 rfl _).trans ((A_eq3 (B7 m) c 2).trans (A8_of m c (Pipeline.arrRef spec3 2) arr3_2_ne).symm)
theorem hF3_3 (c : Dev nD) : (dat3 (B7 m) c).arrAt 3 cfg3.N = A8 m c (Pipeline.arrRef spec3 3) :=
  ((dat3 (B7 m) c).arrAt_in 3 rfl _).trans ((A_eq3 (B7 m) c 3).trans (A8_of m c (Pipeline.arrRef spec3 3) arr3_3_ne).symm)
theorem hF3_4 (c : Dev nD) : (dat3 (B7 m) c).arrAt 4 cfg3.N = A8 m c (Pipeline.arrRef spec3 4) :=
  ((dat3 (B7 m) c).arrAt_in 4 rfl _).trans ((A_eq3 (B7 m) c 4).trans (A8_of m c (Pipeline.arrRef spec3 4) arr3_4_ne).symm)
theorem hF3_5 (c : Dev nD) : (dat3 (B7 m) c).arrAt 5 cfg3.N = A8 m c (Pipeline.arrRef spec3 5) :=
  ((dat3 (B7 m) c).arrAt_in 5 rfl _).trans ((A_eq3 (B7 m) c 5).trans (A8_of m c (Pipeline.arrRef spec3 5) arr3_5_ne).symm)
theorem hF3_6 (c : Dev nD) : (dat3 (B7 m) c).arrAt 6 cfg3.N = A8 m c (Pipeline.arrRef spec3 6) :=
  ((dat3 (B7 m) c).arrAt_in 6 rfl _).trans ((A_eq3 (B7 m) c 6).trans (A8_of m c (Pipeline.arrRef spec3 6) arr3_6_ne).symm)
theorem hF3_7 (c : Dev nD) : (dat3 (B7 m) c).arrAt 7 cfg3.N = A8 m c (Pipeline.arrRef spec3 7) := (A8_same m c).symm
set_option maxHeartbeats 2000000 in
/-- Each of the region's arrays ends at what the pipeline leaves there. -/
theorem hF3 (c : Dev nD) : ∀ w : Fin cfg3.W, (dat3 (B7 m) c).arrAt w cfg3.N = A8 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => hF3_7 m c
/-- Off the region's arrays nothing changed. -/
theorem hrest3 (c : Dev nD) : ∀ b, b ∉ Finset.univ.image (Pipeline.arrRef spec3) → A8 m c b = A7 m c b :=
  fun b hb => A8_of m c b fun e => hb (Finset.mem_image.mpr ⟨7, Finset.mem_univ _, e.symm⟩)

end Cert.Kernel.Gen

end
-- ==== Proof.BitsRunRegions.lean ====
/-
  The kernel program's run, region by region: each of the four regions as a record over the thread state "every unscoped
  buffer at the boundary's contents, the generator register at some state, nothing owed", the contents the regions leave
  named from their proof data, and from them the frame: every weakly fair execution of @main terminates without a
  fault and leaves every argument array as launched.
-/
import proofs.«104188_j20804821582443_1_alg».proof.Proof.Gen.Kernel.Regions
import proofs.«104188_j20804821582443_1_alg».proof.Proof.BitsRunChain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 4) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B5 m) c
  | ⟨3, _⟩ => fun c => dat3 (B7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and nothing owed. -/
abbrev Rst (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at `A1`, left with them at `A2`. Its arrays
    are split out of the unscoped buffers at entry and put back at their final contents at exit; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (A1 m c) ∗ Rst c)
  post c := iprop(StableHlo.held (c : Thread nD τ) (Pipeline.ucRefs τ sig) (A2 m c) ∗ Rst c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (fun b => A2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `A3`, left with them at `A4`. Its arrays
    are split out of the unscoped buffers at entry and put back at their final contents at exit; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (A3 m c) ∗ Rst c)
  post c := iprop(StableHlo.held (c : Thread nD τ) (Pipeline.ucRefs τ sig) (A4 m c) ∗ Rst c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (fun b => A4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `A5`, left with them at `A6`. Its arrays
    are split out of the unscoped buffers at entry and put back at their final contents at exit; the generator register
    goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (A5 m c) ∗ Rst c)
  post c := iprop(StableHlo.held (c : Thread nD τ) (Pipeline.ucRefs τ sig) (A6 m c) ∗ Rst c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (fun b => A6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `A7`, left with them at `A8`. Its invariant
    also carries the accumulator's scratch buffer, taken out of the scoped buffers at entry and given back at exit. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m) c).loose
  hwaits := Pipeline.hwaits_of_owed_zero _ _ _ _ L lv 3 fun _ _ => rfl
  pre c := iprop(StableHlo.held (c : Thread nD τ) (Pipeline.ucRefs τ sig) (A7 m c) ∗ Rst c)
  post c := iprop(StableHlo.held (c : Thread nD τ) (Pipeline.ucRefs τ sig) (A8 m c) ∗ Rst c)
  X c := iprop(∃ r, prngReg c r)
  Y c := iprop(∃ r, prngReg c r)
  Z c := Pipeline.unscopedRest (Ix := Unit) (Name := ℕ) (U := UR sig nD τ) (Lvl := ℕ) spec3 c (B7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (B7 m) c).Φ 0 from rfl]
    iintro ⟨Hp, -, Hr⟩
    iapply (hin3 (B7 m) c)
    isplitl [Hp] <;> iassumption
  hout c := by
    rw [Pipeline.ownSems0_none, show (pdats m 3 c).Φ (Fin.last _) = (dat3 (B7 m) c).Φ (Fin.last cfg3.N) from rfl]
    iintro H
    ihave H' := (hout3 (B7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B7 m c) (fun b => A8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the regions leave, as the conditional frame's unknowns -/

/-- Region K's output array after it, read at the item and reference the conditional frame asks; anything elsewhere. -/
def outs : Outs (F := F) := fun J r c =>
  if h2 : J = 2 ∧ r = main_v22 then h2.2 ▸ o22 m c
  else if h4 : J = 4 ∧ r = main_v41 then h4.2 ▸ o41 m c
  else if h6 : J = 6 ∧ r = main_v60 then h6.2 ▸ o60 m c
  else if h8 : J = 8 ∧ r = main_v82 then h8.2 ▸ o82 m c
  else m ((c : Thread nD τ).loc r)

theorem outs_2 (c : Dev nD) : outs m 2 main_v22 c = o22 m c := by
  unfold outs; rw [dif_pos ⟨rfl, rfl⟩]
theorem outs_4 (c : Dev nD) : outs m 4 main_v41 c = o41 m c := by
  unfold outs; rw [dif_neg (fun h => absurd h.1 (by decide)), dif_pos ⟨rfl, rfl⟩]
theorem outs_6 (c : Dev nD) : outs m 6 main_v60 c = o60 m c := by
  unfold outs; rw [dif_neg (fun h => absurd h.1 (by decide)), dif_neg (fun h => absurd h.1 (by decide)), dif_pos ⟨rfl, rfl⟩]
theorem outs_8 (c : Dev nD) : outs m 8 main_v82 c = o82 m c := by
  unfold outs; rw [dif_neg (fun h => absurd h.1 (by decide)), dif_neg (fun h => absurd h.1 (by decide)), dif_neg (fun h => absurd h.1 (by decide)), dif_pos ⟨rfl, rfl⟩]

/-- With these unknowns the conditional frame's boundary contents are the chain's. -/
theorem V2_eq (c : Dev nD) : V2 m (outs m) c = A2 m c := by
  show Function.update (V1 m c) main_v22 (outs m 2 main_v22 c) = _; rw [outs_2]
theorem V3_eq (c : Dev nD) : V3 m (outs m) c = A3 m c := by
  show StableHlo.after hostOps1 (V2 m (outs m) c) = _; rw [V2_eq]
theorem V4_eq (c : Dev nD) : V4 m (outs m) c = A4 m c := by
  show Function.update (V3 m (outs m) c) main_v41 (outs m 4 main_v41 c) = _; rw [V3_eq, outs_4]
theorem V5_eq (c : Dev nD) : V5 m (outs m) c = A5 m c := by
  show StableHlo.after hostOps2 (V4 m (outs m) c) = _; rw [V4_eq]
theorem V6_eq (c : Dev nD) : V6 m (outs m) c = A6 m c := by
  show Function.update (V5 m (outs m) c) main_v60 (outs m 6 main_v60 c) = _; rw [V5_eq, outs_6]
theorem V7_eq (c : Dev nD) : V7 m (outs m) c = A7 m c := by
  show StableHlo.after hostOps3 (V6 m (outs m) c) = _; rw [V6_eq]
theorem V8_eq (c : Dev nD) : V8 m (outs m) c = A8 m c := by
  show Function.update (V7 m (outs m) c) main_v82 (outs m 8 main_v82 c) = _; rw [V7_eq, outs_8]

/-! ## The frame -/

set_option backward.isDefEq.respectTransparency.types false in
/-- Every weakly fair execution of @main from memory `m` with zero counters terminates, nothing faulting, and every
    argument array ends as launched: the conditional frame at the four regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach L lv fun c => by
      iintro ⟨⟨-, HO, -, Hp, -⟩, -⟩
      imodintro
      isplitl [Hp]; · iexists _; iexact Hp
      iexists ∅; iexact HO)
    (hE4 := fun c => by iintro ⟨-, HO⟩; iexact HO)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)

end Cert.Kernel.Gen

end
-- ==== Proof.ConvRegion0.lean ====
/-
  Region 0 of @main: the row-blocked layer kernel on its grid of 50 points. A point's block of the two row-blocked
  operands is 2000 consecutive rows; the two weight matrices and the four row vectors are whole and stay resident. The
  body reads every input block whole and overwrites the output block whole with ONE value, the layer's formula of
  the eight input blocks. Stated at any contents `V` of the buffers when the region is entered, for any float instance.
-/
import proofs.«104188_j20804821582443_1_alg».proof.Proof.Gen.KernelIdeal.Launch
import proofs.«104188_j20804821582443_1_alg».proof.Proof.Gen.KernelIdeal.Skeleton
import proofs.«104188_j20804821582443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is not
    fetched its block index has not moved since the last fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: where it is not
    fetched its block index has not moved since the last fetch. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body reads and writes whole blocks -/

abbrev rc0_S2000x64 : Rect S2000x64 := Rect.unit (s := S2000x64) ![0, 0] S2000x64.size inb_S2000x64_S2000x64_0_0
abbrev rc0_S64x128 : Rect S64x128 := Rect.unit (s := S64x128) ![0, 0] S64x128.size inb_S64x128_S64x128_0_0
abbrev rc0_S1x128 : Rect S1x128 := Rect.unit (s := S1x128) ![0, 0] S1x128.size inb_S1x128_S1x128_0_0
abbrev rc0_S128x128 : Rect S128x128 := Rect.unit (s := S128x128) ![0, 0] S128x128.size inb_S128x128_S128x128_0_0
abbrev rc0_S2000x128 : Rect S2000x128 := Rect.unit (s := S2000x128) ![0, 0] S2000x128.size inb_S2000x128_S2000x128_0_0

/-- The output block after the body: its one whole-block store, the layer's formula of the eight input blocks. -/
def out0_8 (x0 : Vec F S2000x64 .f32) (x1 : Vec F S2000x64 .f32) (x2 : Vec F S64x128 .f32) (x3 : Vec F S1x128 .f32) (x4 : Vec F S128x128 .f32) (x5 : Vec F S1x128 .f32) (x6 : Vec F S1x128 .f32) (x7 : Vec F S1x128 .f32) : Vec F S2000x128 .f32 :=
  View.canon [⟨rc0_S2000x128, k0_pay1 (View.ld x0 rc0_S2000x64) (View.ld x1 rc0_S2000x64) (View.ld x2 rc0_S64x128) (View.ld x3 rc0_S1x128) (View.ld x4 rc0_S128x128) (View.ld x5 rc0_S1x128) (View.ld x6 rc0_S1x128) (View.ld x7 rc0_S1x128)⟩]

/-- The one store covers the block. -/
theorem cover0_8 (p0 : Vec F S2000x128 .f32) (y : S2000x128.Idx) :
    ∃ pc ∈ ([⟨rc0_S2000x128, p0⟩] : List (View.Piece (Elt F) S2000x128 .f32)), y ∈ pc.1.set :=
  View.cover_of_tiled [⟨rc0_S2000x128, p0⟩] S2000x128.size (by rfl) y

/-! ## The body's triple -/

set_option maxHeartbeats 4000000 in
/-- On whole staging memrefs, the inputs' at contents `xJ` and the output's at anything, the body runs to the
    continuation with the inputs' as they were and the output's at `out0_8` of the inputs'. -/
theorem sound_kernel0 (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x64 .f32) (x1 : Vec F S2000x64 .f32) (x2 : Vec F S64x128 .f32) (x3 : Vec F S1x128 .f32) (x4 : Vec F S128x128 .f32) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__conv_kernel i arg1 harg1 arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The proof data -/

/-- The arrays as the region finds them; after the body at point `t` each input's buffer at its block and the output's
    at the layer's formula of the input blocks; the invariant carries nothing but the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- At any point the inputs' memrefs hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.ConvRegion1.lean ====
/-
  Region 1 of @main: the row-blocked layer kernel on its grid of 50 points. A point's block of the two row-blocked
  operands is 2000 consecutive rows; the two weight matrices and the four row vectors are whole and stay resident. The
  body reads every input block whole and overwrites the output block whole with ONE value, the layer's formula of
  the eight input blocks. Stated at any contents `V` of the buffers when the region is entered, for any float instance.
-/
import proofs.«104188_j20804821582443_1_alg».proof.Proof.Gen.KernelIdeal.Launch
import proofs.«104188_j20804821582443_1_alg».proof.Proof.Gen.KernelIdeal.Skeleton
import proofs.«104188_j20804821582443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body reads and writes whole blocks -/

abbrev rc1_S2000x128 : Rect S2000x128 := Rect.unit (s := S2000x128) ![0, 0] S2000x128.size inb_S2000x128_S2000x128_0_0
abbrev rc1_S128x128 : Rect S128x128 := Rect.unit (s := S128x128) ![0, 0] S128x128.size inb_S128x128_S128x128_0_0
abbrev rc1_S1x128 : Rect S1x128 := Rect.unit (s := S1x128) ![0, 0] S1x128.size inb_S1x128_S1x128_0_0

/-- The output block after the body: its one whole-block store, the layer's formula of the eight input blocks. -/
def out1_8 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) : Vec F S2000x128 .f32 :=
  View.canon [⟨rc1_S2000x128, k1_pay1 (View.ld x0 rc1_S2000x128) (View.ld x1 rc1_S2000x128) (View.ld x2 rc1_S128x128) (View.ld x3 rc1_S1x128) (View.ld x4 rc1_S128x128) (View.ld x5 rc1_S1x128) (View.ld x6 rc1_S1x128) (View.ld x7 rc1_S1x128)⟩]

/-- The one store covers the block. -/
theorem cover1_8 (p0 : Vec F S2000x128 .f32) (y : S2000x128.Idx) :
    ∃ pc ∈ ([⟨rc1_S2000x128, p0⟩] : List (View.Piece (Elt F) S2000x128 .f32)), y ∈ pc.1.set :=
  View.cover_of_tiled [⟨rc1_S2000x128, p0⟩] S2000x128.size (by rfl) y

/-! ## The body's triple -/

set_option maxHeartbeats 4000000 in
/-- On whole staging memrefs, the inputs' at contents `xJ` and the output's at anything, the body runs to the
    continuation with the inputs' as they were and the output's at `out1_8` of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2000x128 .f32) (harg9 : arg9.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__conv_kernel i arg1 harg1 arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The proof data -/

/-- The arrays as the region finds them; after the body at point `t` each input's buffer at its block and the output's
    at the layer's formula of the input blocks; the invariant carries nothing but the untouched rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- At any point the inputs' memrefs hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.ConvRegion2.lean ====
/-
  Region 2 of @main: the row-blocked layer kernel on its grid of 50 points. A point's block of the two row-blocked
  operands is 2000 consecutive rows; the two weight matrices and the four row vectors are whole and stay resident. The
  body reads every input block whole and overwrites the output block whole with ONE value, the layer's formula of
  the eight input blocks. Stated at any contents `V` of the buffers when the region is entered, for any float instance.
-/
import proofs.«104188_j20804821582443_1_alg».proof.Proof.Gen.KernelIdeal.Launch
import proofs.«104188_j20804821582443_1_alg».proof.Proof.Gen.KernelIdeal.Skeleton
import proofs.«104188_j20804821582443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched its block index has not moved since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it is not
    fetched its block index has not moved since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: where it is not
    fetched its block index has not moved since the last fetch. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body reads and writes whole blocks -/

abbrev rc2_S2000x128 : Rect S2000x128 := Rect.unit (s := S2000x128) ![0, 0] S2000x128.size inb_S2000x128_S2000x128_0_0
abbrev rc2_S128x256 : Rect S128x256 := Rect.unit (s := S128x256) ![0, 0] S128x256.size inb_S128x256_S128x256_0_0
abbrev rc2_S1x256 : Rect S1x256 := Rect.unit (s := S1x256) ![0, 0] S1x256.size inb_S1x256_S1x256_0_0
abbrev rc2_S256x256 : Rect S256x256 := Rect.unit (s := S256x256) ![0, 0] S256x256.size inb_S256x256_S256x256_0_0
abbrev rc2_S2000x256 : Rect S2000x256 := Rect.unit (s := S2000x256) ![0, 0] S2000x256.size inb_S2000x256_S2000x256_0_0

/-- The output block after the body: its one whole-block store, the layer's formula of the eight input blocks. -/
def out2_8 (x0 : Vec F S2000x128 .f32) (x1 : Vec F S2000x128 .f32) (x2 : Vec F S128x256 .f32) (x3 : Vec F S1x256 .f32) (x4 : Vec F S256x256 .f32) (x5 : Vec F S1x256 .f32) (x6 : Vec F S1x256 .f32) (x7 : Vec F S1x256 .f32) : Vec F S2000x256 .f32 :=
  View.canon [⟨rc2_S2000x256, k2_pay1 (View.ld x0 rc2_S2000x128) (View.ld x1 rc2_S2000x128) (View.ld x2 rc2_S128x256) (View.ld x3 rc2_S1x256) (View.ld x4 rc2_S256x256) (View.ld x5 rc2_S1x256) (View.ld x6 rc2_S1x256) (View.ld x7 rc2_S1x256)⟩]

/-- The one store covers the block. -/
theorem cover2_8 (p0 : Vec F S2000x256 .f32) (y : S2000x256.Idx) :
    ∃ pc ∈ ([⟨rc2_S2000x256, p0⟩] : List (View.Piece (Elt F) S2000x256 .f32)), y ∈ pc.1.set :=
  View.cover_of_tiled [⟨rc2_S2000x256, p0⟩] S2000x256.size (by rfl) y

/-! ## The body's triple -/

set_option maxHeartbeats 4000000 in
/-- On whole staging memrefs, the inputs' at contents `xJ` and the output's at anything, the body runs to the
    continuation with the inputs' as they were and the output's at `out2_8` of the inputs'. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2000x256 .f32) (harg9 : arg9.IsWhole)
    (x0 : Vec F S2000x128 .f32) (x1 : Vec F S2000x128 .f32) (x2 : Vec F S128x256 .f32) (x3 : Vec F S1x256 .f32) (x4 : Vec F S256x256 .f32) (x5 : Vec F S1x256 .f32) (x6 : Vec F S1x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__conv_kernel i arg1 harg1 arg2 harg2 arg3 harg3 arg4 harg4 arg5 harg5 arg6 harg6 arg7 harg7 arg8 harg8 arg9 harg9) K := by
  simp only [cc2__conv_kernel_eq_skeleton]; unfold cc2__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The proof data -/

/-- The arrays as the region finds them; after the body at point `t` each input's buffer at its block and the output's
    at the layer's formula of the input blocks; the invariant carries nothing but the untouched rest; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- At any point the inputs' memrefs hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.FinalRegion.lean ====
/- Region 3 of @main — custom_call 3, `cc3__final_kernel` (pipeline 3: eight windows, inputs 0 to 6 and output 7, a grid of
   13 points) — at a PARAMETER `V`, the TensorCore's buffer contents when the region is entered.

   The body carries an f32 accumulator in a VMEM scratch (`cc3_scratch0`) across the grid: at the first point it zeroes
   the scratch whole, at every point it adds the product of the point's blocks of windows 0 and 1, and at the last point it
   stores the output block, a readout of the final accumulator and of the five resident blocks (windows 2 to 6). So the
   region invariant is not constant: it owns the scratch at the accumulator's contents after the points so far
   (`acc3`: the zero tile `k3_pay1`, then `k3_pay2` of the sum so far and the point's two blocks), at anything before the
   first point. The output window is idle at every point but the last, where its staging buffer is left at `k3_pay3` of
   the final accumulator (`out3_7`).

   Stated here, at any `F`: the body's triple in each of its three control cases (`kernelRun3_first`, `kernelRun3_mid`,
   `kernelRun3_last`), the proof data `dat3`, the body obligation `body_obligation3`, and the two entailments that take the
   scoped rest and the generator register into the invariant before the first point (`hin3`) and back out of it after
   the last (`hout3`); and the output array after the region read through the last point's block (`outRead3`). -/
import proofs.«104188_j20804821582443_1_alg».proof.Proof.Gen.KernelIdeal.Launch
import proofs.«104188_j20804821582443_1_alg».proof.Proof.Gen.KernelIdeal.Skeleton
import proofs.«104188_j20804821582443_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole buffer's own rectangle

Every access of this body is through the rectangle at zero offsets of the buffer's own sizes: a load through it
reads the buffer's contents, a store through it leaves its payload whatever was there, and a load after such a
store reads that payload. -/

/-- The zero offsets of a rank-two rectangle, as the body spells them. -/
theorem zeros_two : (![0, 0] : Fin 2 → ℕ) = fun _ => 0 := by
  funext a; fin_cases a <;> rfl

/-- A load through the whole-shape rectangle reads what the view reads. -/
theorem readAt_unit_zero {sig' : RefSig} {κ : Kind} {sp : Space} {Val : EltTy → Type} {S : Shape} {e : EltTy}
    (v : View sig' κ sp S e) {off : Fin S.rank → ℕ} (h : off = fun _ => 0) (inb : ∀ a, off a + S.size a ≤ S.size a)
    (f : v.ty.Contents Val) :
    v.readAt Val (Rect.unit off S.size inb).toLoadRect f = v.read Val f :=
  (View.readAt_eq_ld v f (Rect.unit off S.size inb)).trans (View.ld_unit_zero h inb _)

/-- After a last store through the whole-shape rectangle the view reads that store's payload. -/
theorem read_writes_cons_unit_zero {sig' : RefSig} {κ : Kind} {sp : Space} {Val : EltTy → Type} [∀ e, Nonempty (Val e)]
    {S : Shape} {e : EltTy} (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

/-- A load through the whole-shape rectangle after a last store through it reads that store's payload. -/
theorem readCov_cons_unit_zero {sig' : RefSig} {κ : Kind} {sp : Space} {Val : EltTy → Type} [∀ e, Nonempty (Val e)]
    {S : Shape} {e : EltTy} (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

/-- The condition of the body's first `scf.if` (zero the accumulator), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The condition of the body's second `scf.if` (compute the output block). -/
abbrev cond3_1 (i : grid3.Coords) : Prop := k3_cond2 i = 1#1
/-- It holds at the last point only. -/
theorem hcond3_1 : ∀ t : Fin cfg3.N, cond3_1 (grid3.coords t) ↔ t.val = 12 :=
  (by decide +kernel : ∀ t : Fin grid3.N, cond3_1 (grid3.coords t) ↔ t.val = 12)

/-! ## The body's triple, one per control case

On whole memrefs — the seven inputs' staging memrefs at read contents `x0 … x6`, the output's staging memref, the
accumulator scratch —, the printed body is its skeleton, run operation by operation, each `scf.if` decided by the case's
hypotheses. What each buffer reads afterwards is stated in closed form over the skeleton's payloads. -/

set_option maxHeartbeats 1000000 in
/-- A MIDDLE point (neither `scf.if` taken): the accumulator, found at `a`, is left at `a` plus the product of the
    point's two blocks (`k3_pay2 a x0 x1`); the output's buffer is handed back as found (`x7`). -/
theorem kernelRun3_mid (c : Dev nD) (i : grid3.Coords) (arg1 : Memref sig .tc .vmem S512x512 .bf16) (harg1 : arg1.IsWhole) (arg2 : Memref sig .tc .vmem S512x3328 .bf16) (harg2 : arg2.IsWhole) (arg3 : Memref sig .tc .vmem S1x3328 .f32) (harg3 : arg3.IsWhole) (arg4 : Memref sig .tc .vmem S1x3328 .f32) (harg4 : arg4.IsWhole) (arg5 : Memref sig .tc .vmem S1x3328 .f32) (harg5 : arg5.IsWhole) (arg6 : Memref sig .tc .vmem S3328x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S512x3328 .f32) (harg9 : arg9.IsWhole) (hc0 : ¬cond3_0 i) (hc1 : ¬cond3_1 i)
    (x0 : Vec F S512x512 .bf16) (x1 : Vec F S512x3328 .bf16) (x2 : Vec F S1x3328 .f32) (x3 : Vec F S1x3328 .f32) (x4 : Vec F S1x3328 .f32) (x5 : Vec F S3328x128 .bf16) (x6 : Vec F S1x128 .f32) (x7 : Vec F S512x128 .f32) (a : Vec F S512x3328 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare a
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
              ∗ owns (c : Thread nD τ) arg9 fullShare (k3_pay2 a x0 x1)) -∗ K ⟨⟩))
          ⊢ wp frame (wpE (defs₀ (F := F)) Variants.none c none) E (cc3__final_kernel i arg1 harg1 arg2 harg2 arg3 harg3 arg4 harg4 arg5 harg5 arg6 harg6 arg7 harg7 arg8 harg8 arg9 harg9) K := by
    intro E K
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, Hk⟩
    subst hf0 hf1 hf2 hf3 hf4 hf5 hf6 hf7 hf9
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    iexists _; isplitr; swap; · iexact H9
    ipureintro
    refine (read_writes_cons_unit_zero (S := S512x3328) _ _ zeros_two _ _ _).trans ?_
    rw [readAt_unit_zero (S := S512x3328) _ zeros_two, readAt_unit_zero (S := S512x512) _ zeros_two, readAt_unit_zero (S := S512x3328) _ zeros_two]

set_option maxHeartbeats 1000000 in
/-- The FIRST point (the first `scf.if` taken, the second not): the accumulator, found at anything, is overwritten
    whole by the zero tile `k3_pay1` and then left at the zero tile plus the product of the point's two blocks; the
    output's buffer is handed back as found (`x7`). -/
theorem kernelRun3_first (c : Dev nD) (i : grid3.Coords) (arg1 : Memref sig .tc .vmem S512x512 .bf16) (harg1 : arg1.IsWhole) (arg2 : Memref sig .tc .vmem S512x3328 .bf16) (harg2 : arg2.IsWhole) (arg3 : Memref sig .tc .vmem S1x3328 .f32) (harg3 : arg3.IsWhole) (arg4 : Memref sig .tc .vmem S1x3328 .f32) (harg4 : arg4.IsWhole) (arg5 : Memref sig .tc .vmem S1x3328 .f32) (harg5 : arg5.IsWhole) (arg6 : Memref sig .tc .vmem S3328x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S512x3328 .f32) (harg9 : arg9.IsWhole) (hc0 : cond3_0 i) (hc1 : ¬cond3_1 i)
    (x0 : Vec F S512x512 .bf16) (x1 : Vec F S512x3328 .bf16) (x2 : Vec F S1x3328 .f32) (x3 : Vec F S1x3328 .f32) (x4 : Vec F S1x3328 .f32) (x5 : Vec F S3328x128 .bf16) (x6 : Vec F S1x128 .f32) (x7 : Vec F S512x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
              ∗ owns (c : Thread nD τ) arg9 fullShare (k3_pay2 (k3_pay1 (F := F)) x0 x1)) -∗ K ⟨⟩))
          ⊢ wp frame (wpE (defs₀ (F := F)) Variants.none c none) E (cc3__final_kernel i arg1 harg1 arg2 harg2 arg3 harg3 arg4 harg4 arg5 harg5 arg6 harg6 arg7 harg7 arg8 harg8 arg9 harg9) K := by
    intro E K
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, Hk⟩
    subst hf0 hf1 hf2 hf3 hf4 hf5 hf6 hf7
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    iexists _; isplitr; swap; · iexact H9
    ipureintro
    refine (read_writes_cons_unit_zero (S := S512x3328) _ _ zeros_two _ _ _).trans ?_
    sl_unfold_run_names
    rw [readCov_cons_unit_zero (S := S512x3328) _ zeros_two, readAt_unit_zero (S := S512x512) _ zeros_two, readAt_unit_zero (S := S512x3328) _ zeros_two]

set_option maxHeartbeats 1000000 in
/-- The LAST point (the second `scf.if` taken, the first not): the accumulator, found at `a`, is left at
    `k3_pay2 a x0 x1`, and the output's buffer, found at anything, is stored whole with the readout `k3_pay3` of that
    final accumulator and the five resident blocks. -/
theorem kernelRun3_last (c : Dev nD) (i : grid3.Coords) (arg1 : Memref sig .tc .vmem S512x512 .bf16) (harg1 : arg1.IsWhole) (arg2 : Memref sig .tc .vmem S512x3328 .bf16) (harg2 : arg2.IsWhole) (arg3 : Memref sig .tc .vmem S1x3328 .f32) (harg3 : arg3.IsWhole) (arg4 : Memref sig .tc .vmem S1x3328 .f32) (harg4 : arg4.IsWhole) (arg5 : Memref sig .tc .vmem S1x3328 .f32) (harg5 : arg5.IsWhole) (arg6 : Memref sig .tc .vmem S3328x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S512x3328 .f32) (harg9 : arg9.IsWhole) (hc0 : ¬cond3_0 i) (hc1 : cond3_1 i)
    (x0 : Vec F S512x512 .bf16) (x1 : Vec F S512x3328 .bf16) (x2 : Vec F S1x3328 .f32) (x3 : Vec F S1x3328 .f32) (x4 : Vec F S1x3328 .f32) (x5 : Vec F S3328x128 .bf16) (x6 : Vec F S1x128 .f32) (a : Vec F S512x3328 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ (∃ d, owns (c : Thread nD τ) arg8 fullShare d) ∗ owns (c : Thread nD τ) arg9 fullShare a
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k3_pay3 (k3_pay2 a x0 x1) x2 x3 x4 x5 x6)
              ∗ owns (c : Thread nD τ) arg9 fullShare (k3_pay2 a x0 x1)) -∗ K ⟨⟩))
          ⊢ wp frame (wpE (defs₀ (F := F)) Variants.none c none) E (cc3__final_kernel i arg1 harg1 arg2 harg2 arg3 harg3 arg4 harg4 arg5 harg5 arg6 harg6 arg7 harg7 arg8 harg8 arg9 harg9) K := by
    intro E K
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f9, %hf9, H9⟩, Hk⟩
    subst hf0 hf1 hf2 hf3 hf4 hf5 hf6 hf9
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; swap; · iexact H7
      ipureintro
      refine (read_writes_cons_unit_zero (S := S512x128) _ _ zeros_two _ _ _).trans ?_
      sl_unfold_run_names
      rw [readCov_cons_unit_zero (S := S512x3328) _ zeros_two, readAt_unit_zero (S := S512x3328) _ zeros_two, readAt_unit_zero (S := S512x512) _ zeros_two, readAt_unit_zero (S := S512x3328) _ zeros_two,
        readAt_unit_zero (S := S1x3328) _ zeros_two, readAt_unit_zero (S := S1x3328) _ zeros_two, readAt_unit_zero (S := S1x3328) _ zeros_two,
        readAt_unit_zero (S := S3328x128) _ zeros_two, readAt_unit_zero (S := S1x128) _ zeros_two]
    iexists _; isplitr; swap; · iexact H9
    ipureintro
    sl_unfold_run_names
    refine (read_writes_cons_unit_zero (S := S512x3328) _ _ zeros_two _ _ _).trans ?_
    rw [readAt_unit_zero (S := S512x3328) _ zeros_two, readAt_unit_zero (S := S512x512) _ zeros_two, readAt_unit_zero (S := S512x3328) _ zeros_two]

section Region
-- the TensorCore's buffer contents when the region is entered: the parameter the region's proof data is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not (windows 0 and 1
    move with the point and are fetched at each; windows 2 to 6 have a constant block index and are fetched at the first
    point only), for ANY proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator and the output block -/

/-- The accumulator's contents after `n` points: the zero tile, then at each point the sum so far plus the product of
    the point's blocks of windows 0 and 1 (the skeleton's payloads `k3_pay1`, `k3_pay2`). -/
def acc3 (c : Dev nD) : (n : ℕ) → n ≤ cfg3.N → Vec F S512x3328 .f32
  | 0, _ => k3_pay1 (F := F)
  | n + 1, hn => k3_pay2 (acc3 c n (Nat.le_of_succ_le hn)) (iblk3 V c 0 ⟨n, hn⟩) (iblk3 V c 1 ⟨n, hn⟩)

/-- Before any point the accumulator is the zero tile. -/
theorem acc3_zero (c : Dev nD) (n : ℕ) (h : n ≤ cfg3.N) (hz : n = 0) : acc3 V c n h = k3_pay1 (F := F) := by
  subst hz; rfl

/-- After point `t`: what it was before the point plus the product of the point's two blocks. -/
theorem acc3_succ (c : Dev nD) (t : Fin cfg3.N) :
    acc3 V c (t.val + 1) t.isLt = k3_pay2 (acc3 V c t.val (Nat.le_of_lt t.isLt)) (iblk3 V c 0 t) (iblk3 V c 1 t) := by
  rw [acc3]

/-- What the body's store leaves in the output window's staging buffer at a point that stores it (the last): the
    readout `k3_pay3` of the accumulator after the point and the five resident blocks. -/
def out3_7 (c : Dev nD) (t : Fin cfg3.N) : Vec F S512x128 .f32 :=
  k3_pay3 (acc3 V c (t.val + 1) t.isLt) (iblk3 V c 2 t) (iblk3 V c 3 t) (iblk3 V c 4 t) (iblk3 V c 5 t) (iblk3 V c 6 t)

/-! ## The staging memrefs, the scratch and the invariant -/

/-- Each window's current staging memref at point `t`, spelled as the pipeline passes it (`bodyAt3`), and its wholeness. -/
abbrev ms3_0 (t : Fin cfg3.N) : Memref sig .tc .vmem S512x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x3328 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x3328 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x3328 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x3328 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S3328x128 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x128 .f32 := win3_7.stage (cfg3.slots t 7)
abbrev hs3_7 (t : Fin cfg3.N) : (ms3_7 t).IsWhole := hstage3_7 ((cfg3.slots t 7).cast nbuf3_7)
/-- The accumulator: the call's scratch operand, a whole scoped buffer of its own. -/
abbrev scM3 : Memref sig .tc .vmem S512x3328 .f32 := Memref.whole cc3_scratch0

/-- What rides through every point untouched: every other scoped buffer that is no staging buffer of this call, at some
    contents each, and the generator register at some state. -/
abbrev restS3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The region invariant before position `n`: the accumulator scratch owned whole — before the first point at anything
    (the first point overwrites it whole), afterwards at `acc3 n` —, beside `restS3`. -/
def PhiS3 (c : Dev nD) (n : ℕ) (h : n ≤ cfg3.N) : sProp 𝕄 :=
  iprop((∃ d, ⌜n ≠ 0 → d = acc3 V c n h⌝ ∗ owns (c : Thread nD τ) scM3 fullShare d) ∗ restS3 (F := F) c)

/-! ## The pipeline's proof data -/

/-- The proof data of pipeline 3 on core `c`: the arrays as the region finds them (`V`); after the body at point `t`
    each input's buffer at its block and the output's at `out3_7`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- The invariant at a point's start and end, restated at the point's position. -/
theorem Phi3_castSucc (c : Dev nD) (t : Fin cfg3.N) :
    (dat3 V c).Φ t.castSucc = PhiS3 V c t.val (Nat.le_of_lt t.isLt) := by
  dsimp only [dat3]; simp only [Fin.coe_castSucc]
theorem Phi3_succ (c : Dev nD) (t : Fin cfg3.N) :
    (dat3 V c).Φ t.succ = PhiS3 V c (t.val + 1) t.isLt := rfl

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
/-- Where the second `scf.if` is not taken the output window is idle (nothing is stored into it) and is not written back. -/
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
/-- Where it is taken the window is live. -/
theorem liveAt3_7 : ∀ t : Fin cfg3.N, cond3_1 (grid3.coords t) → cfg3.idle 7 (grid3.coords t) = false := by decide +kernel

/-! ## The body obligation, at a generic point -/

/-- What the body is called with at point `t` (`BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4000000 in
/-- The body at any point: the inputs' memrefs hold their blocks; the conditions' closed forms say which case the point
    is in; the invariant hands the body the accumulator (at anything before the first point, else at `acc3` of the
    position) and takes it back at `acc3` of the next position; the output's buffer is handed back as found where the
    window is idle and at `out3_7` at the last point; `restS3` and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [Phi3_succ, Phi3_castSucc]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  unfold PhiS3
  by_cases h1 : t.val = 12
  · have h0 : ¬ t.val = 0 := by omega
    rw [show (dat3 V c).leavesExact 7 t = owns (c : Thread nD τ) (ms3_7 t) fullShare ((dat3 V c).after 7 t) from by
      unfold Dat.leavesExact; rw [liveAt3_7 t ((hcond3_1 t).mpr h1)], after3_7]
    unfold out3_7
    rw [acc3_succ]
    iintro ⟨⟨⟨%a, %ha, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := ha h0
    iapply (kernelRun3_last c (grid3.coords t) _ _ _ _ _ _ _ _ _ _ _ _ _ _ _ _ _ _ (fun h => h0 ((hcond3_0 t).mp h)) ((hcond3_1 t).mpr h1)
      (iblk3 V c 0 t) (iblk3 V c 1 t) (iblk3 V c 2 t) (iblk3 V c 3 t) (iblk3 V c 4 t) (iblk3 V c 5 t) (iblk3 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hrest]
    · isplitl [HS]
      · iexists _; isplitr; · ipureintro; intro _; rfl
        iexact HS
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat3 V c) 7 t (idleAt3_7 t (fun h => h1 ((hcond3_1 t).mp h))) (noFlush3_7 t (fun h => h1 ((hcond3_1 t).mp h)))]
    rw [acc3_succ]
    by_cases h0 : t.val = 0
    · rw [acc3_zero V c _ _ h0]
      iintro ⟨⟨⟨%a, -, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun3_first c (grid3.coords t) _ _ _ _ _ _ _ _ _ _ _ _ _ _ _ _ _ _ ((hcond3_0 t).mpr h0) (fun h => h1 ((hcond3_1 t).mp h))
        (iblk3 V c 0 t) (iblk3 V c 1 t) (iblk3 V c 2 t) (iblk3 V c 3 t) (iblk3 V c 4 t) (iblk3 V c 5 t) (iblk3 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS Hrest]
      · isplitl [HS]
        · iexists _; isplitr; · ipureintro; intro _; rfl
          iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · iintro ⟨⟨⟨%a, %ha, HS⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha h0
      iapply (kernelRun3_mid c (grid3.coords t) _ _ _ _ _ _ _ _ _ _ _ _ _ _ _ _ _ _ (fun h => h0 ((hcond3_0 t).mp h)) (fun h => h1 ((hcond3_1 t).mp h))
        (iblk3 V c 0 t) (iblk3 V c 1 t) (iblk3 V c 2 t) (iblk3 V c 3 t) (iblk3 V c 4 t) (iblk3 V c 5 t) (iblk3 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hrest]
      · isplitl [HS]
        · iexists _; isplitr; · ipureintro; intro _; rfl
          iexact HS
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant at the first point and out of it after the last -/

/-- The call's scratch as the region hands it over (whole, at some contents) is the accumulator memref owned at some contents. -/
theorem scratch3_eq (c : Dev nD) :
    (iprop(∃ f : Buf (Elt F) ((c : Thread nD τ).loc cc3_scratch0), ((c : Thread nD τ).loc cc3_scratch0) ↦{fullShare} f) : sProp 𝕄)
      = iprop(∃ d, owns (c : Thread nD τ) scM3 fullShare d) := by
  simp only [scM3, owns_whole]; try rfl

/-- ENTRY: the generator register and the scoped buffers no window stages make the invariant before the first point —
    the accumulator comes out of the scoped rest at whatever it holds. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = PhiS3 V c 0 (Nat.zero_le _) from rfl]; unfold PhiS3
  rw [scopedRest3_split, scratch3_eq]
  iintro ⟨Hp, ⟨%d, Hs⟩, Hr⟩
  isplitl [Hs]
  · iexists d; isplitr; · ipureintro; intro h; exact absurd rfl h
    iexact Hs
  isplitl [Hr]; · iexact Hr
  iexact Hp

/-- EXIT: the invariant at any position gives the generator register and those scoped buffers back — what the
    accumulator holds is forgotten. -/
theorem Phi3_out (c : Dev nD) (n : ℕ) (h : n ≤ cfg3.N) :
    PhiS3 V c n h
      ⊢ iprop((∃ r, prngReg c r) ∗ Pipeline.scopedRest (Ix := Unit) (Name := ℕ) (U := UR sig nD τ) (Lvl := ℕ) (Val := Elt F) spec3 c) := by
  unfold PhiS3
  rw [scopedRest3_split, scratch3_eq]
  iintro ⟨⟨%d, -, Hs⟩, Hr, Hp⟩
  isplitl [Hp]; · iexact Hp
  isplitl [Hs]; · iexists d; iexact Hs
  iexact Hr

/-- The same after the last point. -/
theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) :=
  Phi3_out V c _ _

/-! ## The output array after the region -/

/-- Only the last point writes the output window back, so no two write-backs meet. -/
theorem flushDisj3_7 : ∀ t t' : Fin cfg3.N, (cfg3.win 7).flush t = true → (cfg3.win 7).flush t' = true → t ≠ t' →
    Disjoint ((cfg3.win 7).blk t).view.set ((cfg3.win 7).blk t').view.set := by
  intro t t' h h' hne
  exfalso
  have e := (flush3_7 t).mp h
  have e' := (flush3_7 t').mp h'
  have hN : cfg3.N = 13 := N_3
  have ht := t.isLt
  have ht' := t'.isLt
  exact hne (Fin.ext (by omega))

/-- The output array after the region's write-backs, read through the block of the last point, is the readout of the
    final accumulator: what the body left in the staging buffer there. -/
theorem outRead3 (c : Dev nD) :
    ((cfg3.win 7).blk t3_12).view.read (Elt F) ((dat3 V c).arrAt 7 cfg3.N) = out3_7 V c t3_12 :=
  ((dat3 V c).read_blk_arrAt_eq_flushed 7 flushDisj3_7 cfg3.N t3_12 t3_12.isLt ((flush3_7 t3_12).mpr (by decide))).trans
    (after3_7 V c t3_12)

end Region

end Cert.KernelIdeal.Gen

end
-- ==== Proof.RunChain.lean ====
/-
  The buffers' contents at every boundary of @main, from the launch memory `m`: a stretch of host operations is applied
  to the contents before it; a region changes only its output array, which ends holding what its blocks wrote back.
  For each region the two facts its exit needs: its arrays end at those contents, and nothing else moved.
-/
import proofs.«104188_j20804821582443_1_alg».proof.Proof.Gen.KernelIdeal.Regions
import proofs.«104188_j20804821582443_1_alg».proof.Proof.ConvRegion0
import proofs.«104188_j20804821582443_1_alg».proof.Proof.ConvRegion1
import proofs.«104188_j20804821582443_1_alg».proof.Proof.ConvRegion2
import proofs.«104188_j20804821582443_1_alg».proof.Proof.FinalRegion

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The buffers when region 0 is entered: the first stretch of host operations applied to the launch memory. -/
abbrev A1 (c : Dev nD) : Valuation τ sig (Elt F) := StableHlo.after hostOps0 (fun b => m (c, b))
abbrev B1 : (c : Dev nD) → (b : Ref sig .tc) → Buf (Elt F) ((c : Thread nD τ).loc b) := fun c b => A1 m c b

/-! ## Region 0 -/

/-- What region 0 leaves in its output array: its blocks' write-backs over all points. -/
def o22 (c : Dev nD) : Buf (Elt F) ((c : Thread nD τ).loc main_v22) := (dat0 (B1 m) c).arrAt 8 cfg0.N
/-- The buffers when region 0 is left: its output array at what it wrote, every other buffer as entered. -/
abbrev A2 (c : Dev nD) : Valuation τ sig (Elt F) := Function.update (A1 m c) main_v22 (o22 m c)
theorem A2_of (c : Dev nD) (r : Ref sig .tc) (h : r ≠ main_v22) : A2 m c r = A1 m c r := by
  simp only [A2, Function.update_of_ne (StableHlo.devRef_ne_of_ne h : (Proc.devRef .tc r : DevRef τ sig) ≠ Proc.devRef .tc main_v22)]
theorem A2_same (c : Dev nD) : A2 m c main_v22 = o22 m c := by
  simp only [A2, Function.update_self]
theorem arr0_0_ne : Pipeline.arrRef spec0 0 ≠ main_v22 := by decide
theorem arr0_1_ne : Pipeline.arrRef spec0 1 ≠ main_v22 := by decide
theorem arr0_2_ne : Pipeline.arrRef spec0 2 ≠ main_v22 := by decide
theorem arr0_3_ne : Pipeline.arrRef spec0 3 ≠ main_v22 := by decide
theorem arr0_4_ne : Pipeline.arrRef spec0 4 ≠ main_v22 := by decide
theorem arr0_5_ne : Pipeline.arrRef spec0 5 ≠ main_v22 := by decide
theorem arr0_6_ne : Pipeline.arrRef spec0 6 ≠ main_v22 := by decide
theorem arr0_7_ne : Pipeline.arrRef spec0 7 ≠ main_v22 := by decide
/-- An input array ends as entered (no point writes it back); the output array ends at its write-backs. -/
theorem hF0_0 (c : Dev nD) : (dat0 (B1 m) c).arrAt 0 cfg0.N = A2 m c (Pipeline.arrRef spec0 0) :=
  ((dat0 (B1 m) c).arrAt_in 0 rfl _).trans ((A_eq0 (B1 m) c 0).trans (A2_of m c (Pipeline.arrRef spec0 0) arr0_0_ne).symm)
theorem hF0_1 (c : Dev nD) : (dat0 (B1 m) c).arrAt 1 cfg0.N = A2 m c (Pipeline.arrRef spec0 1) :=
  ((dat0 (B1 m) c).arrAt_in 1 rfl _).trans ((A_eq0 (B1 m) c 1).trans (A2_of m c (Pipeline.arrRef spec0 1) arr0_1_ne).symm)
theorem hF0_2 (c : Dev nD) : (dat0 (B1 m) c).arrAt 2 cfg0.N = A2 m c (Pipeline.arrRef spec0 2) :=
  ((dat0 (B1 m) c).arrAt_in 2 rfl _).trans ((A_eq0 (B1 m) c 2).trans (A2_of m c (Pipeline.arrRef spec0 2) arr0_2_ne).symm)
theorem hF0_3 (c : Dev nD) : (dat0 (B1 m) c).arrAt 3 cfg0.N = A2 m c (Pipeline.arrRef spec0 3) :=
  ((dat0 (B1 m) c).arrAt_in 3 rfl _).trans ((A_eq0 (B1 m) c 3).trans (A2_of m c (Pipeline.arrRef spec0 3) arr0_3_ne).symm)
theorem hF0_4 (c : Dev nD) : (dat0 (B1 m) c).arrAt 4 cfg0.N = A2 m c (Pipeline.arrRef spec0 4) :=
  ((dat0 (B1 m) c).arrAt_in 4 rfl _).trans ((A_eq0 (B1 m) c 4).trans (A2_of m c (Pipeline.arrRef spec0 4) arr0_4_ne).symm)
theorem hF0_5 (c : Dev nD) : (dat0 (B1 m) c).arrAt 5 cfg0.N = A2 m c (Pipeline.arrRef spec0 5) :=
  ((dat0 (B1 m) c).arrAt_in 5 rfl _).trans ((A_eq0 (B1 m) c 5).trans (A2_of m c (Pipeline.arrRef spec0 5) arr0_5_ne).symm)
theorem hF0_6 (c : Dev nD) : (dat0 (B1 m) c).arrAt 6 cfg0.N = A2 m c (Pipeline.arrRef spec0 6) :=
  ((dat0 (B1 m) c).arrAt_in 6 rfl _).trans ((A_eq0 (B1 m) c 6).trans (A2_of m c (Pipeline.arrRef spec0 6) arr0_6_ne).symm)
theorem hF0_7 (c : Dev nD) : (dat0 (B1 m) c).arrAt 7 cfg0.N = A2 m c (Pipeline.arrRef spec0 7) :=
  ((dat0 (B1 m) c).arrAt_in 7 rfl _).trans ((A_eq0 (B1 m) c 7).trans (A2_of m c (Pipeline.arrRef spec0 7) arr0_7_ne).symm)
theorem hF0_8 (c : Dev nD) : (dat0 (B1 m) c).arrAt 8 cfg0.N = A2 m c (Pipeline.arrRef spec0 8) := (A2_same m c).symm
set_option maxHeartbeats 2000000 in
/-- Each of the region's arrays ends at what the pipeline leaves there. -/
theorem hF0 (c : Dev nD) : ∀ w : Fin cfg0.W, (dat0 (B1 m) c).arrAt w cfg0.N = A2 m c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨8, _⟩ => hF0_8 m c
/-- Off the region's arrays nothing changed. -/
theorem hrest0 (c : Dev nD) : ∀ b, b ∉ Finset.univ.image (Pipeline.arrRef spec0) → A2 m c b = A1 m c b :=
  fun b hb => A2_of m c b fun e => hb (Finset.mem_image.mpr ⟨8, Finset.mem_univ _, e.symm⟩)
/-- The buffers when region 1 is entered: the next stretch of host operations applied. -/
abbrev A3 (c : Dev nD) : Valuation τ sig (Elt F) := StableHlo.after hostOps1 (A2 m c)
/-- The same, read at the TensorCore's references. -/
abbrev B3 : (c : Dev nD) → (b : Ref sig .tc) → Buf (Elt F) ((c : Thread nD τ).loc b) := fun c b => A3 m c b

/-! ## Region 1 -/

/-- What region 1 leaves in its output array: its blocks' write-backs over all points. -/
def o41 (c : Dev nD) : Buf (Elt F) ((c : Thread nD τ).loc main_v41) := (dat1 (B3 m) c).arrAt 8 cfg1.N
/-- The buffers when region 1 is left: its output array at what it wrote, every other buffer as entered. -/
abbrev A4 (c : Dev nD) : Valuation τ sig (Elt F) := Function.update (A3 m c) main_v41 (o41 m c)
theorem A4_of (c : Dev nD) (r : Ref sig .tc) (h : r ≠ main_v41) : A4 m c r = A3 m c r := by
  simp only [A4, Function.update_of_ne (StableHlo.devRef_ne_of_ne h : (Proc.devRef .tc r : DevRef τ sig) ≠ Proc.devRef .tc main_v41)]
theorem A4_same (c : Dev nD) : A4 m c main_v41 = o41 m c := by
  simp only [A4, Function.update_self]
theorem arr1_0_ne : Pipeline.arrRef spec1 0 ≠ main_v41 := by decide
theorem arr1_1_ne : Pipeline.arrRef spec1 1 ≠ main_v41 := by decide
theorem arr1_2_ne : Pipeline.arrRef spec1 2 ≠ main_v41 := by decide
theorem arr1_3_ne : Pipeline.arrRef spec1 3 ≠ main_v41 := by decide
theorem arr1_4_ne : Pipeline.arrRef spec1 4 ≠ main_v41 := by decide
theorem arr1_5_ne : Pipeline.arrRef spec1 5 ≠ main_v41 := by decide
theorem arr1_6_ne : Pipeline.arrRef spec1 6 ≠ main_v41 := by decide
theorem arr1_7_ne : Pipeline.arrRef spec1 7 ≠ main_v41 := by decide
/-- An input array ends as entered (no point writes it back); the output array ends at its write-backs. -/
theorem hF1_0 (c : Dev nD) : (dat1 (B3 m) c).arrAt 0 cfg1.N = A4 m c (Pipeline.arrRef spec1 0) :=
  ((dat1 (B3 m) c).arrAt_in 0 rfl _).trans ((A_eq1 (B3 m) c 0).trans (A4_of m c (Pipeline.arrRef spec1 0) arr1_0_ne).symm)
theorem hF1_1 (c : Dev nD) : (dat1 (B3 m) c).arrAt 1 cfg1.N = A4 m c (Pipeline.arrRef spec1 1) :=
  ((dat1 (B3 m) c).arrAt_in 1 rfl _).trans ((A_eq1 (B3 m) c 1).trans (A4_of m c (Pipeline.arrRef spec1 1) arr1_1_ne).symm)
theorem hF1_2 (c : Dev nD) : (dat1 (B3 m) c).arrAt 2 cfg1.N = A4 m c (Pipeline.arrRef spec1 2) :=
  ((dat1 (B3 m) c).arrAt_in 2 rfl _).trans ((A_eq1 (B3 m) c 2).trans (A4_of m c (Pipeline.arrRef spec1 2) arr1_2_ne).symm)
theorem hF1_3 (c : Dev nD) : (dat1 (B3 m) c).arrAt 3 cfg1.N = A4 m c (Pipeline.arrRef spec1 3) :=
  ((dat1 (B3 m) c).arrAt_in 3 rfl _).trans ((A_eq1 (B3 m) c 3).trans (A4_of m c (Pipeline.arrRef spec1 3) arr1_3_ne).symm)
theorem hF1_4 (c : Dev nD) : (dat1 (B3 m) c).arrAt 4 cfg1.N = A4 m c (Pipeline.arrRef spec1 4) :=
  ((dat1 (B3 m) c).arrAt_in 4 rfl _).trans ((A_eq1 (B3 m) c 4).trans (A4_of m c (Pipeline.arrRef spec1 4) arr1_4_ne).symm)
theorem hF1_5 (c : Dev nD) : (dat1 (B3 m) c).arrAt 5 cfg1.N = A4 m c (Pipeline.arrRef spec1 5) :=
  ((dat1 (B3 m) c).arrAt_in 5 rfl _).trans ((A_eq1 (B3 m) c 5).trans (A4_of m c (Pipeline.arrRef spec1 5) arr1_5_ne).symm)
theorem hF1_6 (c : Dev nD) : (dat1 (B3 m) c).arrAt 6 cfg1.N = A4 m c (Pipeline.arrRef spec1 6) :=
  ((dat1 (B3 m) c).arrAt_in 6 rfl _).trans ((A_eq1 (B3 m) c 6).trans (A4_of m c (Pipeline.arrRef spec1 6) arr1_6_ne).symm)
theorem hF1_7 (c : Dev nD) : (dat1 (B3 m) c).arrAt 7 cfg1.N = A4 m c (Pipeline.arrRef spec1 7) :=
  ((dat1 (B3 m) c).arrAt_in 7 rfl _).trans ((A_eq1 (B3 m) c 7).trans (A4_of m c (Pipeline.arrRef spec1 7) arr1_7_ne).symm)
theorem hF1_8 (c : Dev nD) : (dat1 (B3 m) c).arrAt 8 cfg1.N = A4 m c (Pipeline.arrRef spec1 8) := (A4_same m c).symm
set_option maxHeartbeats 2000000 in
/-- Each of the region's arrays ends at what the pipeline leaves there. -/
theorem hF1 (c : Dev nD) : ∀ w : Fin cfg1.W, (dat1 (B3 m) c).arrAt w cfg1.N = A4 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c
  | ⟨8, _⟩ => hF1_8 m c
/-- Off the region's arrays nothing changed. -/
theorem hrest1 (c : Dev nD) : ∀ b, b ∉ Finset.univ.image (Pipeline.arrRef spec1) → A4 m c b = A3 m c b :=
  fun b hb => A4_of m c b fun e => hb (Finset.mem_image.mpr ⟨8, Finset.mem_univ _, e.symm⟩)
/-- The buffers when region 2 is entered: the next stretch of host operations applied. -/
abbrev A5 (c : Dev nD) : Valuation τ sig (Elt F) := StableHlo.after hostOps2 (A4 m c)
/-- The same, read at the TensorCore's references. -/
abbrev B5 : (c : Dev nD) → (b : Ref sig .tc) → Buf (Elt F) ((c : Thread nD τ).loc b) := fun c b => A5 m c b

/-! ## Region 2 -/

/-- What region 2 leaves in its output array: its blocks' write-backs over all points. -/
def o60 (c : Dev nD) : Buf (Elt F) ((c : Thread nD τ).loc main_v60) := (dat2 (B5 m) c).arrAt 8 cfg2.N
/-- The buffers when region 2 is left: its output array at what it wrote, every other buffer as entered. -/
abbrev A6 (c : Dev nD) : Valuation τ sig (Elt F) := Function.update (A5 m c) main_v60 (o60 m c)
theorem A6_of (c : Dev nD) (r : Ref sig .tc) (h : r ≠ main_v60) : A6 m c r = A5 m c r := by
  simp only [A6, Function.update_of_ne (StableHlo.devRef_ne_of_ne h : (Proc.devRef .tc r : DevRef τ sig) ≠ Proc.devRef .tc main_v60)]
theorem A6_same (c : Dev nD) : A6 m c main_v60 = o60 m c := by
  simp only [A6, Function.update_self]
theorem arr2_0_ne : Pipeline.arrRef spec2 0 ≠ main_v60 := by decide
theorem arr2_1_ne : Pipeline.arrRef spec2 1 ≠ main_v60 := by decide
theorem arr2_2_ne : Pipeline.arrRef spec2 2 ≠ main_v60 := by decide
theorem arr2_3_ne : Pipeline.arrRef spec2 3 ≠ main_v60 := by decide
theorem arr2_4_ne : Pipeline.arrRef spec2 4 ≠ main_v60 := by decide
theorem arr2_5_ne : Pipeline.arrRef spec2 5 ≠ main_v60 := by decide
theorem arr2_6_ne : Pipeline.arrRef spec2 6 ≠ main_v60 := by decide
theorem arr2_7_ne : Pipeline.arrRef spec2 7 ≠ main_v60 := by decide
/-- An input array ends as entered (no point writes it back); the output array ends at its write-backs. -/
theorem hF2_0 (c : Dev nD) : (dat2 (B5 m) c).arrAt 0 cfg2.N = A6 m c (Pipeline.arrRef spec2 0) :=
  ((dat2 (B5 m) c).arrAt_in 0 rfl _).trans ((A_eq2 (B5 m) c 0).trans (A6_of m c (Pipeline.arrRef spec2 0) arr2_0_ne).symm)
theorem hF2_1 (c : Dev nD) : (dat2 (B5 m) c).arrAt 1 cfg2.N = A6 m c (Pipeline.arrRef spec2 1) :=
  ((dat2 (B5 m) c).arrAt_in 1 rfl _).trans ((A_eq2 (B5 m) c 1).trans (A6_of m c (Pipeline.arrRef spec2 1) arr2_1_ne).symm)
theorem hF2_2 (c : Dev nD) : (dat2 (B5 m) c).arrAt 2 cfg2.N = A6 m c (Pipeline.arrRef spec2 2) :=
  ((dat2 (B5 m) c).arrAt_in 2 rfl _).trans ((A_eq2 (B5 m) c 2).trans (A6_of m c (Pipeline.arrRef spec2 2) arr2_2_ne).symm)
theorem hF2_3 (c : Dev nD) : (dat2 (B5 m) c).arrAt 3 cfg2.N = A6 m c (Pipeline.arrRef spec2 3) :=
  ((dat2 (B5 m) c).arrAt_in 3 rfl _).trans ((A_eq2 (B5 m) c 3).trans (A6_of m c (Pipeline.arrRef spec2 3) arr2_3_ne).symm)
theorem hF2_4 (c : Dev nD) : (dat2 (B5 m) c).arrAt 4 cfg2.N = A6 m c (Pipeline.arrRef spec2 4) :=
  ((dat2 (B5 m) c).arrAt_in 4 rfl _).trans ((A_eq2 (B5 m) c 4).trans (A6_of m c (Pipeline.arrRef spec2 4) arr2_4_ne).symm)
theorem hF2_5 (c : Dev nD) : (dat2 (B5 m) c).arrAt 5 cfg2.N = A6 m c (Pipeline.arrRef spec2 5) :=
  ((dat2 (B5 m) c).arrAt_in 5 rfl _).trans ((A_eq2 (B5 m) c 5).trans (A6_of m c (Pipeline.arrRef spec2 5) arr2_5_ne).symm)
theorem hF2_6 (c : Dev nD) : (dat2 (B5 m) c).arrAt 6 cfg2.N = A6 m c (Pipeline.arrRef spec2 6) :=
  ((dat2 (B5 m) c).arrAt_in 6 rfl _).trans ((A_eq2 (B5 m) c 6).trans (A6_of m c (Pipeline.arrRef spec2 6) arr2_6_ne).symm)
theorem hF2_7 (c : Dev nD) : (dat2 (B5 m) c).arrAt 7 cfg2.N = A6 m c (Pipeline.arrRef spec2 7) :=
  ((dat2 (B5 m) c).arrAt_in 7 rfl _).trans ((A_eq2 (B5 m) c 7).trans (A6_of m c (Pipeline.arrRef spec2 7) arr2_7_ne).symm)
theorem hF2_8 (c : Dev nD) : (dat2 (B5 m) c).arrAt 8 cfg2.N = A6 m c (Pipeline.arrRef spec2 8) := (A6_same m c).symm
set_option maxHeartbeats 2000000 in
/-- Each of the region's arrays ends at what the pipeline leaves there. -/
theorem hF2 (c : Dev nD) : ∀ w : Fin cfg2.W, (dat2 (B5 m) c).arrAt w cfg2.N = A6 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c
/-- Off the region's arrays nothing changed. -/
theorem hrest2 (c : Dev nD) : ∀ b, b ∉ Finset.univ.image (Pipeline.arrRef spec2) → A6 m c b = A5 m c b :=
  fun b hb => A6_of m c b fun e => hb (Finset.mem_image.mpr ⟨8, Finset.mem_univ _, e.symm⟩)
/-- The buffers when region 3 is entered: the next stretch of host operations applied. -/
abbrev A7 (c : Dev nD) : Valuation τ sig (Elt F) := StableHlo.after hostOps3 (A6 m c)
/-- The same, read at the TensorCore's references. -/
abbrev B7 : (c : Dev nD) → (b : Ref sig .tc) → Buf (Elt F) ((c : Thread nD τ).loc b) := fun c b => A7 m c b

/-! ## Region 3 -/

/-- What region 3 leaves in its output array: its blocks' write-backs over all points. -/
def o82 (c : Dev nD) : Buf (Elt F) ((c : Thread nD τ).loc main_v82) := (dat3 (B7 m) c).arrAt 7 cfg3.N
/-- The buffers when region 3 is left: its output array at what it wrote, every other buffer as entered. -/
abbrev A8 (c : Dev nD) : Valuation τ sig (Elt F) := Function.update (A7 m c) main_v82 (o82 m c)
theorem A8_of (c : Dev nD) (r : Ref sig .tc) (h : r ≠ main_v82) : A8 m c r = A7 m c r := by
  simp only [A8, Function.update_of_ne (StableHlo.devRef_ne_of_ne h : (Proc.devRef .tc r : DevRef τ sig) ≠ Proc.devRef .tc main_v82)]
theorem A8_same (c : Dev nD) : A8 m c main_v82 = o82 m c := by
  simp only [A8, Function.update_self]
theorem arr3_0_ne : Pipeline.arrRef spec3 0 ≠ main_v82 := by decide
theorem arr3_1_ne : Pipeline.arrRef spec3 1 ≠ main_v82 := by decide
theorem arr3_2_ne : Pipeline.arrRef spec3 2 ≠ main_v82 := by decide
theorem arr3_3_ne : Pipeline.arrRef spec3 3 ≠ main_v82 := by decide
theorem arr3_4_ne : Pipeline.arrRef spec3 4 ≠ main_v82 := by decide
theorem arr3_5_ne : Pipeline.arrRef spec3 5 ≠ main_v82 := by decide
theorem arr3_6_ne : Pipeline.arrRef spec3 6 ≠ main_v82 := by decide
/-- An input array ends as entered (no point writes it back); the output array ends at its write-backs. -/
theorem hF3_0 (c : Dev nD) : (dat3 (B7 m) c).arrAt 0 cfg3.N = A8 m c (Pipeline.arrRef spec3 0) :=
  ((dat3 (B7 m) c).arrAt_in 0 rfl _).trans ((A_eq3 (B7 m) c 0).trans (A8_of m c (Pipeline.arrRef spec3 0) arr3_0_ne).symm)
theorem hF3_1 (c : Dev nD) : (dat3 (B7 m) c).arrAt 1 cfg3.N = A8 m c (Pipeline.arrRef spec3 1) :=
  ((dat3 (B7 m) c).arrAt_in 1 rfl _).trans ((A_eq3 (B7 m) c 1).trans (A8_of m c (Pipeline.arrRef spec3 1) arr3_1_ne).symm)
theorem hF3_2 (c : Dev nD) : (dat3 (B7 m) c).arrAt 2 cfg3.N = A8 m c (Pipeline.arrRef spec3 2) :=
  ((dat3 (B7 m) c).arrAt_in 2 rfl _).trans ((A_eq3 (B7 m) c 2).trans (A8_of m c (Pipeline.arrRef spec3 2) arr3_2_ne).symm)
theorem hF3_3 (c : Dev nD) : (dat3 (B7 m) c).arrAt 3 cfg3.N = A8 m c (Pipeline.arrRef spec3 3) :=
  ((dat3 (B7 m) c).arrAt_in 3 rfl _).trans ((A_eq3 (B7 m) c 3).trans (A8_of m c (Pipeline.arrRef spec3 3) arr3_3_ne).symm)
theorem hF3_4 (c : Dev nD) : (dat3 (B7 m) c).arrAt 4 cfg3.N = A8 m c (Pipeline.arrRef spec3 4) :=
  ((dat3 (B7 m) c).arrAt_in 4 rfl _).trans ((A_eq3 (B7 m) c 4).trans (A8_of m c (Pipeline.arrRef spec3 4) arr3_4_ne).symm)
theorem hF3_5 (c : Dev nD) : (dat3 (B7 m) c).arrAt 5 cfg3.N = A8 m c (Pipeline.arrRef spec3 5) :=
  ((dat3 (B7 m) c).arrAt_in 5 rfl _).trans ((A_eq3 (B7 m) c 5).trans (A8_of m c (Pipeline.arrRef spec3 5) arr3_5_ne).symm)
theorem hF3_6 (c : Dev nD) : (dat3 (B7 m) c).arrAt 6 cfg3.N = A8 m c (Pipeline.arrRef spec3 6) :=
  ((dat3 (B7 m) c).arrAt_in 6 rfl _).trans ((A_eq3 (B7 m) c 6).trans (A8_of m c (Pipeline.arrRef spec3 6) arr3_6_ne).symm)
theorem hF3_7 (c : Dev nD) : (dat3 (B7 m) c).arrAt 7 cfg3.N = A8 m c (Pipeline.arrRef spec3 7) := (A8_same m c).symm
set_option maxHeartbeats 2000000 in
/-- Each of the region's arrays ends at what the pipeline leaves there. -/
theorem hF3 (c : Dev nD) : ∀ w : Fin cfg3.W, (dat3 (B7 m) c).arrAt w cfg3.N = A8 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
  | ⟨7, _⟩ => hF3_7 m c
/-- Off the region's arrays nothing changed. -/
theorem hrest3 (c : Dev nD) : ∀ b, b ∉ Finset.univ.image (Pipeline.arrRef spec3) → A8 m c b = A7 m c b :=
  fun b hb => A8_of m c b fun e => hb (Finset.mem_image.mpr ⟨7, Finset.mem_univ _, e.symm⟩)

end Cert.KernelIdeal.Gen

end
-- ==== Proof.RunRegions.lean ====
/-
  The kernel program's run, region by region: each of the four regions as a record over the thread state "every unscoped
  buffer at the boundary's contents, the generator register at some state, nothing owed", the contents the regions leave
  named from their proof data, and from them the frame: every weakly fair execution of @main terminates without a
  fault and leaves every argument array as launched.
-/
import proofs.«104188_j20804821582443_1_alg».proof.Proof.Gen.KernelIdeal.Regions
import proofs.«104188_j20804821582443_1_alg».proof.Proof.RunChain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 4) → (c : Dev nD) → Dat τ (Elt F) Unit ℕ (UR sig nD τ) ℕ (cfgs p) c
  | ⟨0, _⟩ => fun c => dat0 (B1 m) c
  | ⟨1, _⟩ => fun c => dat1 (B3 m) c
  | ⟨2, _⟩ => fun c => dat2 (B5 m) c
  | ⟨3, _⟩ => fun c => dat3 (B7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and nothing owed. -/
abbrev Rst (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at `A1`, left with them at `A2`. Its arrays
    are split out of the unscoped buffers at entry and put back at their final contents at exit; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (A1 m c) ∗ Rst c)
  post c := iprop(StableHlo.held (c : Thread nD τ) (Pipeline.ucRefs τ sig) (A2 m c) ∗ Rst c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (fun b => A2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `A3`, left with them at `A4`. Its arrays
    are split out of the unscoped buffers at entry and put back at their final contents at exit; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (A3 m c) ∗ Rst c)
  post c := iprop(StableHlo.held (c : Thread nD τ) (Pipeline.ucRefs τ sig) (A4 m c) ∗ Rst c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (fun b => A4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `A5`, left with them at `A6`. Its arrays
    are split out of the unscoped buffers at entry and put back at their final contents at exit; the generator register
    goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (A5 m c) ∗ Rst c)
  post c := iprop(StableHlo.held (c : Thread nD τ) (Pipeline.ucRefs τ sig) (A6 m c) ∗ Rst c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (fun b => A6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `A7`, left with them at `A8`. Its invariant
    also carries the accumulator's scratch buffer, taken out of the scoped buffers at entry and given back at exit. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m) c).loose
  hwaits := Pipeline.hwaits_of_owed_zero _ _ _ _ L lv 3 fun _ _ => rfl
  pre c := iprop(StableHlo.held (c : Thread nD τ) (Pipeline.ucRefs τ sig) (A7 m c) ∗ Rst c)
  post c := iprop(StableHlo.held (c : Thread nD τ) (Pipeline.ucRefs τ sig) (A8 m c) ∗ Rst c)
  X c := iprop(∃ r, prngReg c r)
  Y c := iprop(∃ r, prngReg c r)
  Z c := Pipeline.unscopedRest (Ix := Unit) (Name := ℕ) (U := UR sig nD τ) (Lvl := ℕ) spec3 c (B7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (B7 m) c).Φ 0 from rfl]
    iintro ⟨Hp, -, Hr⟩
    iapply (hin3 (B7 m) c)
    isplitl [Hp] <;> iassumption
  hout c := by
    rw [Pipeline.ownSems0_none, show (pdats m 3 c).Φ (Fin.last _) = (dat3 (B7 m) c).Φ (Fin.last cfg3.N) from rfl]
    iintro H
    ihave H' := (hout3 (B7 m) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (B7 m c) (fun b => A8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the regions leave, as the conditional frame's unknowns -/

/-- Region K's output array after it, read at the item and reference the conditional frame asks; anything elsewhere. -/
def outs : Outs (F := F) := fun J r c =>
  if h2 : J = 2 ∧ r = main_v22 then h2.2 ▸ o22 m c
  else if h4 : J = 4 ∧ r = main_v41 then h4.2 ▸ o41 m c
  else if h6 : J = 6 ∧ r = main_v60 then h6.2 ▸ o60 m c
  else if h8 : J = 8 ∧ r = main_v82 then h8.2 ▸ o82 m c
  else m ((c : Thread nD τ).loc r)

theorem outs_2 (c : Dev nD) : outs m 2 main_v22 c = o22 m c := by
  unfold outs; rw [dif_pos ⟨rfl, rfl⟩]
theorem outs_4 (c : Dev nD) : outs m 4 main_v41 c = o41 m c := by
  unfold outs; rw [dif_neg (fun h => absurd h.1 (by decide)), dif_pos ⟨rfl, rfl⟩]
theorem outs_6 (c : Dev nD) : outs m 6 main_v60 c = o60 m c := by
  unfold outs; rw [dif_neg (fun h => absurd h.1 (by decide)), dif_neg (fun h => absurd h.1 (by decide)), dif_pos ⟨rfl, rfl⟩]
theorem outs_8 (c : Dev nD) : outs m 8 main_v82 c = o82 m c := by
  unfold outs; rw [dif_neg (fun h => absurd h.1 (by decide)), dif_neg (fun h => absurd h.1 (by decide)), dif_neg (fun h => absurd h.1 (by decide)), dif_pos ⟨rfl, rfl⟩]

/-- With these unknowns the conditional frame's boundary contents are the chain's. -/
theorem V2_eq (c : Dev nD) : V2 m (outs m) c = A2 m c := by
  show Function.update (V1 m c) main_v22 (outs m 2 main_v22 c) = _; rw [outs_2]
theorem V3_eq (c : Dev nD) : V3 m (outs m) c = A3 m c := by
  show StableHlo.after hostOps1 (V2 m (outs m) c) = _; rw [V2_eq]
theorem V4_eq (c : Dev nD) : V4 m (outs m) c = A4 m c := by
  show Function.update (V3 m (outs m) c) main_v41 (outs m 4 main_v41 c) = _; rw [V3_eq, outs_4]
theorem V5_eq (c : Dev nD) : V5 m (outs m) c = A5 m c := by
  show StableHlo.after hostOps2 (V4 m (outs m) c) = _; rw [V4_eq]
theorem V6_eq (c : Dev nD) : V6 m (outs m) c = A6 m c := by
  show Function.update (V5 m (outs m) c) main_v60 (outs m 6 main_v60 c) = _; rw [V5_eq, outs_6]
theorem V7_eq (c : Dev nD) : V7 m (outs m) c = A7 m c := by
  show StableHlo.after hostOps3 (V6 m (outs m) c) = _; rw [V6_eq]
theorem V8_eq (c : Dev nD) : V8 m (outs m) c = A8 m c := by
  show Function.update (V7 m (outs m) c) main_v82 (outs m 8 main_v82 c) = _; rw [V7_eq, outs_8]

/-! ## The frame -/

set_option backward.isDefEq.respectTransparency.types false in
/-- Every weakly fair execution of @main from memory `m` with zero counters terminates, nothing faulting, and every
    argument array ends as launched: the conditional frame at the four regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach L lv fun c => by
      iintro ⟨⟨-, HO, -, Hp, -⟩, -⟩
      imodintro
      isplitl [Hp]; · iexists _; iexact Hp
      iexists ∅; iexact HO)
    (hE4 := fun c => by iintro ⟨-, HO⟩; iexact HO)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)

end Cert.KernelIdeal.Gen

end
-- ==== Proof.RunValue.lean ====
/-
  The kernel program's run with its result named: every weakly fair execution of @main terminates, the result array ends
  holding what the readout region's blocks wrote back, and every argument array ends as launched.
-/
import proofs.«104188_j20804821582443_1_alg».proof.Proof.Gen.KernelIdeal.Regions
import proofs.«104188_j20804821582443_1_alg».proof.Proof.RunRegions

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The conditional run with the result named: under the same hypotheses as the conditional frame, every weakly fair
    execution of @main terminates, the result array `main_v82` ends at what the last boundary's contents hold there, and
    every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v82) = V8 m outs c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v82) = V8 m outs c main_v82 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v82) (Finset.mem_filter.mpr ⟨StableHlo.devRef_mem_tcRefs main_v82, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c),
        (h (Proc.devRef .tc main_arg12) (Finset.mem_filter.mpr ⟨StableHlo.devRef_mem_tcRefs main_arg12, by decide⟩)).trans (V8_main_arg12 m outs c),
        (h (Proc.devRef .tc main_arg13) (Finset.mem_filter.mpr ⟨StableHlo.devRef_mem_tcRefs main_arg13, by decide⟩)).trans (V8_main_arg13 m outs c),
        (h (Proc.devRef .tc main_arg14) (Finset.mem_filter.mpr ⟨StableHlo.devRef_mem_tcRefs main_arg14, by decide⟩)).trans (V8_main_arg14 m outs c),
        (h (Proc.devRef .tc main_arg15) (Finset.mem_filter.mpr ⟨StableHlo.devRef_mem_tcRefs main_arg15, by decide⟩)).trans (V8_main_arg15 m outs c),
        (h (Proc.devRef .tc main_arg16) (Finset.mem_filter.mpr ⟨StableHlo.devRef_mem_tcRefs main_arg16, by decide⟩)).trans (V8_main_arg16 m outs c),
        (h (Proc.devRef .tc main_arg17) (Finset.mem_filter.mpr ⟨StableHlo.devRef_mem_tcRefs main_arg17, by decide⟩)).trans (V8_main_arg17 m outs c),
        (h (Proc.devRef .tc main_arg18) (Finset.mem_filter.mpr ⟨StableHlo.devRef_mem_tcRefs main_arg18, by decide⟩)).trans (V8_main_arg18 m outs c),
        (h (Proc.devRef .tc main_arg19) (Finset.mem_filter.mpr ⟨StableHlo.devRef_mem_tcRefs main_arg19, by decide⟩)).trans (V8_main_arg19 m outs c),
        (h (Proc.devRef .tc main_arg20) (Finset.mem_filter.mpr ⟨StableHlo.devRef_mem_tcRefs main_arg20, by decide⟩)).trans (V8_main_arg20 m outs c),
        (h (Proc.devRef .tc main_arg21) (Finset.mem_filter.mpr ⟨StableHlo.devRef_mem_tcRefs main_arg21, by decide⟩)).trans (V8_main_arg21 m outs c),
        (h (Proc.devRef .tc main_arg22) (Finset.mem_filter.mpr ⟨StableHlo.devRef_mem_tcRefs main_arg22, by decide⟩)).trans (V8_main_arg22 m outs c),
        (h (Proc.devRef .tc main_arg23) (Finset.mem_filter.mpr ⟨StableHlo.devRef_mem_tcRefs main_arg23, by decide⟩)).trans (V8_main_arg23 m outs c),
        (h (Proc.devRef .tc main_arg24) (Finset.mem_filter.mpr ⟨StableHlo.devRef_mem_tcRefs main_arg24, by decide⟩)).trans (V8_main_arg24 m outs c),
        (h (Proc.devRef .tc main_arg25) (Finset.mem_filter.mpr ⟨StableHlo.devRef_mem_tcRefs main_arg25, by decide⟩)).trans (V8_main_arg25 m outs c),
        (h (Proc.devRef .tc main_arg26) (Finset.mem_filter.mpr ⟨StableHlo.devRef_mem_tcRefs main_arg26, by decide⟩)).trans (V8_main_arg26 m outs c),
        (h (Proc.devRef .tc main_arg27) (Finset.mem_filter.mpr ⟨StableHlo.devRef_mem_tcRefs main_arg27, by decide⟩)).trans (V8_main_arg27 m outs c)⟩
    · iexact HSI

local notation "𝕄" => MT nD τ sig Unit (Elt F) ℕ (UR sig nD τ) ℕ

set_option backward.isDefEq.respectTransparency.types false in
/-- The run at the four regions' records: the result array ends at the readout region's write-backs. -/
theorem run_value (ρ : Dev nD → PrngReg) : θ_run defs (onTc (τ := τ) (main (F := F))) ⟨m, fun _ => 0, ρ⟩ (fun r => ∀ c : Dev nD,
      r.2.mem ((c.tc : Thread nD τ).loc main_v82) = o82 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨((h c).1).trans ((congrFun (V8_eq m c) (Proc.devRef .tc main_v82)).trans (A8_same m c)), (h c).2⟩)
    (run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach L lv fun c => by
      iintro ⟨⟨-, HO, -, Hp, -⟩, -⟩
      imodintro
      isplitl [Hp]; · iexists _; iexact Hp
      iexists ∅; iexact HO)
    (hE4 := fun c => by iintro ⟨-, HO⟩; iexact HO)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl))

end Cert.KernelIdeal.Gen

end
-- ==== Proof.LayerSpec.lean ====
/-
  What the network computes, entry by entry, on the extended reals.

  A layer takes the node features `X` and the summed neighbour features `A` (both `n × fi`), adds them, applies a
  linear map `fi → fh` with bias, clamps below at zero, applies a linear map `fh → fo` with bias, scales and shifts
  each output feature, and clamps below at zero again. The readout takes the pooled features `Fe` (`g × kd`), applies a
  linear map `kd → h` with bias, scales and shifts, clamps below at zero, and applies a linear map `h → nc` with bias.
  Every sum is a finite sum in the commutative monoid of the extended reals, so its order and grouping are free.
-/
import Idealize.ShloMosaic.PureOps.Ideal
import Mathlib.Algebra.BigOperators.Fin

namespace Cert.Spec

open Idealize.ShloMosaic

/-- Clamping below at zero. -/
noncomputable def relu (x : EReal) : EReal := max x 0

/-- One layer at node `r`, output feature `j`. -/
noncomputable def layer {n fi fh fo : ℕ} (X A : Fin n → Fin fi → EReal) (W1 : Fin fi → Fin fh → EReal) (b1 : Fin fh → EReal)
    (W2 : Fin fh → Fin fo → EReal) (b2 s sh : Fin fo → EReal) (r : Fin n) (j : Fin fo) : EReal :=
  relu (((∑ k : Fin fh, relu ((∑ i : Fin fi, (X r i + A r i) * W1 i k) + b1 k) * W2 k j) + b2 j) * s j + sh j)

/-- The readout at graph `a`, class `c`. -/
noncomputable def readout {g kd h nc : ℕ} (Fe : Fin g → Fin kd → EReal) (W1 : Fin kd → Fin h → EReal) (b1 s sh : Fin h → EReal)
    (W3 : Fin h → Fin nc → EReal) (b3 : Fin nc → EReal) (a : Fin g) (c : Fin nc) : EReal :=
  (∑ j : Fin h, relu (((∑ k : Fin kd, Fe a k * W1 k j) + b1 j) * s j + sh j) * W3 j c) + b3 c

end Cert.Spec
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.ConvValue.lean ====
/-
  What each of the three layer regions leaves in its output array, entry by entry, on the extended reals.

  A layer region runs over fifty grid points. At point `t` it loads rows `2000 t … 2000 t + 1999` of the node features and
  of the summed neighbour features, and the whole of the two weight matrices and the four row vectors; it stores one
  value into rows `2000 t … 2000 t + 1999` of the output. Read at row `p`, column `q` of the block, the stored value is
  the layer's formula: the two feature rows added, a linear map with bias, a clamp below at zero, a second linear map with
  bias, a scale and a shift per output feature, a clamp below at zero. On the extended reals a change of float format is
  the identity and a matrix unit accumulating into the zero tile is the plain finite sum, so nothing but unfolding is
  used. The value at row `p` depends on row `p` of the two row-blocked operands only, which is row `2000 t + p` of their
  arrays; so each point writes back its block of ONE function of the arrays the region finds, and since the fifty
  blocks tile the output (row `r` lies in the block of point `r / 2000`) the output array ends holding that function.
-/
import proofs.«104188_j20804821582443_1_alg».proof.Proof.ConvRegion0
import proofs.«104188_j20804821582443_1_alg».proof.Proof.ConvRegion1
import proofs.«104188_j20804821582443_1_alg».proof.Proof.ConvRegion2
import proofs.«104188_j20804821582443_1_alg».proof.Proof.LayerSpec
import proofs.«104188_j20804821582443_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.ShloMosaic.ValueIdx
open Idealize.ShloMosaic.Pipeline (Dat)

/-! ## The layer's formula depends on one row of each row-blocked operand -/

/-- Two layers agree at rows `r`, `r'` when the two operands' rows there, the weights and the row vectors agree. -/
theorem conv_layer_congr {n n' fi fh fo : ℕ} {X A : Fin n → Fin fi → EReal} {X' A' : Fin n' → Fin fi → EReal}
    {W1 W1' : Fin fi → Fin fh → EReal} {b1 b1' : Fin fh → EReal} {W2 W2' : Fin fh → Fin fo → EReal} {b2 b2' s s' sh sh' : Fin fo → EReal}
    (r : Fin n) (r' : Fin n') (hX : ∀ i, X r i = X' r' i) (hA : ∀ i, A r i = A' r' i) (hW1 : ∀ i k, W1 i k = W1' i k)
    (hb1 : ∀ k, b1 k = b1' k) (hW2 : ∀ k j, W2 k j = W2' k j) (hb2 : ∀ j, b2 j = b2' j) (hs : ∀ j, s j = s' j)
    (hsh : ∀ j, sh j = sh' j) (j : Fin fo) :
    Cert.Spec.layer X A W1 b1 W2 b2 s sh r j = Cert.Spec.layer X' A' W1' b1' W2' b2' s' sh' r' j := by
  unfold Cert.Spec.layer
  simp only [hX, hA, hW1, hb1, hW2, hb2, hs, hsh]

/-- The zero offsets of a whole-block load or store, as the constant function. -/
theorem conv_hz2 : (![0, 0] : Fin 2 → Nat) = fun _ => 0 := funext fun a => match a with | ⟨0, _⟩ => rfl | ⟨1, _⟩ => rfl

/-! ## Region 0: the body's arithmetic at an entry -/

/-- A row `[1, 128]` cast to its own shape and spread over the block's 2000 rows reads, at `(p, q)`, the row at `q`. -/
theorem row0_apply (v : FVec Ideal S1x128 .f32) (p : Fin 2000) (q : Fin 128) :
    broadcastTo S2000x128 (shapeCast S1x128 v shapeCasts_S1x128_S1x128) broadcasts_S1x128_S2000x128 (ix2 p q) = v (ix2 (0 : Fin 1) q) := by
  rw [shapeCast_self]
  exact broadcastTo_1b_ab_apply v broadcasts_S1x128_S2000x128 p q

/-- The first matrix unit, into the zero tile: the block's rows times the first weight matrix. -/
theorem mm0a_apply (A : FVec Ideal S2000x64 .bf16) (B : FVec Ideal S64x128 .bf16) (p : Fin 2000) (q : Fin 128) :
    matmul dot_S2000x64_S64x128_S2000x128_1_0_0_1_n_n none A B (constant (F := Ideal) S2000x128 .f32 0x00000000#32) (ix2 p q)
      = ∑ c : Fin 64, A (ix2 p c) * B (ix2 c q) :=
  Cert.LibPlainDot.matmul_plain_zero_apply none A B p q

/-- The second matrix unit, into the zero tile: the hidden rows times the second weight matrix. -/
theorem mm0b_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ c : Fin 128, A (ix2 p c) * B (ix2 c q) :=
  Cert.LibPlainDot.matmul_plain_zero_apply none A B p q

/-- The body's stored value at row `p`, column `q` of the block is the layer's formula of the eight loaded blocks: on the
    extended reals a change of float format is the identity and a matrix unit's accumulation into the zero tile is the plain sum. -/
theorem pay0_apply (x0 x1 : Vec Ideal S2000x64 .f32) (x2 : Vec Ideal S64x128 .f32) (x3 : Vec Ideal S1x128 .f32)
    (x4 : Vec Ideal S128x128 .f32) (x5 x6 x7 : Vec Ideal S1x128 .f32) (p : Fin 2000) (q : Fin 128) :
    k0_pay1 (F := Ideal) x0 x1 x2 x3 x4 x5 x6 x7 (ix2 p q)
      = Cert.Spec.layer (fun r i => x0 (ix2 r i)) (fun r i => x1 (ix2 r i)) (fun i k => x2 (ix2 i k)) (fun k => x3 (ix2 (0 : Fin 1) k))
          (fun k j => x4 (ix2 k j)) (fun j => x5 (ix2 (0 : Fin 1) j)) (fun j => x6 (ix2 (0 : Fin 1) j)) (fun j => x7 (ix2 (0 : Fin 1) j)) p q := by
  unfold k0_pay1 Cert.Spec.layer Cert.Spec.relu
  dsimp only
  refine (maximumf_apply _ _ _).trans ?_
  refine congrArg₂ max ?_ Ideal.ofBits_zero_f32
  refine (addf_apply _ _ _).trans ?_
  refine congrArg₂ (· + ·) ?_ (row0_apply x7 p q)
  refine (mulf_apply _ _ _).trans ?_
  refine congrArg₂ (· * ·) ?_ (row0_apply x6 p q)
  refine (addf_apply _ _ _).trans ?_
  refine congrArg₂ (· + ·) ?_ (row0_apply x5 p q)
  refine (mm0b_apply _ _ p q).trans ?_
  refine Finset.sum_congr rfl fun k _ => ?_
  refine congrArg₂ (· * ·) ?_ rfl
  refine (truncf_apply (φ := .f32) (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ (row0_apply x3 p k)
  refine (mm0a_apply _ _ p k).trans ?_
  refine Finset.sum_congr rfl fun i _ => ?_
  refine congrArg₂ (· * ·) ?_ rfl
  refine (truncf_apply (φ := .f32) (ψ := .bf16) _ bitsLt_bf16_f32 _).trans ?_
  refine (addf_apply _ _ _).trans ?_
  refine congrArg₂ (· + ·) rfl ?_
  rw [shapeCast_self]

/-! ## Region 0: from the blocks to the array -/

section Value0
variable (V : (c : Dev nD) → (b : Ref sig .tc) → Buf (Elt Ideal) ((c : Thread nD τ).loc b))

/-- The first layer's result as one function of the arrays the region finds: entry `(r, j)` of the output array. -/
def G0 (c : Dev nD) : S100000x128.Idx → Elt Ideal .f32 := fun k =>
  Cert.Spec.layer (fun r i => V c main_arg0 (ix2 r i)) (fun r i => V c main_v13 (ix2 r i)) (fun i k => V c main_arg4 (ix2 i k))
    (fun k => V c main_v18 (ix2 (0 : Fin 1) k)) (fun k j => V c main_arg6 (ix2 k j)) (fun j => V c main_v19 (ix2 (0 : Fin 1) j))
    (fun j => V c main_v20 (ix2 (0 : Fin 1) j)) (fun j => V c main_v21 (ix2 (0 : Fin 1) j)) ⟨(k 0).val, idx2_lt0 k⟩ ⟨(k 1).val, idx2_lt1 k⟩

/-- The block indices over the grid: the two row-blocked operands and the output move with the point along the rows, the
    weights and the row vectors stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Block `t` of the node features: rows `2000 t … 2000 t + 1999` of the array. -/
theorem iblk0_0_apply (c : Dev nD) (t : Fin cfg0.N) (p : Fin 2000) (r : Fin 100000) (hr : r.val = 2000 * t.val + p.val) (i : Fin 64) :
    (iblk0 V c 0 t : Vec Ideal S2000x64 .f32) (ix2 p i) = (V c main_arg0 : S100000x64.Idx → Elt Ideal .f32) (ix2 r i) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 64 + 1 * i.val = i.val; rw [e1]; omega

/-- Block `t` of the summed neighbour features: rows `2000 t … 2000 t + 1999` of the array. -/
theorem iblk0_1_apply (c : Dev nD) (t : Fin cfg0.N) (p : Fin 2000) (r : Fin 100000) (hr : r.val = 2000 * t.val + p.val) (i : Fin 64) :
    (iblk0 V c 1 t : Vec Ideal S2000x64 .f32) (ix2 p i) = (V c main_v13 : S100000x64.Idx → Elt Ideal .f32) (ix2 r i) := by
  obtain ⟨-, -, e0, e1, -⟩ := idx_facts0 t
  unfold iblk0
  rw [View.read_apply]
  show V c main_v13 _ = V c main_v13 _
  refine congrArg (V c main_v13) (funext fun a => Fin.ext ?_)
  match a with
  | ⟨0, _⟩ => show win0_1.index t (0 : Fin 2) * 2000 + 1 * p.val = r.val; rw [e0, hr]; omega
  | ⟨1, _⟩ => show win0_1.index t (1 : Fin 2) * 64 + 1 * i.val = i.val; rw [e1]; omega

/-- The first weight matrix is resident: its block at every point is the whole array. -/
theorem iblk0_2_apply (c : Dev nD) (t : Fin cfg0.N) (a : Fin 64) (b : Fin 128) :
    (iblk0 V c 2 t : Vec Ideal S64x128 .f32) (ix2 a b) = (V c main_arg4 : S64x128.Idx → Elt Ideal .f32) (ix2 a b) := by
  obtain ⟨-, -, -, -, e0, e1, -⟩ := idx_facts0 t
  unfold iblk0
  rw [View.read_apply]
  show V c main_arg4 _ = V c main_arg4 _
  refine congrArg (V c main_arg4) (funext fun x => Fin.ext ?_)
  match x with
  | ⟨0, _⟩ => show win0_2.index t (0 : Fin 2) * 64 + 1 * a.val = a.val; rw [e0]; omega
  | ⟨1, _⟩ => show win0_2.index t (1 : Fin 2) * 128 + 1 * b.val = b.val; rw [e1]; omega

/-- The first bias row is resident. -/
theorem iblk0_3_apply (c : Dev nD) (t : Fin cfg0.N) (a : Fin 1) (b : Fin 128) :
    (iblk0 V c 3 t : Vec Ideal S1x128 .f32) (ix2 a b) = (V c main_v18 : S1x128.Idx → Elt Ideal .f32) (ix2 a b) := by
  obtain ⟨-, -, -, -, -, -, e0, e1, -⟩ := idx_facts0 t
  unfold iblk0
  rw [View.read_apply]
  show V c main_v18 _ = V c main_v18 _
  refine congrArg (V c main_v18) (funext fun x => Fin.ext ?_)
  match x with
  | ⟨0, _⟩ => show win0_3.index t (0 : Fin 2) * 1 + 1 * a.val = a.val; rw [e0]; omega
  | ⟨1, _⟩ => show win0_3.index t (1 : Fin 2) * 128 + 1 * b.val = b.val; rw [e1]; omega

/-- The second weight matrix is resident. -/
theorem iblk0_4_apply (c : Dev nD) (t : Fin cfg0.N) (a : Fin 128) (b : Fin 128) :
    (iblk0 V c 4 t : Vec Ideal S128x128 .f32) (ix2 a b) = (V c main_arg6 : S128x128.Idx → Elt Ideal .f32) (ix2 a b) := by
  obtain ⟨-, -, -, -, -, -, -, -, e0, e1, -⟩ := idx_facts0 t
  unfold iblk0
  rw [View.read_apply]
  show V c main_arg6 _ = V c main_arg6 _
  refine congrArg (V c main_arg6) (funext fun x => Fin.ext ?_)
  match x with
  | ⟨0, _⟩ => show win0_4.index t (0 : Fin 2) * 128 + 1 * a.val = a.val; rw [e0]; omega
  | ⟨1, _⟩ => show win0_4.index t (1 : Fin 2) * 128 + 1 * b.val = b.val; rw [e1]; omega

/-- The second bias row is resident. -/
theorem iblk0_5_apply (c : Dev nD) (t : Fin cfg0.N) (a : Fin 1) (b : Fin 128) :
    (iblk0 V c 5 t : Vec Ideal S1x128 .f32) (ix2 a b) = (V c main_v19 : S1x128.Idx → Elt Ideal .f32) (ix2 a b) := by
  obtain ⟨-, -, -, -, -, -, -, -, -, -, e0, e1, -⟩ := idx_facts0 t
  unfold iblk0
  rw [View.read_apply]
  show V c main_v19 _ = V c main_v19 _
  refine congrArg (V c main_v19) (funext fun x => Fin.ext ?_)
  match x with
  | ⟨0, _⟩ => show win0_5.index t (0 : Fin 2) * 1 + 1 * a.val = a.val; rw [e0]; omega
  | ⟨1, _⟩ => show win0_5.index t (1 : Fin 2) * 128 + 1 * b.val = b.val; rw [e1]; omega

/-- The scale row is resident. -/
theorem iblk0_6_apply (c : Dev nD) (t : Fin cfg0.N) (a : Fin 1) (b : Fin 128) :
    (iblk0 V c 6 t : Vec Ideal S1x128 .f32) (ix2 a b) = (V c main_v20 : S1x128.Idx → Elt Ideal .f32) (ix2 a b) := by
  obtain ⟨-, -, -, -, -, -, -, -, -, -, -, -, e0, e1, -⟩ := idx_facts0 t
  unfold iblk0
  rw [View.read_apply]
  show V c main_v20 _ = V c main_v20 _
  refine congrArg (V c main_v20) (funext fun x => Fin.ext ?_)
  match x with
  | ⟨0, _⟩ => show win0_6.index t (0 : Fin 2) * 1 + 1 * a.val = a.val; rw [e0]; omega
  | ⟨1, _⟩ => show win0_6.index t (1 : Fin 2) * 128 + 1 * b.val = b.val; rw [e1]; omega

/-- The shift row is resident. -/
theorem iblk0_7_apply (c : Dev nD) (t : Fin cfg0.N) (a : Fin 1) (b : Fin 128) :
    (iblk0 V c 7 t : Vec Ideal S1x128 .f32) (ix2 a b) = (V c main_v21 : S1x128.Idx → Elt Ideal .f32) (ix2 a b) := by
  obtain ⟨-, -, -, -, -, -, -, -, -, -, -, -, -, -, e0, e1, -⟩ := idx_facts0 t
  unfold iblk0
  rw [View.read_apply]
  show V c main_v21 _ = V c main_v21 _
  refine congrArg (V c main_v21) (funext fun x => Fin.ext ?_)
  match x with
  | ⟨0, _⟩ => show win0_7.index t (0 : Fin 2) * 1 + 1 * a.val = a.val; rw [e0]; omega
  | ⟨1, _⟩ => show win0_7.index t (1 : Fin 2) * 128 + 1 * b.val = b.val; rw [e1]; omega

/-- The body's stored value at entry `y` of point `t`'s block is the layer's result at the array's entry `k` the block's
    entry sits at: row `2000 t + y₀`, the same column. -/
theorem blockval0 (c : Dev nD) (t : Fin cfg0.N) (y : S2000x128.Idx) (k : S100000x128.Idx)
    (hk0 : (k 0).val = 2000 * t.val + (y 0).val) (hk1 : (k 1).val = (y 1).val) :
    k0_pay1 (F := Ideal) (iblk0 V c 0 t) (iblk0 V c 1 t) (iblk0 V c 2 t) (iblk0 V c 3 t) (iblk0 V c 4 t) (iblk0 V c 5 t)
        (iblk0 V c 6 t) (iblk0 V c 7 t) y = G0 V c k := by
  obtain ⟨p, q, rfl⟩ : ∃ (p : Fin 2000) (q : Fin 128), y = ix2 p q := ⟨y 0, y 1, eq_ix2 y⟩
  obtain ⟨r, j, rfl⟩ : ∃ (r : Fin 100000) (j : Fin 128), k = ix2 r j := ⟨k 0, k 1, eq_ix2 k⟩
  have hj : j = q := Fin.ext hk1
  subst hj
  have hr : r.val = 2000 * t.val + p.val := hk0
  refine (pay0_apply (iblk0 V c 0 t) (iblk0 V c 1 t) (iblk0 V c 2 t) (iblk0 V c 3 t) (iblk0 V c 4 t) (iblk0 V c 5 t)
    (iblk0 V c 6 t) (iblk0 V c 7 t) p j).trans ?_
  exact conv_layer_congr p r (iblk0_0_apply V c t p r hr) (iblk0_1_apply V c t p r hr) (iblk0_2_apply V c t)
    (iblk0_3_apply V c t 0) (iblk0_4_apply V c t) (iblk0_5_apply V c t 0) (iblk0_6_apply V c t 0) (iblk0_7_apply V c t 0) j

/-- What point `t` writes back is block `t` of the layer's result. -/
theorem flushed0_eq (c : Dev nD) (t : Fin cfg0.N) :
    (dat0 (F := Ideal) V c).flushed 8 t = ((cfg0.win 8).blk t).view.read (Elt Ideal) (G0 V c) := by
  show (cfg0.win 8).cut (grid0.coords t) ((dat0 (F := Ideal) V c).after 8 t) = _
  rw [after0_8]
  unfold out0_8
  rw [View.canon_unit_zero conv_hz2]
  simp only [View.ld_unit_zero (S := S2000x64) conv_hz2, View.ld_unit_zero (S := S64x128) conv_hz2, View.ld_unit_zero (S := S1x128) conv_hz2, View.ld_unit_zero (S := S128x128) conv_hz2]
  obtain ⟨-, -, -, -, -, -, -, -, -, -, -, -, -, -, -, -, e0, e1⟩ := idx_facts0 t
  funext y
  rw [View.read_apply]
  refine blockval0 V c t ((cfg0.win 8).xinj (grid0.coords t) y) (((cfg0.win 8).blk t).view.emb y) ?_ ?_
  · show win0_8.index t (0 : Fin 2) * 2000 + 1 * (y 0).val = 2000 * t.val + (y 0).val
    rw [e0]; omega
  · show win0_8.index t (1 : Fin 2) * 128 + 1 * (y 1).val = (y 1).val
    rw [e1]; omega

/-- An entry of the output array is in point `t`'s block when its row is one of the block's 2000. -/
theorem mem_blk0 (t : Fin cfg0.N) (i : S100000x128.Idx) (h : 2000 * t.val ≤ (i 0).val ∧ (i 0).val < 2000 * t.val + 2000) :
    i ∈ ((cfg0.win 8).blk t).view.set := by
  obtain ⟨-, -, -, -, -, -, -, -, -, -, -, -, -, -, -, -, e0, e1⟩ := idx_facts0 t
  have h1 : (i 1).val < 128 := idx2_lt1 i
  show i ∈ ((View.whole main_v22).slice (win0_8.rect t)).set
  rw [View.set_slice_whole, Rect.mem_set_unit]
  intro a
  match a with
  | ⟨0, _⟩ =>
    show win0_8.index t (0 : Fin 2) * 2000 ≤ (i 0).val ∧ (i 0).val < win0_8.index t (0 : Fin 2) * 2000 + 2000
    rw [e0]; omega
  | ⟨1, _⟩ =>
    show win0_8.index t (1 : Fin 2) * 128 ≤ (i 1).val ∧ (i 1).val < win0_8.index t (1 : Fin 2) * 128 + 128
    rw [e1]; omega

/-- The fifty blocks tile the output array: row `r` is in the block of point `r / 2000`. -/
theorem cover0 (i : S100000x128.Idx) : ∃ t : Fin cfg0.N, (cfg0.win 8).flush t = true ∧ i ∈ ((cfg0.win 8).blk t).view.set := by
  have h0 : (i 0).val < 100000 := idx2_lt0 i
  have hN : grid0.N = 50 := N_0
  have ht : (i 0).val / 2000 < grid0.N := by rw [hN]; omega
  refine ⟨⟨(i 0).val / 2000, ht⟩, flush0_8 _, mem_blk0 _ i ?_⟩
  show 2000 * ((i 0).val / 2000) ≤ (i 0).val ∧ (i 0).val < 2000 * ((i 0).val / 2000) + 2000
  omega

/-- Region 0 leaves in its output array the first layer of the arrays it finds, entry by entry. -/
theorem conv0_value (c : Dev nD) (r : Fin 100000) (j : Fin 128) :
    (dat0 (F := Ideal) V c).arrAt 8 cfg0.N (ix2 r j)
      = Cert.Spec.layer (fun r i => V c main_arg0 (ix2 r i)) (fun r i => V c main_v13 (ix2 r i)) (fun i k => V c main_arg4 (ix2 i k))
          (fun k => V c main_v18 (ix2 0 k)) (fun k j => V c main_arg6 (ix2 k j)) (fun j => V c main_v19 (ix2 0 j))
          (fun j => V c main_v20 (ix2 0 j)) (fun j => V c main_v21 (ix2 0 j)) r j :=
  congrFun ((dat0 (F := Ideal) V c).arrAt_eq_of_cover 8 (G0 V c) (fun t _ => flushed0_eq V c t) cover0) (ix2 r j)

end Value0

/-! ## Region 1: the body's arithmetic at an entry -/

/-- A row `[1, 128]` cast to its own shape and spread over the block's 2000 rows reads, at `(p, q)`, the row at `q`. -/
theorem row1_apply (v : FVec Ideal S1x128 .f32) (p : Fin 2000) (q : Fin 128) :
    broadcastTo S2000x128 (shapeCast S1x128 v shapeCasts_S1x128_S1x128) broadcasts_S1x128_S2000x128 (ix2 p q) = v (ix2 (0 : Fin 1) q) := by
  rw [shapeCast_self]
  exact broadcastTo_1b_ab_apply v broadcasts_S1x128_S2000x128 p q

/-- The first matrix unit, into the zero tile: the block's rows times the first weight matrix. -/
theorem mm1a_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ c : Fin 128, A (ix2 p c) * B (ix2 c q) :=
  Cert.LibPlainDot.matmul_plain_zero_apply none A B p q

/-- The second matrix unit, into the zero tile: the hidden rows times the second weight matrix. -/
theorem mm1b_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ c : Fin 128, A (ix2 p c) * B (ix2 c q) :=
  Cert.LibPlainDot.matmul_plain_zero_apply none A B p q

/-- The body's stored value at row `p`, column `q` of the block is the layer's formula of the eight loaded blocks: on the
    extended reals a change of float format is the identity and a matrix unit's accumulation into the zero tile is the plain sum. -/
theorem pay1_apply (x0 x1 : Vec Ideal S2000x128 .f32) (x2 : Vec Ideal S128x128 .f32) (x3 : Vec Ideal S1x128 .f32)
    (x4 : Vec Ideal S128x128 .f32) (x5 x6 x7 : Vec Ideal S1x128 .f32) (p : Fin 2000) (q : Fin 128) :
    k1_pay1 (F := Ideal) x0 x1 x2 x3 x4 x5 x6 x7 (ix2 p q)
      = Cert.Spec.layer (fun r i => x0 (ix2 r i)) (fun r i => x1 (ix2 r i)) (fun i k => x2 (ix2 i k)) (fun k => x3 (ix2 (0 : Fin 1) k))
          (fun k j => x4 (ix2 k j)) (fun j => x5 (ix2 (0 : Fin 1) j)) (fun j => x6 (ix2 (0 : Fin 1) j)) (fun j => x7 (ix2 (0 : Fin 1) j)) p q := by
  unfold k1_pay1 Cert.Spec.layer Cert.Spec.relu
  dsimp only
  refine (maximumf_apply _ _ _).trans ?_
  refine congrArg₂ max ?_ Ideal.ofBits_zero_f32
  refine (addf_apply _ _ _).trans ?_
  refine congrArg₂ (· + ·) ?_ (row1_apply x7 p q)
  refine (mulf_apply _ _ _).trans ?_
  refine congrArg₂ (· * ·) ?_ (row1_apply x6 p q)
  refine (addf_apply _ _ _).trans ?_
  refine congrArg₂ (· + ·) ?_ (row1_apply x5 p q)
  refine (mm1b_apply _ _ p q).trans ?_
  refine Finset.sum_congr rfl fun k _ => ?_
  refine congrArg₂ (· * ·) ?_ rfl
  refine (truncf_apply (φ := .f32) (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ (row1_apply x3 p k)
  refine (mm1a_apply _ _ p k).trans ?_
  refine Finset.sum_congr rfl fun i _ => ?_
  refine congrArg₂ (· * ·) ?_ rfl
  refine (truncf_apply (φ := .f32) (ψ := .bf16) _ bitsLt_bf16_f32 _).trans ?_
  refine (addf_apply _ _ _).trans ?_
  refine congrArg₂ (· + ·) ?_ ?_
  · rw [shapeCast_self]
  · rw [shapeCast_self]

/-! ## Region 1: from the blocks to the array -/

section Value1
variable (V : (c : Dev nD) → (b : Ref sig .tc) → Buf (Elt Ideal) ((c : Thread nD τ).loc b))

/-- The second layer's result as one function of the arrays the region finds: entry `(r, j)` of the output array. -/
def G1 (c : Dev nD) : S100000x128.Idx → Elt Ideal .f32 := fun k =>
  Cert.Spec.layer (fun r i => V c main_v22 (ix2 r i)) (fun r i => V c main_v32 (ix2 r i)) (fun i k => V c main_arg8 (ix2 i k))
    (fun k => V c main_v37 (ix2 (0 : Fin 1) k)) (fun k j => V c main_arg10 (ix2 k j)) (fun j => V c main_v38 (ix2 (0 : Fin 1) j))
    (fun j => V c main_v39 (ix2 (0 : Fin 1) j)) (fun j => V c main_v40 (ix2 (0 : Fin 1) j)) ⟨(k 0).val, idx2_lt0 k⟩ ⟨(k 1).val, idx2_lt1 k⟩

/-- The block indices over the grid: the two row-blocked operands and the output move with the point along the rows, the
    weights and the row vectors stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Block `t` of the node features: rows `2000 t … 2000 t + 1999` of the array. -/
theorem iblk1_0_apply (c : Dev nD) (t : Fin cfg1.N) (p : Fin 2000) (r : Fin 100000) (hr : r.val = 2000 * t.val + p.val) (i : Fin 128) :
    (iblk1 V c 0 t : Vec Ideal S2000x128 .f32) (ix2 p i) = (V c main_v22 : S100000x128.Idx → Elt Ideal .f32) (ix2 r i) := by
  obtain ⟨e0, e1, -⟩ := idx_facts1 t
  unfold iblk1
  rw [View.read_apply]
  show V c main_v22 _ = V c main_v22 _
  refine congrArg (V c main_v22) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * i.val = i.val; rw [e1]; omega

/-- Block `t` of the summed neighbour features: rows `2000 t … 2000 t + 1999` of the array. -/
theorem iblk1_1_apply (c : Dev nD) (t : Fin cfg1.N) (p : Fin 2000) (r : Fin 100000) (hr : r.val = 2000 * t.val + p.val) (i : Fin 128) :
    (iblk1 V c 1 t : Vec Ideal S2000x128 .f32) (ix2 p i) = (V c main_v32 : S100000x128.Idx → Elt Ideal .f32) (ix2 r i) := by
  obtain ⟨-, -, e0, e1, -⟩ := idx_facts1 t
  unfold iblk1
  rw [View.read_apply]
  show V c main_v32 _ = V c main_v32 _
  refine congrArg (V c main_v32) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * i.val = i.val; rw [e1]; omega

/-- The first weight matrix is resident: its block at every point is the whole array. -/
theorem iblk1_2_apply (c : Dev nD) (t : Fin cfg1.N) (a : Fin 128) (b : Fin 128) :
    (iblk1 V c 2 t : Vec Ideal S128x128 .f32) (ix2 a b) = (V c main_arg8 : S128x128.Idx → Elt Ideal .f32) (ix2 a b) := by
  obtain ⟨-, -, -, -, e0, e1, -⟩ := idx_facts1 t
  unfold iblk1
  rw [View.read_apply]
  show V c main_arg8 _ = V c main_arg8 _
  refine congrArg (V c main_arg8) (funext fun x => Fin.ext ?_)
  match x with
  | ⟨0, _⟩ => show win1_2.index t (0 : Fin 2) * 128 + 1 * a.val = a.val; rw [e0]; omega
  | ⟨1, _⟩ => show win1_2.index t (1 : Fin 2) * 128 + 1 * b.val = b.val; rw [e1]; omega

/-- The first bias row is resident. -/
theorem iblk1_3_apply (c : Dev nD) (t : Fin cfg1.N) (a : Fin 1) (b : Fin 128) :
    (iblk1 V c 3 t : Vec Ideal S1x128 .f32) (ix2 a b) = (V c main_v37 : S1x128.Idx → Elt Ideal .f32) (ix2 a b) := by
  obtain ⟨-, -, -, -, -, -, e0, e1, -⟩ := idx_facts1 t
  unfold iblk1
  rw [View.read_apply]
  show V c main_v37 _ = V c main_v37 _
  refine congrArg (V c main_v37) (funext fun x => Fin.ext ?_)
  match x with
  | ⟨0, _⟩ => show win1_3.index t (0 : Fin 2) * 1 + 1 * a.val = a.val; rw [e0]; omega
  | ⟨1, _⟩ => show win1_3.index t (1 : Fin 2) * 128 + 1 * b.val = b.val; rw [e1]; omega

/-- The second weight matrix is resident. -/
theorem iblk1_4_apply (c : Dev nD) (t : Fin cfg1.N) (a : Fin 128) (b : Fin 128) :
    (iblk1 V c 4 t : Vec Ideal S128x128 .f32) (ix2 a b) = (V c main_arg10 : S128x128.Idx → Elt Ideal .f32) (ix2 a b) := by
  obtain ⟨-, -, -, -, -, -, -, -, e0, e1, -⟩ := idx_facts1 t
  unfold iblk1
  rw [View.read_apply]
  show V c main_arg10 _ = V c main_arg10 _
  refine congrArg (V c main_arg10) (funext fun x => Fin.ext ?_)
  match x with
  | ⟨0, _⟩ => show win1_4.index t (0 : Fin 2) * 128 + 1 * a.val = a.val; rw [e0]; omega
  | ⟨1, _⟩ => show win1_4.index t (1 : Fin 2) * 128 + 1 * b.val = b.val; rw [e1]; omega

/-- The second bias row is resident. -/
theorem iblk1_5_apply (c : Dev nD) (t : Fin cfg1.N) (a : Fin 1) (b : Fin 128) :
    (iblk1 V c 5 t : Vec Ideal S1x128 .f32) (ix2 a b) = (V c main_v38 : S1x128.Idx → Elt Ideal .f32) (ix2 a b) := by
  obtain ⟨-, -, -, -, -, -, -, -, -, -, e0, e1, -⟩ := idx_facts1 t
  unfold iblk1
  rw [View.read_apply]
  show V c main_v38 _ = V c main_v38 _
  refine congrArg (V c main_v38) (funext fun x => Fin.ext ?_)
  match x with
  | ⟨0, _⟩ => show win1_5.index t (0 : Fin 2) * 1 + 1 * a.val = a.val; rw [e0]; omega
  | ⟨1, _⟩ => show win1_5.index t (1 : Fin 2) * 128 + 1 * b.val = b.val; rw [e1]; omega

/-- The scale row is resident. -/
theorem iblk1_6_apply (c : Dev nD) (t : Fin cfg1.N) (a : Fin 1) (b : Fin 128) :
    (iblk1 V c 6 t : Vec Ideal S1x128 .f32) (ix2 a b) = (V c main_v39 : S1x128.Idx → Elt Ideal .f32) (ix2 a b) := by
  obtain ⟨-, -, -, -, -, -, -, -, -, -, -, -, e0, e1, -⟩ := idx_facts1 t
  unfold iblk1
  rw [View.read_apply]
  show V c main_v39 _ = V c main_v39 _
  refine congrArg (V c main_v39) (funext fun x => Fin.ext ?_)
  match x with
  | ⟨0, _⟩ => show win1_6.index t (0 : Fin 2) * 1 + 1 * a.val = a.val; rw [e0]; omega
  | ⟨1, _⟩ => show win1_6.index t (1 : Fin 2) * 128 + 1 * b.val = b.val; rw [e1]; omega

/-- The shift row is resident. -/
theorem iblk1_7_apply (c : Dev nD) (t : Fin cfg1.N) (a : Fin 1) (b : Fin 128) :
    (iblk1 V c 7 t : Vec Ideal S1x128 .f32) (ix2 a b) = (V c main_v40 : S1x128.Idx → Elt Ideal .f32) (ix2 a b) := by
  obtain ⟨-, -, -, -, -, -, -, -, -, -, -, -, -, -, e0, e1, -⟩ := idx_facts1 t
  unfold iblk1
  rw [View.read_apply]
  show V c main_v40 _ = V c main_v40 _
  refine congrArg (V c main_v40) (funext fun x => Fin.ext ?_)
  match x with
  | ⟨0, _⟩ => show win1_7.index t (0 : Fin 2) * 1 + 1 * a.val = a.val; rw [e0]; omega
  | ⟨1, _⟩ => show win1_7.index t (1 : Fin 2) * 128 + 1 * b.val = b.val; rw [e1]; omega

/-- The body's stored value at entry `y` of point `t`'s block is the layer's result at the array's entry `k` the block's
    entry sits at: row `2000 t + y₀`, the same column. -/
theorem blockval1 (c : Dev nD) (t : Fin cfg1.N) (y : S2000x128.Idx) (k : S100000x128.Idx)
    (hk0 : (k 0).val = 2000 * t.val + (y 0).val) (hk1 : (k 1).val = (y 1).val) :
    k1_pay1 (F := Ideal) (iblk1 V c 0 t) (iblk1 V c 1 t) (iblk1 V c 2 t) (iblk1 V c 3 t) (iblk1 V c 4 t) (iblk1 V c 5 t)
        (iblk1 V c 6 t) (iblk1 V c 7 t) y = G1 V c k := by
  obtain ⟨p, q, rfl⟩ : ∃ (p : Fin 2000) (q : Fin 128), y = ix2 p q := ⟨y 0, y 1, eq_ix2 y⟩
  obtain ⟨r, j, rfl⟩ : ∃ (r : Fin 100000) (j : Fin 128), k = ix2 r j := ⟨k 0, k 1, eq_ix2 k⟩
  have hj : j = q := Fin.ext hk1
  subst hj
  have hr : r.val = 2000 * t.val + p.val := hk0
  refine (pay1_apply (iblk1 V c 0 t) (iblk1 V c 1 t) (iblk1 V c 2 t) (iblk1 V c 3 t) (iblk1 V c 4 t) (iblk1 V c 5 t)
    (iblk1 V c 6 t) (iblk1 V c 7 t) p j).trans ?_
  exact conv_layer_congr p r (iblk1_0_apply V c t p r hr) (iblk1_1_apply V c t p r hr) (iblk1_2_apply V c t)
    (iblk1_3_apply V c t 0) (iblk1_4_apply V c t) (iblk1_5_apply V c t 0) (iblk1_6_apply V c t 0) (iblk1_7_apply V c t 0) j

/-- What point `t` writes back is block `t` of the layer's result. -/
theorem flushed1_eq (c : Dev nD) (t : Fin cfg1.N) :
    (dat1 (F := Ideal) V c).flushed 8 t = ((cfg1.win 8).blk t).view.read (Elt Ideal) (G1 V c) := by
  show (cfg1.win 8).cut (grid1.coords t) ((dat1 (F := Ideal) V c).after 8 t) = _
  rw [after1_8]
  unfold out1_8
  rw [View.canon_unit_zero conv_hz2]
  simp only [View.ld_unit_zero (S := S2000x128) conv_hz2, View.ld_unit_zero (S := S128x128) conv_hz2, View.ld_unit_zero (S := S1x128) conv_hz2]
  obtain ⟨-, -, -, -, -, -, -, -, -, -, -, -, -, -, -, -, e0, e1⟩ := idx_facts1 t
  funext y
  rw [View.read_apply]
  refine blockval1 V c t ((cfg1.win 8).xinj (grid1.coords t) y) (((cfg1.win 8).blk t).view.emb y) ?_ ?_
  · show win1_8.index t (0 : Fin 2) * 2000 + 1 * (y 0).val = 2000 * t.val + (y 0).val
    rw [e0]; omega
  · show win1_8.index t (1 : Fin 2) * 128 + 1 * (y 1).val = (y 1).val
    rw [e1]; omega

/-- An entry of the output array is in point `t`'s block when its row is one of the block's 2000. -/
theorem mem_blk1 (t : Fin cfg1.N) (i : S100000x128.Idx) (h : 2000 * t.val ≤ (i 0).val ∧ (i 0).val < 2000 * t.val + 2000) :
    i ∈ ((cfg1.win 8).blk t).view.set := by
  obtain ⟨-, -, -, -, -, -, -, -, -, -, -, -, -, -, -, -, e0, e1⟩ := idx_facts1 t
  have h1 : (i 1).val < 128 := idx2_lt1 i
  show i ∈ ((View.whole main_v41).slice (win1_8.rect t)).set
  rw [View.set_slice_whole, Rect.mem_set_unit]
  intro a
  match a with
  | ⟨0, _⟩ =>
    show win1_8.index t (0 : Fin 2) * 2000 ≤ (i 0).val ∧ (i 0).val < win1_8.index t (0 : Fin 2) * 2000 + 2000
    rw [e0]; omega
  | ⟨1, _⟩ =>
    show win1_8.index t (1 : Fin 2) * 128 ≤ (i 1).val ∧ (i 1).val < win1_8.index t (1 : Fin 2) * 128 + 128
    rw [e1]; omega

/-- The fifty blocks tile the output array: row `r` is in the block of point `r / 2000`. -/
theorem cover1 (i : S100000x128.Idx) : ∃ t : Fin cfg1.N, (cfg1.win 8).flush t = true ∧ i ∈ ((cfg1.win 8).blk t).view.set := by
  have h0 : (i 0).val < 100000 := idx2_lt0 i
  have hN : grid1.N = 50 := N_1
  have ht : (i 0).val / 2000 < grid1.N := by rw [hN]; omega
  refine ⟨⟨(i 0).val / 2000, ht⟩, flush1_8 _, mem_blk1 _ i ?_⟩
  show 2000 * ((i 0).val / 2000) ≤ (i 0).val ∧ (i 0).val < 2000 * ((i 0).val / 2000) + 2000
  omega

/-- Region 1 leaves in its output array the second layer of the arrays it finds, entry by entry. -/
theorem conv1_value (c : Dev nD) (r : Fin 100000) (j : Fin 128) :
    (dat1 (F := Ideal) V c).arrAt 8 cfg1.N (ix2 r j)
      = Cert.Spec.layer (fun r i => V c main_v22 (ix2 r i)) (fun r i => V c main_v32 (ix2 r i)) (fun i k => V c main_arg8 (ix2 i k))
          (fun k => V c main_v37 (ix2 0 k)) (fun k j => V c main_arg10 (ix2 k j)) (fun j => V c main_v38 (ix2 0 j))
          (fun j => V c main_v39 (ix2 0 j)) (fun j => V c main_v40 (ix2 0 j)) r j :=
  congrFun ((dat1 (F := Ideal) V c).arrAt_eq_of_cover 8 (G1 V c) (fun t _ => flushed1_eq V c t) cover1) (ix2 r j)

end Value1

/-! ## Region 2: the body's arithmetic at an entry -/

/-- A row `[1, 256]` cast to its own shape and spread over the block's 2000 rows reads, at `(p, q)`, the row at `q`. -/
theorem row2_apply (v : FVec Ideal S1x256 .f32) (p : Fin 2000) (q : Fin 256) :
    broadcastTo S2000x256 (shapeCast S1x256 v shapeCasts_S1x256_S1x256) broadcasts_S1x256_S2000x256 (ix2 p q) = v (ix2 (0 : Fin 1) q) := by
  rw [shapeCast_self]
  exact broadcastTo_1b_ab_apply v broadcasts_S1x256_S2000x256 p q

/-- The first matrix unit, into the zero tile: the block's rows times the first weight matrix. -/
theorem mm2a_apply (A : FVec Ideal S2000x128 .bf16) (B : FVec Ideal S128x256 .bf16) (p : Fin 2000) (q : Fin 256) :
    matmul dot_S2000x128_S128x256_S2000x256_1_0_0_1_n_n none A B (constant (F := Ideal) S2000x256 .f32 0x00000000#32) (ix2 p q)
      = ∑ c : Fin 128, A (ix2 p c) * B (ix2 c q) :=
  Cert.LibPlainDot.matmul_plain_zero_apply none A B p q

/-- The second matrix unit, into the zero tile: the hidden rows times the second weight matrix. -/
theorem mm2b_apply (A : FVec Ideal S2000x256 .bf16) (B : FVec Ideal S256x256 .bf16) (p : Fin 2000) (q : Fin 256) :
    matmul dot_S2000x256_S256x256_S2000x256_1_0_0_1_n_n none A B (constant (F := Ideal) S2000x256 .f32 0x00000000#32) (ix2 p q)
      = ∑ c : Fin 256, A (ix2 p c) * B (ix2 c q) :=
  Cert.LibPlainDot.matmul_plain_zero_apply none A B p q

/-- The body's stored value at row `p`, column `q` of the block is the layer's formula of the eight loaded blocks: on the
    extended reals a change of float format is the identity and a matrix unit's accumulation into the zero tile is the plain sum. -/
theorem pay2_apply (x0 x1 : Vec Ideal S2000x128 .f32) (x2 : Vec Ideal S128x256 .f32) (x3 : Vec Ideal S1x256 .f32)
    (x4 : Vec Ideal S256x256 .f32) (x5 x6 x7 : Vec Ideal S1x256 .f32) (p : Fin 2000) (q : Fin 256) :
    k2_pay1 (F := Ideal) x0 x1 x2 x3 x4 x5 x6 x7 (ix2 p q)
      = Cert.Spec.layer (fun r i => x0 (ix2 r i)) (fun r i => x1 (ix2 r i)) (fun i k => x2 (ix2 i k)) (fun k => x3 (ix2 (0 : Fin 1) k))
          (fun k j => x4 (ix2 k j)) (fun j => x5 (ix2 (0 : Fin 1) j)) (fun j => x6 (ix2 (0 : Fin 1) j)) (fun j => x7 (ix2 (0 : Fin 1) j)) p q := by
  unfold k2_pay1 Cert.Spec.layer Cert.Spec.relu
  dsimp only
  refine (maximumf_apply _ _ _).trans ?_
  refine congrArg₂ max ?_ Ideal.ofBits_zero_f32
  refine (addf_apply _ _ _).trans ?_
  refine congrArg₂ (· + ·) ?_ (row2_apply x7 p q)
  refine (mulf_apply _ _ _).trans ?_
  refine congrArg₂ (· * ·) ?_ (row2_apply x6 p q)
  refine (addf_apply _ _ _).trans ?_
  refine congrArg₂ (· + ·) ?_ (row2_apply x5 p q)
  refine (mm2b_apply _ _ p q).trans ?_
  refine Finset.sum_congr rfl fun k _ => ?_
  refine congrArg₂ (· * ·) ?_ rfl
  refine (truncf_apply (φ := .f32) (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ (row2_apply x3 p k)
  refine (mm2a_apply _ _ p k).trans ?_
  refine Finset.sum_congr rfl fun i _ => ?_
  refine congrArg₂ (· * ·) ?_ rfl
  refine (truncf_apply (φ := .f32) (ψ := .bf16) _ bitsLt_bf16_f32 _).trans ?_
  refine (addf_apply _ _ _).trans ?_
  refine congrArg₂ (· + ·) ?_ ?_
  · rw [shapeCast_self]
  · rw [shapeCast_self]

/-! ## Region 2: from the blocks to the array -/

section Value2
variable (V : (c : Dev nD) → (b : Ref sig .tc) → Buf (Elt Ideal) ((c : Thread nD τ).loc b))

/-- The third layer's result as one function of the arrays the region finds: entry `(r, j)` of the output array. -/
def G2 (c : Dev nD) : S100000x256.Idx → Elt Ideal .f32 := fun k =>
  Cert.Spec.layer (fun r i => V c main_v41 (ix2 r i)) (fun r i => V c main_v51 (ix2 r i)) (fun i k => V c main_arg12 (ix2 i k))
    (fun k => V c main_v56 (ix2 (0 : Fin 1) k)) (fun k j => V c main_arg14 (ix2 k j)) (fun j => V c main_v57 (ix2 (0 : Fin 1) j))
    (fun j => V c main_v58 (ix2 (0 : Fin 1) j)) (fun j => V c main_v59 (ix2 (0 : Fin 1) j)) ⟨(k 0).val, idx2_lt0 k⟩ ⟨(k 1).val, idx2_lt1 k⟩

/-- The block indices over the grid: the two row-blocked operands and the output move with the point along the rows, the
    weights and the row vectors stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Block `t` of the node features: rows `2000 t … 2000 t + 1999` of the array. -/
theorem iblk2_0_apply (c : Dev nD) (t : Fin cfg2.N) (p : Fin 2000) (r : Fin 100000) (hr : r.val = 2000 * t.val + p.val) (i : Fin 128) :
    (iblk2 V c 0 t : Vec Ideal S2000x128 .f32) (ix2 p i) = (V c main_v41 : S100000x128.Idx → Elt Ideal .f32) (ix2 r i) := by
  obtain ⟨e0, e1, -⟩ := idx_facts2 t
  unfold iblk2
  rw [View.read_apply]
  show V c main_v41 _ = V c main_v41 _
  refine congrArg (V c main_v41) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * i.val = i.val; rw [e1]; omega

/-- Block `t` of the summed neighbour features: rows `2000 t … 2000 t + 1999` of the array. -/
theorem iblk2_1_apply (c : Dev nD) (t : Fin cfg2.N) (p : Fin 2000) (r : Fin 100000) (hr : r.val = 2000 * t.val + p.val) (i : Fin 128) :
    (iblk2 V c 1 t : Vec Ideal S2000x128 .f32) (ix2 p i) = (V c main_v51 : S100000x128.Idx → Elt Ideal .f32) (ix2 r i) := by
  obtain ⟨-, -, e0, e1, -⟩ := idx_facts2 t
  unfold iblk2
  rw [View.read_apply]
  show V c main_v51 _ = V c main_v51 _
  refine congrArg (V c main_v51) (funext fun a => Fin.ext ?_)
  match a with
  | ⟨0, _⟩ => show win2_1.index t (0 : Fin 2) * 2000 + 1 * p.val = r.val; rw [e0, hr]; omega
  | ⟨1, _⟩ => show win2_1.index t (1 : Fin 2) * 128 + 1 * i.val = i.val; rw [e1]; omega

/-- The first weight matrix is resident: its block at every point is the whole array. -/
theorem iblk2_2_apply (c : Dev nD) (t : Fin cfg2.N) (a : Fin 128) (b : Fin 256) :
    (iblk2 V c 2 t : Vec Ideal S128x256 .f32) (ix2 a b) = (V c main_arg12 : S128x256.Idx → Elt Ideal .f32) (ix2 a b) := by
  obtain ⟨-, -, -, -, e0, e1, -⟩ := idx_facts2 t
  unfold iblk2
  rw [View.read_apply]
  show V c main_arg12 _ = V c main_arg12 _
  refine congrArg (V c main_arg12) (funext fun x => Fin.ext ?_)
  match x with
  | ⟨0, _⟩ => show win2_2.index t (0 : Fin 2) * 128 + 1 * a.val = a.val; rw [e0]; omega
  | ⟨1, _⟩ => show win2_2.index t (1 : Fin 2) * 256 + 1 * b.val = b.val; rw [e1]; omega

/-- The first bias row is resident. -/
theorem iblk2_3_apply (c : Dev nD) (t : Fin cfg2.N) (a : Fin 1) (b : Fin 256) :
    (iblk2 V c 3 t : Vec Ideal S1x256 .f32) (ix2 a b) = (V c main_v56 : S1x256.Idx → Elt Ideal .f32) (ix2 a b) := by
  obtain ⟨-, -, -, -, -, -, e0, e1, -⟩ := idx_facts2 t
  unfold iblk2
  rw [View.read_apply]
  show V c main_v56 _ = V c main_v56 _
  refine congrArg (V c main_v56) (funext fun x => Fin.ext ?_)
  match x with
  | ⟨0, _⟩ => show win2_3.index t (0 : Fin 2) * 1 + 1 * a.val = a.val; rw [e0]; omega
  | ⟨1, _⟩ => show win2_3.index t (1 : Fin 2) * 256 + 1 * b.val = b.val; rw [e1]; omega

/-- The second weight matrix is resident. -/
theorem iblk2_4_apply (c : Dev nD) (t : Fin cfg2.N) (a : Fin 256) (b : Fin 256) :
    (iblk2 V c 4 t : Vec Ideal S256x256 .f32) (ix2 a b) = (V c main_arg14 : S256x256.Idx → Elt Ideal .f32) (ix2 a b) := by
  obtain ⟨-, -, -, -, -, -, -, -, e0, e1, -⟩ := idx_facts2 t
  unfold iblk2
  rw [View.read_apply]
  show V c main_arg14 _ = V c main_arg14 _
  refine congrArg (V c main_arg14) (funext fun x => Fin.ext ?_)
  match x with
  | ⟨0, _⟩ => show win2_4.index t (0 : Fin 2) * 256 + 1 * a.val = a.val; rw [e0]; omega
  | ⟨1, _⟩ => show win2_4.index t (1 : Fin 2) * 256 + 1 * b.val = b.val; rw [e1]; omega

/-- The second bias row is resident. -/
theorem iblk2_5_apply (c : Dev nD) (t : Fin cfg2.N) (a : Fin 1) (b : Fin 256) :
    (iblk2 V c 5 t : Vec Ideal S1x256 .f32) (ix2 a b) = (V c main_v57 : S1x256.Idx → Elt Ideal .f32) (ix2 a b) := by
  obtain ⟨-, -, -, -, -, -, -, -, -, -, e0, e1, -⟩ := idx_facts2 t
  unfold iblk2
  rw [View.read_apply]
  show V c main_v57 _ = V c main_v57 _
  refine congrArg (V c main_v57) (funext fun x => Fin.ext ?_)
  match x with
  | ⟨0, _⟩ => show win2_5.index t (0 : Fin 2) * 1 + 1 * a.val = a.val; rw [e0]; omega
  | ⟨1, _⟩ => show win2_5.index t (1 : Fin 2) * 256 + 1 * b.val = b.val; rw [e1]; omega

/-- The scale row is resident. -/
theorem iblk2_6_apply (c : Dev nD) (t : Fin cfg2.N) (a : Fin 1) (b : Fin 256) :
    (iblk2 V c 6 t : Vec Ideal S1x256 .f32) (ix2 a b) = (V c main_v58 : S1x256.Idx → Elt Ideal .f32) (ix2 a b) := by
  obtain ⟨-, -, -, -, -, -, -, -, -, -, -, -, e0, e1, -⟩ := idx_facts2 t
  unfold iblk2
  rw [View.read_apply]
  show V c main_v58 _ = V c main_v58 _
  refine congrArg (V c main_v58) (funext fun x => Fin.ext ?_)
  match x with
  | ⟨0, _⟩ => show win2_6.index t (0 : Fin 2) * 1 + 1 * a.val = a.val; rw [e0]; omega
  | ⟨1, _⟩ => show win2_6.index t (1 : Fin 2) * 256 + 1 * b.val = b.val; rw [e1]; omega

/-- The shift row is resident. -/
theorem iblk2_7_apply (c : Dev nD) (t : Fin cfg2.N) (a : Fin 1) (b : Fin 256) :
    (iblk2 V c 7 t : Vec Ideal S1x256 .f32) (ix2 a b) = (V c main_v59 : S1x256.Idx → Elt Ideal .f32) (ix2 a b) := by
  obtain ⟨-, -, -, -, -, -, -, -, -, -, -, -, -, -, e0, e1, -⟩ := idx_facts2 t
  unfold iblk2
  rw [View.read_apply]
  show V c main_v59 _ = V c main_v59 _
  refine congrArg (V c main_v59) (funext fun x => Fin.ext ?_)
  match x with
  | ⟨0, _⟩ => show win2_7.index t (0 : Fin 2) * 1 + 1 * a.val = a.val; rw [e0]; omega
  | ⟨1, _⟩ => show win2_7.index t (1 : Fin 2) * 256 + 1 * b.val = b.val; rw [e1]; omega

/-- The body's stored value at entry `y` of point `t`'s block is the layer's result at the array's entry `k` the block's
    entry sits at: row `2000 t + y₀`, the same column. -/
theorem blockval2 (c : Dev nD) (t : Fin cfg2.N) (y : S2000x256.Idx) (k : S100000x256.Idx)
    (hk0 : (k 0).val = 2000 * t.val + (y 0).val) (hk1 : (k 1).val = (y 1).val) :
    k2_pay1 (F := Ideal) (iblk2 V c 0 t) (iblk2 V c 1 t) (iblk2 V c 2 t) (iblk2 V c 3 t) (iblk2 V c 4 t) (iblk2 V c 5 t)
        (iblk2 V c 6 t) (iblk2 V c 7 t) y = G2 V c k := by
  obtain ⟨p, q, rfl⟩ : ∃ (p : Fin 2000) (q : Fin 256), y = ix2 p q := ⟨y 0, y 1, eq_ix2 y⟩
  obtain ⟨r, j, rfl⟩ : ∃ (r : Fin 100000) (j : Fin 256), k = ix2 r j := ⟨k 0, k 1, eq_ix2 k⟩
  have hj : j = q := Fin.ext hk1
  subst hj
  have hr : r.val = 2000 * t.val + p.val := hk0
  refine (pay2_apply (iblk2 V c 0 t) (iblk2 V c 1 t) (iblk2 V c 2 t) (iblk2 V c 3 t) (iblk2 V c 4 t) (iblk2 V c 5 t)
    (iblk2 V c 6 t) (iblk2 V c 7 t) p j).trans ?_
  exact conv_layer_congr p r (iblk2_0_apply V c t p r hr) (iblk2_1_apply V c t p r hr) (iblk2_2_apply V c t)
    (iblk2_3_apply V c t 0) (iblk2_4_apply V c t) (iblk2_5_apply V c t 0) (iblk2_6_apply V c t 0) (iblk2_7_apply V c t 0) j

/-- What point `t` writes back is block `t` of the layer's result. -/
theorem flushed2_eq (c : Dev nD) (t : Fin cfg2.N) :
    (dat2 (F := Ideal) V c).flushed 8 t = ((cfg2.win 8).blk t).view.read (Elt Ideal) (G2 V c) := by
  show (cfg2.win 8).cut (grid2.coords t) ((dat2 (F := Ideal) V c).after 8 t) = _
  rw [after2_8]
  unfold out2_8
  rw [View.canon_unit_zero conv_hz2]
  simp only [View.ld_unit_zero (S := S2000x128) conv_hz2, View.ld_unit_zero (S := S128x256) conv_hz2, View.ld_unit_zero (S := S1x256) conv_hz2, View.ld_unit_zero (S := S256x256) conv_hz2]
  obtain ⟨-, -, -, -, -, -, -, -, -, -, -, -, -, -, -, -, e0, e1⟩ := idx_facts2 t
  funext y
  rw [View.read_apply]
  refine blockval2 V c t ((cfg2.win 8).xinj (grid2.coords t) y) (((cfg2.win 8).blk t).view.emb y) ?_ ?_
  · show win2_8.index t (0 : Fin 2) * 2000 + 1 * (y 0).val = 2000 * t.val + (y 0).val
    rw [e0]; omega
  · show win2_8.index t (1 : Fin 2) * 256 + 1 * (y 1).val = (y 1).val
    rw [e1]; omega

/-- An entry of the output array is in point `t`'s block when its row is one of the block's 2000. -/
theorem mem_blk2 (t : Fin cfg2.N) (i : S100000x256.Idx) (h : 2000 * t.val ≤ (i 0).val ∧ (i 0).val < 2000 * t.val + 2000) :
    i ∈ ((cfg2.win 8).blk t).view.set := by
  obtain ⟨-, -, -, -, -, -, -, -, -, -, -, -, -, -, -, -, e0, e1⟩ := idx_facts2 t
  have h1 : (i 1).val < 256 := idx2_lt1 i
  show i ∈ ((View.whole main_v60).slice (win2_8.rect t)).set
  rw [View.set_slice_whole, Rect.mem_set_unit]
  intro a
  match a with
  | ⟨0, _⟩ =>
    show win2_8.index t (0 : Fin 2) * 2000 ≤ (i 0).val ∧ (i 0).val < win2_8.index t (0 : Fin 2) * 2000 + 2000
    rw [e0]; omega
  | ⟨1, _⟩ =>
    show win2_8.index t (1 : Fin 2) * 256 ≤ (i 1).val ∧ (i 1).val < win2_8.index t (1 : Fin 2) * 256 + 256
    rw [e1]; omega

/-- The fifty blocks tile the output array: row `r` is in the block of point `r / 2000`. -/
theorem cover2 (i : S100000x256.Idx) : ∃ t : Fin cfg2.N, (cfg2.win 8).flush t = true ∧ i ∈ ((cfg2.win 8).blk t).view.set := by
  have h0 : (i 0).val < 100000 := idx2_lt0 i
  have hN : grid2.N = 50 := N_2
  have ht : (i 0).val / 2000 < grid2.N := by rw [hN]; omega
  refine ⟨⟨(i 0).val / 2000, ht⟩, flush2_8 _, mem_blk2 _ i ?_⟩
  show 2000 * ((i 0).val / 2000) ≤ (i 0).val ∧ (i 0).val < 2000 * ((i 0).val / 2000) + 2000
  omega

/-- Region 2 leaves in its output array the third layer of the arrays it finds, entry by entry. -/
theorem conv2_value (c : Dev nD) (r : Fin 100000) (j : Fin 256) :
    (dat2 (F := Ideal) V c).arrAt 8 cfg2.N (ix2 r j)
      = Cert.Spec.layer (fun r i => V c main_v41 (ix2 r i)) (fun r i => V c main_v51 (ix2 r i)) (fun i k => V c main_arg12 (ix2 i k))
          (fun k => V c main_v56 (ix2 0 k)) (fun k j => V c main_arg14 (ix2 k j)) (fun j => V c main_v57 (ix2 0 j))
          (fun j => V c main_v58 (ix2 0 j)) (fun j => V c main_v59 (ix2 0 j)) r j :=
  congrFun ((dat2 (F := Ideal) V c).arrAt_eq_of_cover 8 (G2 V c) (fun t _ => flushed2_eq V c t) cover2) (ix2 r j)

end Value2

end Cert.KernelIdeal.Gen

end
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.FinalValue.lean ====
/- The value of region 3 of @main (custom_call 3, `cc3__final_kernel`) on the extended reals: the output array after the
   region, entry by entry, is the readout of the arrays the region is entered with.

   The accumulator after `n` points holds, at `(a, j)`, the sum over the first `n` points of the products along each
   point's 512 indices of the reduction axis (by induction on the points: the zero tile, then one plain matrix product
   added per point); the 13 blocks of 512 tile the axis of 6656, so after the last point it holds the whole
   row-by-column product. The last point's store applies, entry by entry, the bias, the scale and shift, the clamp
   below at zero, the second plain product and its bias: the specification's `readout`. The output window's one block is
   its whole array, so the array after the write-back is that block. -/
import proofs.«104188_j20804821582443_1_alg».proof.Proof.FinalRegion
import proofs.«104188_j20804821582443_1_alg».proof.Proof.LayerSpec
import proofs.«104188_j20804821582443_1_alg».proof.Proof.LibPlainDot
import proofs.«104188_j20804821582443_1_alg».proof.Proof.LibTileSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)
open scoped BigOperators

/-! ## The two matrix units are plain products -/

theorem dot1_plain : dot_S512x512_S512x3328_S512x3328_1_0_0_1_n_n = DotDims.plain 512 512 3328 := rfl
theorem dot2_plain : dot_S512x3328_S3328x128_S512x128_1_0_0_1_n_n = DotDims.plain 512 3328 128 := rfl

/-! ## The body's three payloads at an entry -/

/-- The zero tile is zero everywhere. -/
theorem fin_pay1_apply (i : S512x3328.Idx) : k3_pay1 (F := Ideal) i = 0 := by
  unfold k3_pay1
  rw [shapeCast_self]
  exact Ideal.ofBits_zero_f32

/-- The accumulation at `(a, j)`: what was there plus the row-by-column product of the point's two blocks. -/
theorem fin_pay2_apply (v3 : FVec Ideal S512x3328 .f32) (v4 : FVec Ideal S512x512 .bf16) (v6 : FVec Ideal S512x3328 .bf16)
    (a : Fin 512) (j : Fin 3328) :
    k3_pay2 (F := Ideal) v3 v4 v6 (ix2 a j) = v3 (ix2 a j) + ∑ k : Fin 512, v4 (ix2 a k) * v6 (ix2 k j) := by
  unfold k3_pay2
  simp only [shapeCast_self]
  rw [addf_apply]
  refine congrArg (v3 (ix2 a j) + ·) ?_
  simp only [matmul]
  rw [dot1_plain]
  exact Cert.LibPlainDot.matmul_plain_zero_apply none v4 v6 a j

/-- The readout at `(a, n)`. -/
theorem fin_pay3_apply (v16 : FVec Ideal S512x3328 .f32) (v17 v21 v25 : FVec Ideal S1x3328 .f32) (v32 : FVec Ideal S3328x128 .bf16)
    (v35 : FVec Ideal S1x128 .f32) (a : Fin 512) (n : Fin 128) :
    k3_pay3 (F := Ideal) v16 v17 v21 v25 v32 v35 (ix2 a n)
      = (∑ j : Fin 3328, max ((v16 (ix2 a j) + v17 (ix2 (0 : Fin 1) j)) * v21 (ix2 (0 : Fin 1) j) + v25 (ix2 (0 : Fin 1) j)) 0 * v32 (ix2 j n))
          + v35 (ix2 (0 : Fin 1) n) := by
  unfold k3_pay3
  simp only [shapeCast_self]
  rw [addf_apply, broadcastTo_1b_ab_apply]
  refine congrArg (· + v35 (ix2 (0 : Fin 1) n)) ?_
  simp only [matmul]
  rw [dot2_plain]
  refine (Cert.LibPlainDot.matmul_plain_zero_apply none _ _ a n).trans ?_
  refine Finset.sum_congr rfl fun j _ => ?_
  refine congrArg (· * v32 (ix2 j n)) ?_
  rw [truncf_apply, maximumf_apply, addf_apply, mulf_apply, addf_apply, broadcastTo_1b_ab_apply, broadcastTo_1b_ab_apply,
    broadcastTo_1b_ab_apply, broadcast_apply]
  exact congrArg (max (α := EReal) _) Ideal.ofBits_zero_f32

section Value
variable (V : (c : Dev nD) → (b : Ref sig .tc) → Buf (Elt Ideal) ((c : Thread nD τ).loc b))

/-! ## The windows' blocks as entries of their arrays -/

/-- The reduction axis, 6656 long, is cut into the 13 points' blocks of 512. -/
theorem h13 : 13 * 512 = 6656 := rfl

/-- The printed index maps, decided over the grid: window 0 moves along its columns and window 1 along its rows with
    the point; the other windows' block index is zero. -/
theorem idx_facts3 : ∀ t : Fin cfg3.N,
    win3_0.index t (0 : Fin 2) = 0 ∧ win3_0.index t (1 : Fin 2) = t.val
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Window 0's block at point `t`, at `(a, k)`: the array at row `a`, column `512·t + k`. -/
theorem iblk3_0_apply (c : Dev nD) (t : Fin cfg3.N) (a k : Fin 512) :
    iblk3 V c 0 t (ix2 a k) = V c main_v75 (ix2 a (Cert.LibTileSum.blk h13 (Fin.cast N_3 t) k)) := by
  obtain ⟨e0, e1, -⟩ := idx_facts3 t
  show V c main_v75 (((cfg3.win 0).blk t).view.emb (ix2 a k)) = _
  refine congrArg (V c main_v75) (funext fun ax => Fin.ext ?_)
  match ax with
  | ⟨0, _⟩ => show win3_0.index t (0 : Fin 2) * 512 + 1 * a.val = a.val; omega
  | ⟨1, _⟩ => show win3_0.index t (1 : Fin 2) * 512 + 1 * k.val = 512 * t.val + k.val; omega

/-- Window 1's block at point `t`, at `(k, j)`: the array at row `512·t + k`, column `j`. -/
theorem iblk3_1_apply (c : Dev nD) (t : Fin cfg3.N) (k : Fin 512) (j : Fin 3328) :
    iblk3 V c 1 t (ix2 k j) = V c main_v76 (ix2 (Cert.LibTileSum.blk h13 (Fin.cast N_3 t) k) j) := by
  obtain ⟨-, -, e0, e1, -⟩ := idx_facts3 t
  show V c main_v76 (((cfg3.win 1).blk t).view.emb (ix2 k j)) = _
  refine congrArg (V c main_v76) (funext fun ax => Fin.ext ?_)
  match ax with
  | ⟨0, _⟩ => show win3_1.index t (0 : Fin 2) * 512 + 1 * k.val = 512 * t.val + k.val; omega
  | ⟨1, _⟩ => show win3_1.index t (1 : Fin 2) * 3328 + 1 * j.val = j.val; omega

/-- Window 2's block is its whole one-row array. -/
theorem iblk3_2_apply (c : Dev nD) (t : Fin cfg3.N) (j : Fin 3328) :
    iblk3 V c 2 t (ix2 (0 : Fin 1) j) = V c main_v78 (ix2 (0 : Fin 1) j) := by
  obtain ⟨-, -, -, -, e0, e1, -⟩ := idx_facts3 t
  show V c main_v78 (((cfg3.win 2).blk t).view.emb (ix2 (0 : Fin 1) j)) = _
  refine congrArg (V c main_v78) (funext fun ax => Fin.ext ?_)
  match ax with
  | ⟨0, _⟩ => show win3_2.index t (0 : Fin 2) * 1 + 1 * 0 = 0; omega
  | ⟨1, _⟩ => show win3_2.index t (1 : Fin 2) * 3328 + 1 * j.val = j.val; omega

/-- Window 3's block is its whole one-row array. -/
theorem iblk3_3_apply (c : Dev nD) (t : Fin cfg3.N) (j : Fin 3328) :
    iblk3 V c 3 t (ix2 (0 : Fin 1) j) = V c main_v79 (ix2 (0 : Fin 1) j) := by
  obtain ⟨-, -, -, -, -, -, e0, e1, -⟩ := idx_facts3 t
  show V c main_v79 (((cfg3.win 3).blk t).view.emb (ix2 (0 : Fin 1) j)) = _
  refine congrArg (V c main_v79) (funext fun ax => Fin.ext ?_)
  match ax with
  | ⟨0, _⟩ => show win3_3.index t (0 : Fin 2) * 1 + 1 * 0 = 0; omega
  | ⟨1, _⟩ => show win3_3.index t (1 : Fin 2) * 3328 + 1 * j.val = j.val; omega

/-- Window 4's block is its whole one-row array. -/
theorem iblk3_4_apply (c : Dev nD) (t : Fin cfg3.N) (j : Fin 3328) :
    iblk3 V c 4 t (ix2 (0 : Fin 1) j) = V c main_v80 (ix2 (0 : Fin 1) j) := by
  obtain ⟨-, -, -, -, -, -, -, -, e0, e1, -⟩ := idx_facts3 t
  show V c main_v80 (((cfg3.win 4).blk t).view.emb (ix2 (0 : Fin 1) j)) = _
  refine congrArg (V c main_v80) (funext fun ax => Fin.ext ?_)
  match ax with
  | ⟨0, _⟩ => show win3_4.index t (0 : Fin 2) * 1 + 1 * 0 = 0; omega
  | ⟨1, _⟩ => show win3_4.index t (1 : Fin 2) * 3328 + 1 * j.val = j.val; omega

/-- Window 6's block is its whole one-row array. -/
theorem iblk3_6_apply (c : Dev nD) (t : Fin cfg3.N) (j : Fin 128) :
    iblk3 V c 6 t (ix2 (0 : Fin 1) j) = V c main_v81 (ix2 (0 : Fin 1) j) := by
  obtain ⟨-, -, -, -, -, -, -, -, -, -, -, -, e0, e1, -⟩ := idx_facts3 t
  show V c main_v81 (((cfg3.win 6).blk t).view.emb (ix2 (0 : Fin 1) j)) = _
  refine congrArg (V c main_v81) (funext fun ax => Fin.ext ?_)
  match ax with
  | ⟨0, _⟩ => show win3_6.index t (0 : Fin 2) * 1 + 1 * 0 = 0; omega
  | ⟨1, _⟩ => show win3_6.index t (1 : Fin 2) * 128 + 1 * j.val = j.val; omega

/-- Window 5's block is its whole array. -/
theorem iblk3_5_apply (c : Dev nD) (t : Fin cfg3.N) (j : Fin 3328) (n : Fin 128) :
    iblk3 V c 5 t (ix2 j n) = V c main_v77 (ix2 j n) := by
  obtain ⟨-, -, -, -, -, -, -, -, -, -, e0, e1, -⟩ := idx_facts3 t
  show V c main_v77 (((cfg3.win 5).blk t).view.emb (ix2 j n)) = _
  refine congrArg (V c main_v77) (funext fun ax => Fin.ext ?_)
  match ax with
  | ⟨0, _⟩ => show win3_5.index t (0 : Fin 2) * 3328 + 1 * j.val = j.val; omega
  | ⟨1, _⟩ => show win3_5.index t (1 : Fin 2) * 128 + 1 * n.val = n.val; omega

/-! ## The accumulator at an entry -/

/-- The pooled features and the first linear map as the region finds them, entry by entry. -/
abbrev feat3 (c : Dev nD) (a : Fin 512) (k : Fin 6656) : EReal := V c main_v75 (ix2 a k)
abbrev lin3 (c : Dev nD) (k : Fin 6656) (j : Fin 3328) : EReal := V c main_v76 (ix2 k j)

/-- Point `i`'s contribution to the accumulator at `(a, j)`: the products along the point's 512 indices of the
    reduction axis. -/
def term3 (c : Dev nD) (a : Fin 512) (j : Fin 3328) (i : ℕ) (hi : i < 13) : EReal :=
  ∑ k : Fin 512, feat3 V c a (Cert.LibTileSum.blk h13 ⟨i, hi⟩ k) * lin3 V c (Cert.LibTileSum.blk h13 ⟨i, hi⟩ k) j

/-- After `n` points the accumulator at `(a, j)` is the sum of the first `n` points' contributions. -/
theorem acc3_apply (c : Dev nD) (a : Fin 512) (j : Fin 3328) : ∀ (n : ℕ) (h : n ≤ cfg3.N),
    acc3 (F := Ideal) V c n h (ix2 a j) = ∑ i : Fin n, term3 V c a j i.val (lt_of_lt_of_le i.isLt (h.trans N_3.le))
  | 0, h => by
    rw [acc3_zero V c 0 h rfl, fin_pay1_apply]
    exact (Finset.sum_empty).symm
  | n + 1, h => by
    rw [acc3, fin_pay2_apply, acc3_apply c a j n (Nat.le_of_succ_le h)]
    conv_rhs => rw [Fin.sum_univ_castSucc]
    refine congrArg₂ (fun x y : EReal => x + y) rfl ?_
    unfold term3
    refine Finset.sum_congr rfl fun k _ => ?_
    rw [iblk3_0_apply, iblk3_1_apply]
    rfl

/-- After the last point the accumulator at `(a, j)` is the whole row-by-column product. -/
theorem acc3_final (c : Dev nD) (a : Fin 512) (j : Fin 3328) (n : ℕ) (h : n ≤ cfg3.N) (hn : n = 13) :
    acc3 (F := Ideal) V c n h (ix2 a j) = ∑ x : Fin 6656, feat3 V c a x * lin3 V c x j := by
  subst hn
  rw [acc3_apply V c a j 13 h, Cert.LibTileSum.sum_blocks h13 (fun x : Fin 6656 => feat3 V c a x * lin3 V c x j)]
  rfl

/-! ## The output array -/

/-- The output array after the region, at `(a, n)`, is the last point's output block there. -/
theorem arr3_apply (c : Dev nD) (a : Fin 512) (n : Fin 128) :
    (dat3 (F := Ideal) V c).arrAt 7 cfg3.N (ix2 a n) = out3_7 V c t3_12 (ix2 a n) := by
  have e := congrFun (outRead3 V c) (ix2 a n)
  obtain ⟨-, -, -, -, -, -, -, -, -, -, -, -, -, -, e0, e1⟩ := idx_facts3 t3_12
  refine Eq.trans ?_ e
  show _ = (dat3 (F := Ideal) V c).arrAt 7 cfg3.N (((cfg3.win 7).blk t3_12).view.emb (ix2 a n))
  refine congrArg ((dat3 (F := Ideal) V c).arrAt 7 cfg3.N) (funext fun ax => Fin.ext ?_)
  match ax with
  | ⟨0, _⟩ => show a.val = win3_7.index t3_12 (0 : Fin 2) * 512 + 1 * a.val; omega
  | ⟨1, _⟩ => show n.val = win3_7.index t3_12 (1 : Fin 2) * 128 + 1 * n.val; omega

/-- THE VALUE of region 3: the output array after the region is the readout of the region-entry arrays, entry by entry. -/
theorem final_value (c : Dev nD) (a : Fin 512) (n : Fin 128) :
    (dat3 (F := Ideal) V c).arrAt 7 cfg3.N (ix2 a n)
      = Cert.Spec.readout (fun a k => V c main_v75 (ix2 a k)) (fun k j => V c main_v76 (ix2 k j)) (fun j => V c main_v78 (ix2 0 j))
          (fun j => V c main_v79 (ix2 0 j)) (fun j => V c main_v80 (ix2 0 j)) (fun j n => V c main_v77 (ix2 j n))
          (fun n => V c main_v81 (ix2 0 n)) a n := by
  rw [arr3_apply]
  unfold out3_7
  rw [fin_pay3_apply]
  unfold Cert.Spec.readout Cert.Spec.relu
  rw [iblk3_6_apply]
  refine congrArg (· + V c main_v81 (ix2 (0 : Fin 1) n)) ?_
  refine Finset.sum_congr rfl fun j _ => ?_
  rw [acc3_final V c a j (t3_12.val + 1) t3_12.isLt rfl, iblk3_2_apply, iblk3_3_apply, iblk3_4_apply, iblk3_5_apply]

end Value

end Cert.KernelIdeal.Gen

end
-- ==== Proof.HostGlue.lean ====
/-
  The host operations between the regions, read at the ideal instance. They are the same slices, comparisons,
  selections, gathers, scatter-adds, square root, divisions, reshapes and concatenation that the reference program
  applies between its layers, so what each stretch leaves in a buffer is the reference's stage function of the same
  inputs: the summed neighbour features are the scatter-add, over the edges' targets, of the rows gathered at the
  edges' sources; the per-feature scale is the given scale divided by the square root of one constant; a row vector
  reshaped to one row is read at its column; a change of float format is the identity.
-/
import proofs.«104188_j20804821582443_1_alg».proof.Proof.Gen.KernelIdeal.Launch
import proofs.«104188_j20804821582443_1_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx

/-- A vector of length `b` reshaped to the one-row matrix `[1, b]`, read at row 0 and column `k`, is the vector at `k`:
    both positions are the `k`-th in row-major order. -/
theorem rowReshape_apply {b : Nat} {α : Type} (x : (⟨1, ![b]⟩ : Shape).Idx → α)
    (h : (⟨1, ![b]⟩ : Shape).ShapeCasts ⟨2, ![1, b]⟩) (k : Fin b) :
    shapeCast ⟨2, ![1, b]⟩ x h (ix2 0 k) = x (ix1 k) :=
  shapeCast_apply x h _ (ix1 k) (by
    rw [Shape.rowMajor_val_one, Shape.rowMajor_val_two]; show k.val = 0 * b + k.val; omega)

/-! ## Before region 0 -/

/-- The edges' source nodes: row 0 of the edge list, as a vector. -/
theorem glue0_v1 (W : Valuation τ sig (Elt Ideal)) :
    StableHlo.after (hostOps0 (F := Ideal)) W (Proc.devRef .tc main_v1) = Cert.ReferenceIdeal.Read.val_main_v1 (F := Ideal) (W (Proc.devRef .tc main_arg1)) := by
  after_results
  rfl

/-- The edges' target nodes: row 1 of the edge list, as a vector. -/
theorem glue0_v3 (W : Valuation τ sig (Elt Ideal)) :
    StableHlo.after (hostOps0 (F := Ideal)) W (Proc.devRef .tc main_v3) = Cert.ReferenceIdeal.Read.val_main_v3 (F := Ideal) (W (Proc.devRef .tc main_arg1)) := by
  after_results
  rfl

set_option maxHeartbeats 4000000 in
/-- The summed neighbour features of the node features: the rows gathered at the edges' sources, scatter-added at
    the edges' targets. -/
theorem glue0_v13 (W : Valuation τ sig (Elt Ideal)) :
    StableHlo.after (hostOps0 (F := Ideal)) W (Proc.devRef .tc main_v13)
      = Cert.ReferenceIdeal.Read.val_main_v13 (F := Ideal) (W (Proc.devRef .tc main_arg0)) (W (Proc.devRef .tc main_arg1)) := by
  after_results_simp
  rfl

/-- Layer 1's first bias as one row. -/
theorem glue0_v18 (W : Valuation τ sig (Elt Ideal)) (k : Fin 128) :
    StableHlo.after (hostOps0 (F := Ideal)) W (Proc.devRef .tc main_v18) (ix2 0 k) = W (Proc.devRef .tc main_arg5) (ix1 k) := by
  after_results
  show shapeCast S1x128 (W (Proc.devRef .tc main_arg5)) shapeCasts_S128_S1x128 (ix2 0 k) = _
  exact rowReshape_apply _ _ k

/-- Layer 1's second bias as one row. -/
theorem glue0_v19 (W : Valuation τ sig (Elt Ideal)) (k : Fin 128) :
    StableHlo.after (hostOps0 (F := Ideal)) W (Proc.devRef .tc main_v19) (ix2 0 k) = W (Proc.devRef .tc main_arg7) (ix1 k) := by
  after_results
  show shapeCast S1x128 (W (Proc.devRef .tc main_arg7)) shapeCasts_S128_S1x128 (ix2 0 k) = _
  exact rowReshape_apply _ _ k

/-- Layer 1's scale as one row: the given scale over the square root of the constant. -/
theorem glue0_v20 (W : Valuation τ sig (Elt Ideal)) (j : Fin 128) :
    StableHlo.after (hostOps0 (F := Ideal)) W (Proc.devRef .tc main_v20) (ix2 0 j)
      = Cert.ReferenceIdeal.Read.val_main_v27 (F := Ideal) (W (Proc.devRef .tc main_arg16)) (ix1 j) := by
  after_results
  show shapeCast S1x128 (Host.divf (W (Proc.devRef .tc main_arg16)) (broadcastInDim S128 ![] bcast_S_S128
    (id (Host.sqrt (constant (F := Ideal) S_ .f32 0x3F800054#32))))) shapeCasts_S128_S1x128 (ix2 0 j) = _
  rw [rowReshape_apply _ _ j]
  rfl

/-- Layer 1's shift as one row. -/
theorem glue0_v21 (W : Valuation τ sig (Elt Ideal)) (k : Fin 128) :
    StableHlo.after (hostOps0 (F := Ideal)) W (Proc.devRef .tc main_v21) (ix2 0 k) = W (Proc.devRef .tc main_arg17) (ix1 k) := by
  after_results
  show shapeCast S1x128 (W (Proc.devRef .tc main_arg17)) shapeCasts_S128_S1x128 (ix2 0 k) = _
  exact rowReshape_apply _ _ k

/-! ## Between regions 0 and 1 -/

set_option maxHeartbeats 4000000 in
/-- The summed neighbour features of layer 1's output, when region 0's array holds that output and the edge endpoints
    are still in place. -/
theorem glue1_v32 (W : Valuation τ sig (Elt Ideal))
    (a0 : (⟨Cert.ReferenceIdeal.S100000x64, .f32⟩ : BufTy).Contents (Elt Ideal))
    (a1 : (⟨Cert.ReferenceIdeal.S2x1600000, .i32⟩ : BufTy).Contents (Elt Ideal))
    (a4 : (⟨Cert.ReferenceIdeal.S64x128, .f32⟩ : BufTy).Contents (Elt Ideal))
    (a5 : (⟨Cert.ReferenceIdeal.S128, .f32⟩ : BufTy).Contents (Elt Ideal))
    (a6 : (⟨Cert.ReferenceIdeal.S128x128, .f32⟩ : BufTy).Contents (Elt Ideal))
    (a7 a16 a17 : (⟨Cert.ReferenceIdeal.S128, .f32⟩ : BufTy).Contents (Elt Ideal))
    (h : W (Proc.devRef .tc main_v22) = Cert.ReferenceIdeal.Read.val_main_v34 (F := Ideal) a0 a1 a4 a5 a6 a7 a16 a17)
    (h1 : W (Proc.devRef .tc main_v1) = Cert.ReferenceIdeal.Read.val_main_v1 (F := Ideal) a1) (h3 : W (Proc.devRef .tc main_v3) = Cert.ReferenceIdeal.Read.val_main_v3 (F := Ideal) a1) :
    StableHlo.after (hostOps1 (F := Ideal)) W (Proc.devRef .tc main_v32)
      = Cert.ReferenceIdeal.Read.val_main_v44 (F := Ideal) a0 a1 a4 a5 a6 a7 a16 a17 := by
  after_results_simp
  rw [h, h1, h3]
  rfl

/-- Layer 2's first bias as one row. -/
theorem glue1_v37 (W : Valuation τ sig (Elt Ideal)) (k : Fin 128) :
    StableHlo.after (hostOps1 (F := Ideal)) W (Proc.devRef .tc main_v37) (ix2 0 k) = W (Proc.devRef .tc main_arg9) (ix1 k) := by
  after_results
  show shapeCast S1x128 (W (Proc.devRef .tc main_arg9)) shapeCasts_S128_S1x128 (ix2 0 k) = _
  exact rowReshape_apply _ _ k

/-- Layer 2's second bias as one row. -/
theorem glue1_v38 (W : Valuation τ sig (Elt Ideal)) (k : Fin 128) :
    StableHlo.after (hostOps1 (F := Ideal)) W (Proc.devRef .tc main_v38) (ix2 0 k) = W (Proc.devRef .tc main_arg11) (ix1 k) := by
  after_results
  show shapeCast S1x128 (W (Proc.devRef .tc main_arg11)) shapeCasts_S128_S1x128 (ix2 0 k) = _
  exact rowReshape_apply _ _ k

/-- Layer 2's scale as one row: the given scale over the square root of the constant. -/
theorem glue1_v39 (W : Valuation τ sig (Elt Ideal)) (j : Fin 128) :
    StableHlo.after (hostOps1 (F := Ideal)) W (Proc.devRef .tc main_v39) (ix2 0 j)
      = Cert.ReferenceIdeal.Read.val_main_v58 (F := Ideal) (W (Proc.devRef .tc main_arg18)) (ix1 j) := by
  after_results
  show shapeCast S1x128 (Host.divf (W (Proc.devRef .tc main_arg18)) (broadcastInDim S128 ![] bcast_S_S128
    (id (Host.sqrt (constant (F := Ideal) S_ .f32 0x3F800054#32))))) shapeCasts_S128_S1x128 (ix2 0 j) = _
  rw [rowReshape_apply _ _ j]
  rfl

/-- Layer 2's shift as one row. -/
theorem glue1_v40 (W : Valuation τ sig (Elt Ideal)) (k : Fin 128) :
    StableHlo.after (hostOps1 (F := Ideal)) W (Proc.devRef .tc main_v40) (ix2 0 k) = W (Proc.devRef .tc main_arg19) (ix1 k) := by
  after_results
  show shapeCast S1x128 (W (Proc.devRef .tc main_arg19)) shapeCasts_S128_S1x128 (ix2 0 k) = _
  exact rowReshape_apply _ _ k

/-! ## Between regions 1 and 2 -/

set_option maxHeartbeats 4000000 in
/-- The summed neighbour features of layer 2's output, when region 1's array holds that output and the edge endpoints
    are still in place. -/
theorem glue2_v51 (W : Valuation τ sig (Elt Ideal))
    (a0 : (⟨Cert.ReferenceIdeal.S100000x64, .f32⟩ : BufTy).Contents (Elt Ideal))
    (a1 : (⟨Cert.ReferenceIdeal.S2x1600000, .i32⟩ : BufTy).Contents (Elt Ideal))
    (a4 : (⟨Cert.ReferenceIdeal.S64x128, .f32⟩ : BufTy).Contents (Elt Ideal))
    (a5 : (⟨Cert.ReferenceIdeal.S128, .f32⟩ : BufTy).Contents (Elt Ideal))
    (a6 : (⟨Cert.ReferenceIdeal.S128x128, .f32⟩ : BufTy).Contents (Elt Ideal))
    (a7 : (⟨Cert.ReferenceIdeal.S128, .f32⟩ : BufTy).Contents (Elt Ideal))
    (a8 : (⟨Cert.ReferenceIdeal.S128x128, .f32⟩ : BufTy).Contents (Elt Ideal))
    (a9 : (⟨Cert.ReferenceIdeal.S128, .f32⟩ : BufTy).Contents (Elt Ideal))
    (a10 : (⟨Cert.ReferenceIdeal.S128x128, .f32⟩ : BufTy).Contents (Elt Ideal))
    (a11 a16 a17 a18 a19 : (⟨Cert.ReferenceIdeal.S128, .f32⟩ : BufTy).Contents (Elt Ideal))
    (h : W (Proc.devRef .tc main_v41) = Cert.ReferenceIdeal.Read.val_main_v65 (F := Ideal) a0 a1 a4 a5 a6 a7 a8 a9 a10 a11 a16 a17 a18 a19)
    (h1 : W (Proc.devRef .tc main_v1) = Cert.ReferenceIdeal.Read.val_main_v1 (F := Ideal) a1) (h3 : W (Proc.devRef .tc main_v3) = Cert.ReferenceIdeal.Read.val_main_v3 (F := Ideal) a1) :
    StableHlo.after (hostOps2 (F := Ideal)) W (Proc.devRef .tc main_v51)
      = Cert.ReferenceIdeal.Read.val_main_v75 (F := Ideal) a0 a1 a4 a5 a6 a7 a8 a9 a10 a11 a16 a17 a18 a19 := by
  after_results_simp
  rw [h, h1, h3]
  rfl

/-- Layer 3's first bias as one row. -/
theorem glue2_v56 (W : Valuation τ sig (Elt Ideal)) (k : Fin 256) :
    StableHlo.after (hostOps2 (F := Ideal)) W (Proc.devRef .tc main_v56) (ix2 0 k) = W (Proc.devRef .tc main_arg13) (ix1 k) := by
  after_results
  show shapeCast S1x256 (W (Proc.devRef .tc main_arg13)) shapeCasts_S256_S1x256 (ix2 0 k) = _
  exact rowReshape_apply _ _ k

/-- Layer 3's second bias as one row. -/
theorem glue2_v57 (W : Valuation τ sig (Elt Ideal)) (k : Fin 256) :
    StableHlo.after (hostOps2 (F := Ideal)) W (Proc.devRef .tc main_v57) (ix2 0 k) = W (Proc.devRef .tc main_arg15) (ix1 k) := by
  after_results
  show shapeCast S1x256 (W (Proc.devRef .tc main_arg15)) shapeCasts_S256_S1x256 (ix2 0 k) = _
  exact rowReshape_apply _ _ k

/-- Layer 3's scale as one row: the given scale over the square root of the constant. -/
theorem glue2_v58 (W : Valuation τ sig (Elt Ideal)) (j : Fin 256) :
    StableHlo.after (hostOps2 (F := Ideal)) W (Proc.devRef .tc main_v58) (ix2 0 j)
      = Cert.ReferenceIdeal.Read.val_main_v89 (F := Ideal) (W (Proc.devRef .tc main_arg20)) (ix1 j) := by
  after_results
  show shapeCast S1x256 (Host.divf (W (Proc.devRef .tc main_arg20)) (broadcastInDim S256 ![] bcast_S_S256
    (id (Host.sqrt (constant (F := Ideal) S_ .f32 0x3F800054#32))))) shapeCasts_S256_S1x256 (ix2 0 j) = _
  rw [rowReshape_apply _ _ j]
  rfl

/-- Layer 3's shift as one row. -/
theorem glue2_v59 (W : Valuation τ sig (Elt Ideal)) (k : Fin 256) :
    StableHlo.after (hostOps2 (F := Ideal)) W (Proc.devRef .tc main_v59) (ix2 0 k) = W (Proc.devRef .tc main_arg21) (ix1 k) := by
  after_results
  show shapeCast S1x256 (W (Proc.devRef .tc main_arg21)) shapeCasts_S256_S1x256 (ix2 0 k) = _
  exact rowReshape_apply _ _ k

/-! ## Between regions 2 and 3 -/

/-- The readout's first weight matrix, its float format changed: the matrix itself. -/
theorem glue3_v76 (W : Valuation τ sig (Elt Ideal)) (k : Fin 6656) (j : Fin 3328) :
    StableHlo.after (hostOps3 (F := Ideal)) W (Proc.devRef .tc main_v76) (ix2 k j) = W (Proc.devRef .tc main_arg22) (ix2 k j) := by
  after_results
  rfl

/-- The readout's last weight matrix, its float format changed: the matrix itself. -/
theorem glue3_v77 (W : Valuation τ sig (Elt Ideal)) (j : Fin 3328) (n : Fin 128) :
    StableHlo.after (hostOps3 (F := Ideal)) W (Proc.devRef .tc main_v77) (ix2 j n) = W (Proc.devRef .tc main_arg26) (ix2 j n) := by
  after_results
  rfl

/-- The readout's first bias as one row. -/
theorem glue3_v78 (W : Valuation τ sig (Elt Ideal)) (k : Fin 3328) :
    StableHlo.after (hostOps3 (F := Ideal)) W (Proc.devRef .tc main_v78) (ix2 0 k) = W (Proc.devRef .tc main_arg23) (ix1 k) := by
  after_results
  show shapeCast S1x3328 (W (Proc.devRef .tc main_arg23)) shapeCasts_S3328_S1x3328 (ix2 0 k) = _
  exact rowReshape_apply _ _ k

/-- The readout's scale as one row: the given scale over the square root of the constant. -/
theorem glue3_v79 (W : Valuation τ sig (Elt Ideal)) (j : Fin 3328) :
    StableHlo.after (hostOps3 (F := Ideal)) W (Proc.devRef .tc main_v79) (ix2 0 j)
      = Cert.ReferenceIdeal.Read.val_main_v114 (F := Ideal) (W (Proc.devRef .tc main_arg24)) (ix1 j) := by
  after_results
  show shapeCast S1x3328 (Host.divf (W (Proc.devRef .tc main_arg24)) (broadcastInDim S3328 ![] bcast_S_S3328
    (id (Host.sqrt (constant (F := Ideal) S_ .f32 0x3F800054#32))))) shapeCasts_S3328_S1x3328 (ix2 0 j) = _
  rw [rowReshape_apply _ _ j]
  rfl

/-- The readout's shift as one row. -/
theorem glue3_v80 (W : Valuation τ sig (Elt Ideal)) (k : Fin 3328) :
    StableHlo.after (hostOps3 (F := Ideal)) W (Proc.devRef .tc main_v80) (ix2 0 k) = W (Proc.devRef .tc main_arg25) (ix1 k) := by
  after_results
  show shapeCast S1x3328 (W (Proc.devRef .tc main_arg25)) shapeCasts_S3328_S1x3328 (ix2 0 k) = _
  exact rowReshape_apply _ _ k

/-- The readout's last bias as one row. -/
theorem glue3_v81 (W : Valuation τ sig (Elt Ideal)) (k : Fin 128) :
    StableHlo.after (hostOps3 (F := Ideal)) W (Proc.devRef .tc main_v81) (ix2 0 k) = W (Proc.devRef .tc main_arg27) (ix1 k) := by
  after_results
  show shapeCast S1x128 (W (Proc.devRef .tc main_arg27)) shapeCasts_S128_S1x128 (ix2 0 k) = _
  exact rowReshape_apply _ _ k

end Cert.KernelIdeal.Gen

end
-- ==== Proof.HostGlueCat.lean ====
/-
  The pooled features that enter the readout, read at the ideal instance: each layer's output is summed over the nodes
  of each graph (a scatter-add into zeros at the nodes' graph numbers), the three sums and the given graph features are
  joined along the feature axis, and the join's float format is changed, which is the identity. When the three regions'
  arrays hold the reference's three layer outputs, this is the reference's pooled array, entry by entry.
-/
import proofs.«104188_j20804821582443_1_alg».proof.Proof.Gen.KernelIdeal.Launch
import proofs.«104188_j20804821582443_1_alg».proof.Proof.Gen.ReferenceIdeal.Read
import Idealize.ShloMosaic.Lib.StableHlo.Run
import Idealize.ShloMosaic.Lib.ValueIdx

set_option maxRecDepth 16384

noncomputable section

namespace Cert.KernelIdeal.Gen

open Idealize.ShloMosaic Idealize.ShloMosaic.TcCoe Idealize.ShloMosaic.ValueIdx

open Idealize.ShloMosaic.StableHlo in
set_option maxHeartbeats 4000000 in
/-- The pooled features: the three layers' outputs summed over each graph's nodes, joined with the given graph
    features along the feature axis; the change of float format after the join is the identity. -/
theorem glue3_v75 (W : Valuation τ sig (Elt Ideal))
    (a0 : (⟨Cert.ReferenceIdeal.S100000x64, .f32⟩ : BufTy).Contents (Elt Ideal))
    (a1 : (⟨Cert.ReferenceIdeal.S2x1600000, .i32⟩ : BufTy).Contents (Elt Ideal))
    (a2 : (⟨Cert.ReferenceIdeal.S100000, .i32⟩ : BufTy).Contents (Elt Ideal))
    (a3 : (⟨Cert.ReferenceIdeal.S512x6144, .f32⟩ : BufTy).Contents (Elt Ideal))
    (a4 : (⟨Cert.ReferenceIdeal.S64x128, .f32⟩ : BufTy).Contents (Elt Ideal))
    (a5 : (⟨Cert.ReferenceIdeal.S128, .f32⟩ : BufTy).Contents (Elt Ideal))
    (a6 : (⟨Cert.ReferenceIdeal.S128x128, .f32⟩ : BufTy).Contents (Elt Ideal))
    (a7 : (⟨Cert.ReferenceIdeal.S128, .f32⟩ : BufTy).Contents (Elt Ideal))
    (a8 : (⟨Cert.ReferenceIdeal.S128x128, .f32⟩ : BufTy).Contents (Elt Ideal))
    (a9 : (⟨Cert.ReferenceIdeal.S128, .f32⟩ : BufTy).Contents (Elt Ideal))
    (a10 : (⟨Cert.ReferenceIdeal.S128x128, .f32⟩ : BufTy).Contents (Elt Ideal))
    (a11 : (⟨Cert.ReferenceIdeal.S128, .f32⟩ : BufTy).Contents (Elt Ideal))
    (a12 : (⟨Cert.ReferenceIdeal.S128x256, .f32⟩ : BufTy).Contents (Elt Ideal))
    (a13 : (⟨Cert.ReferenceIdeal.S256, .f32⟩ : BufTy).Contents (Elt Ideal))
    (a14 : (⟨Cert.ReferenceIdeal.S256x256, .f32⟩ : BufTy).Contents (Elt Ideal))
    (a15 : (⟨Cert.ReferenceIdeal.S256, .f32⟩ : BufTy).Contents (Elt Ideal))
    (a16 a17 a18 a19 : (⟨Cert.ReferenceIdeal.S128, .f32⟩ : BufTy).Contents (Elt Ideal))
    (a20 a21 : (⟨Cert.ReferenceIdeal.S256, .f32⟩ : BufTy).Contents (Elt Ideal))
    (h22 : W (Proc.devRef .tc main_v22) = Cert.ReferenceIdeal.Read.val_main_v34 (F := Ideal) a0 a1 a4 a5 a6 a7 a16 a17)
    (h41 : W (Proc.devRef .tc main_v41)
      = Cert.ReferenceIdeal.Read.val_main_v65 (F := Ideal)
          a0 a1 a4 a5 a6 a7 a8 a9 a10 a11 a16 a17 a18 a19)
    (h60 : W (Proc.devRef .tc main_v60)
      = Cert.ReferenceIdeal.Read.val_main_v96 (F := Ideal)
          a0 a1 a4 a5 a6 a7 a8 a9 a10 a11 a12 a13 a14 a15 a16 a17 a18 a19 a20 a21)
    (h2 : W (Proc.devRef .tc main_arg2) = a2) (h3 : W (Proc.devRef .tc main_arg3) = a3) (a : Fin 512) (k : Fin 6656) :
    StableHlo.after (hostOps3 (F := Ideal)) W (Proc.devRef .tc main_v75) (ix2 a k)
      = Cert.ReferenceIdeal.Read.val_main_v106 (F := Ideal)
          a0 a1 a2 a3 a4 a5 a6 a7 a8 a9 a10 a11 a12 a13 a14 a15 a16 a17 a18 a19 a20 a21 (ix2 a k) := by
  simp only [after_cons, after_nil]
  -- the operations after the format change do not write its buffer; the format change reads the join
  repeat (first
    | (rw [unary_result_ne]; rotate_left; decide)
    | (rw [reshape_result_ne]; rotate_left; decide))
  rw [unary_result]
  -- the operations between the join and the format change do not write the join's buffer
  repeat (first
    | (rw [unary_result_ne]; rotate_left; decide)
    | (rw [binary_result_ne]; rotate_left; decide)
    | (rw [nullary_result_ne]; rotate_left; decide))
  -- the join of four operands, each read at its own buffer
  rw [nary4_result]
  -- the four operands: three scatter-adds into zeros, and an argument
  repeat (first
    | rw [nullary_result] | rw [unary_result] | rw [ternary_result]
    | (rw [nullary_result_ne]; rotate_left; decide)
    | (rw [unary_result_ne]; rotate_left; decide)
    | (rw [ternary_result_ne]; rotate_left; decide))
  rw [h22, h41, h60, h2, h3]
  rfl

end Cert.KernelIdeal.Gen

end
-- ==== Proof.RefLayers.lean ====
/-
  The reference program, entry by entry. Each of its three layers, and its readout, is the specification's formula of
  the arrays it reads: the sum of a node's features and its summed neighbour features goes through a linear map with
  bias, is clamped below at zero, goes through a second linear map with bias, is scaled and shifted per output feature,
  and is clamped again; the readout is a linear map with bias, a scale and shift, a clamp, and a last linear map with
  bias. A contraction is read as the sum over its one contracted coordinate of the products of the operands' entries;
  a row vector broadcast over the rows is read at its column; the clamp's zero is the number 0. Nothing is
  reassociated: both sides are the same sums in the same order, so the equalities hold by unfolding.
-/
import proofs.«104188_j20804821582443_1_alg».proof.Proof.Gen.ReferenceIdeal.Read
import proofs.«104188_j20804821582443_1_alg».proof.Proof.LayerSpec

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-! ## Layer 1 -/

/-- The hidden activation of layer 1 at node `r`, hidden feature `k`. -/
theorem hidden1 (x0 : (⟨S100000x64, .f32⟩ : BufTy).Contents (Elt Ideal))
    (x1 : (⟨S2x1600000, .i32⟩ : BufTy).Contents (Elt Ideal)) (x4 : (⟨S64x128, .f32⟩ : BufTy).Contents (Elt Ideal))
    (x5 : (⟨S128, .f32⟩ : BufTy).Contents (Elt Ideal))
    (r : Fin 100000) (k : Fin 128) :
    val_main_v19 (F := Ideal) x0 x1 x4 x5 (ix2 r k)
      = max (((∑ i : Fin 64, (x0 (ix2 r i) + val_main_v13 (F := Ideal) x0 x1 (ix2 r i)) * x4 (ix2 i k)) + x5 (ix1 k) : EReal)) 0 := by
  rw [val_main_v19_apply, val_main_v18_apply, val_main_v15_apply, val_main_v17_apply, val_main_v16_apply,
    val_main_call0_v0_apply, val_main_call0_cst_apply]
  have e1 : ∀ i : Fin 64, lidx_main_v15 (ix2 r k) i = ix2 r i := fun i =>
    funext fun a => Fin.ext (by match a with | ⟨0, _⟩ => rfl | ⟨1, _⟩ => rfl)
  have e2 : ∀ i : Fin 64, ridx_main_v15 (ix2 r k) i = ix2 i k := fun i =>
    funext fun a => Fin.ext (by match a with | ⟨0, _⟩ => rfl | ⟨1, _⟩ => rfl)
  have e3 : idx_main_v16 (idx_main_v17 (ix2 r k)) = ix1 k :=
    funext fun a => Fin.ext (by match a with | ⟨0, _⟩ => rfl)
  simp only [e1, e2, e3, val_main_v14_apply, Ideal.maximumf_def, Ideal.addf_def, Ideal.ofBits_def, Ideal.ofBits_zero_f32]

/-- Layer 1 of the reference is the specification's layer of its input features and their summed neighbours. -/
theorem layer1_eq (x0 : (⟨S100000x64, .f32⟩ : BufTy).Contents (Elt Ideal))
    (x1 : (⟨S2x1600000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 x16 x17 : (⟨S128, .f32⟩ : BufTy).Contents (Elt Ideal))
    (r : Fin 100000) (j : Fin 128) :
    val_main_v34 (F := Ideal) x0 x1 x4 x5 x6 x7 x16 x17 (ix2 r j)
      = Cert.Spec.layer (fun r i => x0 (ix2 r i)) (fun r i => val_main_v13 (F := Ideal) x0 x1 (ix2 r i))
          (fun i k => x4 (ix2 i k)) (fun k => x5 (ix1 k)) (fun k j => x6 (ix2 k j)) (fun j => x7 (ix1 j))
          (fun j => val_main_v27 (F := Ideal) x16 (ix1 j)) (fun j => x17 (ix1 j)) r j := by
  rw [val_main_v34_apply, val_main_v33_apply, val_main_v30_apply, val_main_v23_apply, val_main_v20_apply,
    val_main_v22_apply, val_main_v21_apply, val_main_v29_apply, val_main_v28_apply, val_main_v32_apply, val_main_v31_apply,
    val_main_call1_v0_apply, val_main_call1_cst_apply]
  have e1 : ∀ k : Fin 128, lidx_main_v20 (ix2 r j) k = ix2 r k := fun k =>
    funext fun a => Fin.ext (by match a with | ⟨0, _⟩ => rfl | ⟨1, _⟩ => rfl)
  have e2 : ∀ k : Fin 128, ridx_main_v20 (ix2 r j) k = ix2 k j := fun k =>
    funext fun a => Fin.ext (by match a with | ⟨0, _⟩ => rfl | ⟨1, _⟩ => rfl)
  have e3 : idx_main_v21 (idx_main_v22 (ix2 r j)) = ix1 j :=
    funext fun a => Fin.ext (by match a with | ⟨0, _⟩ => rfl)
  have e4 : idx_main_v28 (idx_main_v29 (ix2 r j)) = ix1 j :=
    funext fun a => Fin.ext (by match a with | ⟨0, _⟩ => rfl)
  have e5 : idx_main_v31 (idx_main_v32 (ix2 r j)) = ix1 j :=
    funext fun a => Fin.ext (by match a with | ⟨0, _⟩ => rfl)
  simp only [e1, e2, e3, e4, e5, hidden1, Ideal.maximumf_def, Ideal.addf_def, Ideal.mulf_def, Ideal.ofBits_def,
    Ideal.ofBits_zero_f32]
  unfold Cert.Spec.layer Cert.Spec.relu
  rfl

/-! ## Layer 2 -/

/-- The hidden activation of layer 2 at node `r`, hidden feature `k`. -/
theorem hidden2 (x0 : (⟨S100000x64, .f32⟩ : BufTy).Contents (Elt Ideal))
    (x1 : (⟨S2x1600000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 x16 x17 : (⟨S128, .f32⟩ : BufTy).Contents (Elt Ideal))
    (r : Fin 100000) (k : Fin 128) :
    val_main_v50 (F := Ideal) x0 x1 x4 x5 x6 x7 x8 x9 x16 x17 (ix2 r k)
      = max (((∑ i : Fin 128, (val_main_v34 (F := Ideal) x0 x1 x4 x5 x6 x7 x16 x17 (ix2 r i)
            + val_main_v44 (F := Ideal) x0 x1 x4 x5 x6 x7 x16 x17 (ix2 r i)) * x8 (ix2 i k)) + x9 (ix1 k) : EReal)) 0 := by
  rw [val_main_v50_apply, val_main_v49_apply, val_main_v46_apply, val_main_v48_apply, val_main_v47_apply,
    val_main_call2_v0_apply, val_main_call2_cst_apply]
  have e1 : ∀ i : Fin 128, lidx_main_v46 (ix2 r k) i = ix2 r i := fun i =>
    funext fun a => Fin.ext (by match a with | ⟨0, _⟩ => rfl | ⟨1, _⟩ => rfl)
  have e2 : ∀ i : Fin 128, ridx_main_v46 (ix2 r k) i = ix2 i k := fun i =>
    funext fun a => Fin.ext (by match a with | ⟨0, _⟩ => rfl | ⟨1, _⟩ => rfl)
  have e3 : idx_main_v47 (idx_main_v48 (ix2 r k)) = ix1 k :=
    funext fun a => Fin.ext (by match a with | ⟨0, _⟩ => rfl)
  simp only [e1, e2, e3, val_main_v45_apply, Ideal.maximumf_def, Ideal.addf_def, Ideal.ofBits_def, Ideal.ofBits_zero_f32]

/-- Layer 2 of the reference is the specification's layer of its input features and their summed neighbours. -/
theorem layer2_eq (x0 : (⟨S100000x64, .f32⟩ : BufTy).Contents (Elt Ideal))
    (x1 : (⟨S2x1600000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 x16 x17 x18 x19 : (⟨S128, .f32⟩ : BufTy).Contents (Elt Ideal))
    (r : Fin 100000) (j : Fin 128) :
    val_main_v65 (F := Ideal) x0 x1 x4 x5 x6 x7 x8 x9 x10 x11 x16 x17 x18 x19 (ix2 r j)
      = Cert.Spec.layer (fun r i => val_main_v34 (F := Ideal) x0 x1 x4 x5 x6 x7 x16 x17 (ix2 r i))
          (fun r i => val_main_v44 (F := Ideal) x0 x1 x4 x5 x6 x7 x16 x17 (ix2 r i))
          (fun i k => x8 (ix2 i k)) (fun k => x9 (ix1 k)) (fun k j => x10 (ix2 k j)) (fun j => x11 (ix1 j))
          (fun j => val_main_v58 (F := Ideal) x18 (ix1 j)) (fun j => x19 (ix1 j)) r j := by
  rw [val_main_v65_apply, val_main_v64_apply, val_main_v61_apply, val_main_v54_apply, val_main_v51_apply,
    val_main_v53_apply, val_main_v52_apply, val_main_v60_apply, val_main_v59_apply, val_main_v63_apply, val_main_v62_apply,
    val_main_call3_v0_apply, val_main_call3_cst_apply]
  have e1 : ∀ k : Fin 128, lidx_main_v51 (ix2 r j) k = ix2 r k := fun k =>
    funext fun a => Fin.ext (by match a with | ⟨0, _⟩ => rfl | ⟨1, _⟩ => rfl)
  have e2 : ∀ k : Fin 128, ridx_main_v51 (ix2 r j) k = ix2 k j := fun k =>
    funext fun a => Fin.ext (by match a with | ⟨0, _⟩ => rfl | ⟨1, _⟩ => rfl)
  have e3 : idx_main_v52 (idx_main_v53 (ix2 r j)) = ix1 j :=
    funext fun a => Fin.ext (by match a with | ⟨0, _⟩ => rfl)
  have e4 : idx_main_v59 (idx_main_v60 (ix2 r j)) = ix1 j :=
    funext fun a => Fin.ext (by match a with | ⟨0, _⟩ => rfl)
  have e5 : idx_main_v62 (idx_main_v63 (ix2 r j)) = ix1 j :=
    funext fun a => Fin.ext (by match a with | ⟨0, _⟩ => rfl)
  simp only [e1, e2, e3, e4, e5, hidden2, Ideal.maximumf_def, Ideal.addf_def, Ideal.mulf_def, Ideal.ofBits_def,
    Ideal.ofBits_zero_f32]
  unfold Cert.Spec.layer Cert.Spec.relu
  rfl

/-! ## Layer 3 -/

/-- The hidden activation of layer 3 at node `r`, hidden feature `k`. -/
theorem hidden3 (x0 : (⟨S100000x64, .f32⟩ : BufTy).Contents (Elt Ideal))
    (x1 : (⟨S2x1600000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (x12 : (⟨S128x256, .f32⟩ : BufTy).Contents (Elt Ideal))
    (x13 : (⟨S256, .f32⟩ : BufTy).Contents (Elt Ideal))
    (x16 x17 x18 x19 : (⟨S128, .f32⟩ : BufTy).Contents (Elt Ideal))
    (r : Fin 100000) (k : Fin 256) :
    val_main_v81 (F := Ideal) x0 x1 x4 x5 x6 x7 x8 x9 x10 x11 x12 x13 x16 x17 x18 x19 (ix2 r k)
      = max (((∑ i : Fin 128, (val_main_v65 (F := Ideal) x0 x1 x4 x5 x6 x7 x8 x9 x10 x11 x16 x17 x18 x19 (ix2 r i)
            + val_main_v75 (F := Ideal) x0 x1 x4 x5 x6 x7 x8 x9 x10 x11 x16 x17 x18 x19 (ix2 r i)) * x12 (ix2 i k)) + x13 (ix1 k) : EReal)) 0 := by
  rw [val_main_v81_apply, val_main_v80_apply, val_main_v77_apply, val_main_v79_apply, val_main_v78_apply,
    val_main_call4_v0_apply, val_main_call4_cst_apply]
  have e1 : ∀ i : Fin 128, lidx_main_v77 (ix2 r k) i = ix2 r i := fun i =>
    funext fun a => Fin.ext (by match a with | ⟨0, _⟩ => rfl | ⟨1, _⟩ => rfl)
  have e2 : ∀ i : Fin 128, ridx_main_v77 (ix2 r k) i = ix2 i k := fun i =>
    funext fun a => Fin.ext (by match a with | ⟨0, _⟩ => rfl | ⟨1, _⟩ => rfl)
  have e3 : idx_main_v78 (idx_main_v79 (ix2 r k)) = ix1 k :=
    funext fun a => Fin.ext (by match a with | ⟨0, _⟩ => rfl)
  simp only [e1, e2, e3, val_main_v76_apply, Ideal.maximumf_def, Ideal.addf_def, Ideal.ofBits_def, Ideal.ofBits_zero_f32]

/-- Layer 3 of the reference is the specification's layer of its input features and their summed neighbours. -/
theorem layer3_eq (x0 : (⟨S100000x64, .f32⟩ : BufTy).Contents (Elt Ideal))
    (x1 : (⟨S2x1600000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (x12 : (⟨S128x256, .f32⟩ : BufTy).Contents (Elt Ideal))
    (x13 : (⟨S256, .f32⟩ : BufTy).Contents (Elt Ideal)) (x14 : (⟨S256x256, .f32⟩ : BufTy).Contents (Elt Ideal))
    (x15 : (⟨S256, .f32⟩ : BufTy).Contents (Elt Ideal))
    (x16 x17 x18 x19 : (⟨S128, .f32⟩ : BufTy).Contents (Elt Ideal))
    (x20 x21 : (⟨S256, .f32⟩ : BufTy).Contents (Elt Ideal))
    (r : Fin 100000) (j : Fin 256) :
    val_main_v96 (F := Ideal) x0 x1 x4 x5 x6 x7 x8 x9 x10 x11 x12 x13 x14 x15 x16 x17 x18 x19 x20 x21 (ix2 r j)
      = Cert.Spec.layer (fun r i => val_main_v65 (F := Ideal) x0 x1 x4 x5 x6 x7 x8 x9 x10 x11 x16 x17 x18 x19 (ix2 r i))
          (fun r i => val_main_v75 (F := Ideal) x0 x1 x4 x5 x6 x7 x8 x9 x10 x11 x16 x17 x18 x19 (ix2 r i))
          (fun i k => x12 (ix2 i k)) (fun k => x13 (ix1 k)) (fun k j => x14 (ix2 k j)) (fun j => x15 (ix1 j))
          (fun j => val_main_v89 (F := Ideal) x20 (ix1 j)) (fun j => x21 (ix1 j)) r j := by
  rw [val_main_v96_apply, val_main_v95_apply, val_main_v92_apply, val_main_v85_apply, val_main_v82_apply,
    val_main_v84_apply, val_main_v83_apply, val_main_v91_apply, val_main_v90_apply, val_main_v94_apply, val_main_v93_apply,
    val_main_call5_v0_apply, val_main_call5_cst_apply]
  have e1 : ∀ k : Fin 256, lidx_main_v82 (ix2 r j) k = ix2 r k := fun k =>
    funext fun a => Fin.ext (by match a with | ⟨0, _⟩ => rfl | ⟨1, _⟩ => rfl)
  have e2 : ∀ k : Fin 256, ridx_main_v82 (ix2 r j) k = ix2 k j := fun k =>
    funext fun a => Fin.ext (by match a with | ⟨0, _⟩ => rfl | ⟨1, _⟩ => rfl)
  have e3 : idx_main_v83 (idx_main_v84 (ix2 r j)) = ix1 j :=
    funext fun a => Fin.ext (by match a with | ⟨0, _⟩ => rfl)
  have e4 : idx_main_v90 (idx_main_v91 (ix2 r j)) = ix1 j :=
    funext fun a => Fin.ext (by match a with | ⟨0, _⟩ => rfl)
  have e5 : idx_main_v93 (idx_main_v94 (ix2 r j)) = ix1 j :=
    funext fun a => Fin.ext (by match a with | ⟨0, _⟩ => rfl)
  simp only [e1, e2, e3, e4, e5, hidden3, Ideal.maximumf_def, Ideal.addf_def, Ideal.mulf_def, Ideal.ofBits_def,
    Ideal.ofBits_zero_f32]
  unfold Cert.Spec.layer Cert.Spec.relu
  rfl

/-! ## The readout -/

/-- The hidden activation of the readout at graph `a`, hidden feature `j`. -/
theorem hiddenR (x0 : (⟨S100000x64, .f32⟩ : BufTy).Contents (Elt Ideal))
    (x1 : (⟨S2x1600000, .i32⟩ : BufTy).Contents (Elt Ideal)) (x2 : (⟨S100000, .i32⟩ : BufTy).Contents (Elt Ideal))
    (x3 : (⟨S512x6144, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (x12 : (⟨S128x256, .f32⟩ : BufTy).Contents (Elt Ideal))
    (x13 : (⟨S256, .f32⟩ : BufTy).Contents (Elt Ideal)) (x14 : (⟨S256x256, .f32⟩ : BufTy).Contents (Elt Ideal))
    (x15 : (⟨S256, .f32⟩ : BufTy).Contents (Elt Ideal))
    (x16 x17 x18 x19 : (⟨S128, .f32⟩ : BufTy).Contents (Elt Ideal))
    (x20 x21 : (⟨S256, .f32⟩ : BufTy).Contents (Elt Ideal)) (x22 : (⟨S6656x3328, .f32⟩ : BufTy).Contents (Elt Ideal))
    (x23 x24 x25 : (⟨S3328, .f32⟩ : BufTy).Contents (Elt Ideal))
    (a : Fin 512) (j : Fin 3328) :
    val_main_v121 (F := Ideal) x0 x1 x2 x3 x4 x5 x6 x7 x8 x9 x10 x11 x12 x13 x14 x15 x16 x17 x18 x19 x20 x21 x22 x23 x24 x25 (ix2 a j)
      = max ((((∑ k : Fin 6656, val_main_v106 (F := Ideal) x0 x1 x2 x3 x4 x5 x6 x7 x8 x9 x10 x11 x12 x13 x14 x15 x16 x17 x18 x19 x20 x21 (ix2 a k)
            * x22 (ix2 k j)) + x23 (ix1 j)) * val_main_v114 (F := Ideal) x24 (ix1 j)
          + x25 (ix1 j) : EReal)) 0 := by
  rw [val_main_v121_apply, val_main_v120_apply, val_main_v117_apply, val_main_v110_apply, val_main_v107_apply,
    val_main_v109_apply, val_main_v108_apply, val_main_v116_apply, val_main_v115_apply, val_main_v119_apply, val_main_v118_apply,
    val_main_call6_v0_apply, val_main_call6_cst_apply]
  have e1 : ∀ k : Fin 6656, lidx_main_v107 (ix2 a j) k = ix2 a k := fun k =>
    funext fun a => Fin.ext (by match a with | ⟨0, _⟩ => rfl | ⟨1, _⟩ => rfl)
  have e2 : ∀ k : Fin 6656, ridx_main_v107 (ix2 a j) k = ix2 k j := fun k =>
    funext fun a => Fin.ext (by match a with | ⟨0, _⟩ => rfl | ⟨1, _⟩ => rfl)
  have e3 : idx_main_v108 (idx_main_v109 (ix2 a j)) = ix1 j :=
    funext fun a => Fin.ext (by match a with | ⟨0, _⟩ => rfl)
  have e4 : idx_main_v115 (idx_main_v116 (ix2 a j)) = ix1 j :=
    funext fun a => Fin.ext (by match a with | ⟨0, _⟩ => rfl)
  have e5 : idx_main_v118 (idx_main_v119 (ix2 a j)) = ix1 j :=
    funext fun a => Fin.ext (by match a with | ⟨0, _⟩ => rfl)
  simp only [e1, e2, e3, e4, e5, Ideal.maximumf_def, Ideal.addf_def, Ideal.mulf_def, Ideal.ofBits_def, Ideal.ofBits_zero_f32]

/-- The reference's readout is the specification's readout of the pooled features. -/
theorem readout_eq (x0 : (⟨S100000x64, .f32⟩ : BufTy).Contents (Elt Ideal))
    (x1 : (⟨S2x1600000, .i32⟩ : BufTy).Contents (Elt Ideal)) (x2 : (⟨S100000, .i32⟩ : BufTy).Contents (Elt Ideal))
    (x3 : (⟨S512x6144, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (x12 : (⟨S128x256, .f32⟩ : BufTy).Contents (Elt Ideal))
    (x13 : (⟨S256, .f32⟩ : BufTy).Contents (Elt Ideal)) (x14 : (⟨S256x256, .f32⟩ : BufTy).Contents (Elt Ideal))
    (x15 : (⟨S256, .f32⟩ : BufTy).Contents (Elt Ideal))
    (x16 x17 x18 x19 : (⟨S128, .f32⟩ : BufTy).Contents (Elt Ideal))
    (x20 x21 : (⟨S256, .f32⟩ : BufTy).Contents (Elt Ideal)) (x22 : (⟨S6656x3328, .f32⟩ : BufTy).Contents (Elt Ideal))
    (x23 x24 x25 : (⟨S3328, .f32⟩ : BufTy).Contents (Elt Ideal))
    (x26 : (⟨S3328x128, .f32⟩ : BufTy).Contents (Elt Ideal)) (x27 : (⟨S128, .f32⟩ : BufTy).Contents (Elt Ideal))
    (a : Fin 512) (c : Fin 128) :
    val_main_v125 (F := Ideal) x0 x1 x2 x3 x4 x5 x6 x7 x8 x9 x10 x11 x12 x13 x14 x15 x16 x17 x18 x19 x20 x21 x22 x23 x24 x25 x26 x27 (ix2 a c)
      = Cert.Spec.readout (fun a k => val_main_v106 (F := Ideal) x0 x1 x2 x3 x4 x5 x6 x7 x8 x9 x10 x11 x12 x13 x14 x15 x16 x17 x18 x19 x20 x21 (ix2 a k))
          (fun k j => x22 (ix2 k j)) (fun j => x23 (ix1 j))
          (fun j => val_main_v114 (F := Ideal) x24 (ix1 j)) (fun j => x25 (ix1 j)) (fun j n => x26 (ix2 j n)) (fun n => x27 (ix1 n)) a c := by
  rw [val_main_v125_apply, val_main_v122_apply, val_main_v124_apply, val_main_v123_apply]
  have e1 : ∀ j : Fin 3328, lidx_main_v122 (ix2 a c) j = ix2 a j := fun j =>
    funext fun a => Fin.ext (by match a with | ⟨0, _⟩ => rfl | ⟨1, _⟩ => rfl)
  have e2 : ∀ j : Fin 3328, ridx_main_v122 (ix2 a c) j = ix2 j c := fun j =>
    funext fun a => Fin.ext (by match a with | ⟨0, _⟩ => rfl | ⟨1, _⟩ => rfl)
  have e3 : idx_main_v123 (idx_main_v124 (ix2 a c)) = ix1 c :=
    funext fun a => Fin.ext (by match a with | ⟨0, _⟩ => rfl)
  simp only [e1, e2, e3, hiddenR, Ideal.addf_def]
  unfold Cert.Spec.readout Cert.Spec.relu
  rfl

end Cert.ReferenceIdeal.RefValue

end
-- ==== Proof.Bridge.lean ====
/- The kernel program's result as a function of its arguments, on the extended reals: each region's output array is the
   reference program's corresponding stage of the launch arrays.

   A region's output, entry by entry, is the specification's layer (readout) of the arrays the region is entered with;
   the reference's stage is the same formula of its own operands; and the operands agree one by one: an argument array
   is never written, so it is the launch array at every boundary; the summed neighbour features, the row vectors and the
   scales are what the stretch of host operations before the region computes from the arguments and from the earlier
   regions' outputs, which stay in their arrays until they are read. The specification's formulas depend only on the
   entries of their operands, so equal entries give equal results. -/
import proofs.«104188_j20804821582443_1_alg».proof.Proof.RunChain
import proofs.«104188_j20804821582443_1_alg».proof.Proof.ConvValue
import proofs.«104188_j20804821582443_1_alg».proof.Proof.FinalValue
import proofs.«104188_j20804821582443_1_alg».proof.Proof.HostGlue
import proofs.«104188_j20804821582443_1_alg».proof.Proof.HostGlueCat
import proofs.«104188_j20804821582443_1_alg».proof.Proof.RefLayers

set_option maxRecDepth 16384

noncomputable section

namespace Cert.KernelIdeal.Gen

open Idealize.ShloMosaic Idealize.ShloMosaic.TcCoe Idealize.ShloMosaic.ValueIdx
open Cert.ReferenceIdeal.Read (val_main_v1 val_main_v3 val_main_v13 val_main_v27 val_main_v34 val_main_v44 val_main_v58 val_main_v65 val_main_v75 val_main_v89 val_main_v96 val_main_v106 val_main_v114 val_main_v125)

/-! ## The specification's formulas depend only on the entries of their operands -/

theorem layer_congr {n fi fh fo : ℕ} {X X' A A' : Fin n → Fin fi → EReal} {W1 W1' : Fin fi → Fin fh → EReal} {b1 b1' : Fin fh → EReal}
    {W2 W2' : Fin fh → Fin fo → EReal} {b2 b2' s s' sh sh' : Fin fo → EReal}
    (hX : ∀ r i, X r i = X' r i) (hA : ∀ r i, A r i = A' r i) (hW1 : ∀ i k, W1 i k = W1' i k) (hb1 : ∀ k, b1 k = b1' k)
    (hW2 : ∀ k j, W2 k j = W2' k j) (hb2 : ∀ j, b2 j = b2' j) (hs : ∀ j, s j = s' j) (hsh : ∀ j, sh j = sh' j) (r : Fin n) (j : Fin fo) :
    Cert.Spec.layer X A W1 b1 W2 b2 s sh r j = Cert.Spec.layer X' A' W1' b1' W2' b2' s' sh' r j := by
  obtain rfl : X = X' := funext fun r => funext fun i => hX r i
  obtain rfl : A = A' := funext fun r => funext fun i => hA r i
  obtain rfl : W1 = W1' := funext fun i => funext fun k => hW1 i k
  obtain rfl : b1 = b1' := funext hb1
  obtain rfl : W2 = W2' := funext fun k => funext fun j => hW2 k j
  obtain rfl : b2 = b2' := funext hb2
  obtain rfl : s = s' := funext hs
  obtain rfl : sh = sh' := funext hsh
  rfl

theorem readout_congr {g kd h nc : ℕ} {Fe Fe' : Fin g → Fin kd → EReal} {W1 W1' : Fin kd → Fin h → EReal} {b1 b1' s s' sh sh' : Fin h → EReal}
    {W3 W3' : Fin h → Fin nc → EReal} {b3 b3' : Fin nc → EReal}
    (hFe : ∀ a k, Fe a k = Fe' a k) (hW1 : ∀ k j, W1 k j = W1' k j) (hb1 : ∀ j, b1 j = b1' j) (hs : ∀ j, s j = s' j)
    (hsh : ∀ j, sh j = sh' j) (hW3 : ∀ j n, W3 j n = W3' j n) (hb3 : ∀ n, b3 n = b3' n) (a : Fin g) (n : Fin nc) :
    Cert.Spec.readout Fe W1 b1 s sh W3 b3 a n = Cert.Spec.readout Fe' W1' b1' s' sh' W3' b3' a n := by
  obtain rfl : Fe = Fe' := funext fun a => funext fun k => hFe a k
  obtain rfl : W1 = W1' := funext fun k => funext fun j => hW1 k j
  obtain rfl : b1 = b1' := funext hb1
  obtain rfl : s = s' := funext hs
  obtain rfl : sh = sh' := funext hsh
  obtain rfl : W3 = W3' := funext fun j => funext fun n => hW3 j n
  obtain rfl : b3 = b3' := funext hb3
  rfl

section Bridge
variable (m : (ℓ : Loc nD τ sig) → Buf (Elt Ideal) ℓ) (c : Dev nD)

/-! ## What the stretches and the regions leave alone -/

/-- Buffer `r` holds at every boundary up to region 3's entry what it held at launch. -/
abbrev Kept (r : Ref sig .tc) : Prop :=
  A1 m c r = m ((c : Thread nD τ).loc r) ∧ A2 m c r = m ((c : Thread nD τ).loc r) ∧ A3 m c r = m ((c : Thread nD τ).loc r)
    ∧ A4 m c r = m ((c : Thread nD τ).loc r) ∧ A5 m c r = m ((c : Thread nD τ).loc r) ∧ A6 m c r = m ((c : Thread nD τ).loc r)
    ∧ A7 m c r = m ((c : Thread nD τ).loc r)

/-- So does a buffer that no stretch of host operations writes and that is no region's output array. -/
theorem chain_keep (r : Ref sig .tc) (h0 : r ∉ (hostOps0_W : List (Ref sig .tc))) (h1 : r ∉ (hostOps1_W : List (Ref sig .tc)))
    (h2 : r ∉ (hostOps2_W : List (Ref sig .tc))) (h3 : r ∉ (hostOps3_W : List (Ref sig .tc)))
    (n22 : r ≠ main_v22) (n41 : r ≠ main_v41) (n60 : r ≠ main_v60) : Kept m c r := by
  have e1 : A1 m c r = m ((c : Thread nD τ).loc r) := (StableHlo.after_of_writes_sub hostOps0 _ hostOps0_writes h0).trans rfl
  have e2 : A2 m c r = m ((c : Thread nD τ).loc r) := (A2_of m c r n22).trans e1
  have e3 : A3 m c r = m ((c : Thread nD τ).loc r) := (StableHlo.after_of_writes_sub hostOps1 _ hostOps1_writes h1).trans e2
  have e4 : A4 m c r = m ((c : Thread nD τ).loc r) := (A4_of m c r n41).trans e3
  have e5 : A5 m c r = m ((c : Thread nD τ).loc r) := (StableHlo.after_of_writes_sub hostOps2 _ hostOps2_writes h2).trans e4
  have e6 : A6 m c r = m ((c : Thread nD τ).loc r) := (A6_of m c r n60).trans e5
  have e7 : A7 m c r = m ((c : Thread nD τ).loc r) := (StableHlo.after_of_writes_sub hostOps3 _ hostOps3_writes h3).trans e6
  exact ⟨e1, e2, e3, e4, e5, e6, e7⟩

theorem keep_arg0 : Kept m c main_arg0 := chain_keep m c main_arg0 (by decide) (by decide) (by decide) (by decide) (by decide) (by decide) (by decide)
theorem keep_arg1 : Kept m c main_arg1 := chain_keep m c main_arg1 (by decide) (by decide) (by decide) (by decide) (by decide) (by decide) (by decide)
theorem keep_arg2 : Kept m c main_arg2 := chain_keep m c main_arg2 (by decide) (by decide) (by decide) (by decide) (by decide) (by decide) (by decide)
theorem keep_arg3 : Kept m c main_arg3 := chain_keep m c main_arg3 (by decide) (by decide) (by decide) (by decide) (by decide) (by decide) (by decide)
theorem keep_arg4 : Kept m c main_arg4 := chain_keep m c main_arg4 (by decide) (by decide) (by decide) (by decide) (by decide) (by decide) (by decide)
theorem keep_arg5 : Kept m c main_arg5 := chain_keep m c main_arg5 (by decide) (by decide) (by decide) (by decide) (by decide) (by decide) (by decide)
theorem keep_arg6 : Kept m c main_arg6 := chain_keep m c main_arg6 (by decide) (by decide) (by decide) (by decide) (by decide) (by decide) (by decide)
theorem keep_arg7 : Kept m c main_arg7 := chain_keep m c main_arg7 (by decide) (by decide) (by decide) (by decide) (by decide) (by decide) (by decide)
theorem keep_arg8 : Kept m c main_arg8 := chain_keep m c main_arg8 (by decide) (by decide) (by decide) (by decide) (by decide) (by decide) (by decide)
theorem keep_arg9 : Kept m c main_arg9 := chain_keep m c main_arg9 (by decide) (by decide) (by decide) (by decide) (by decide) (by decide) (by decide)
theorem keep_arg10 : Kept m c main_arg10 := chain_keep m c main_arg10 (by decide) (by decide) (by decide) (by decide) (by decide) (by decide) (by decide)
theorem keep_arg11 : Kept m c main_arg11 := chain_keep m c main_arg11 (by decide) (by decide) (by decide) (by decide) (by decide) (by decide) (by decide)
theorem keep_arg12 : Kept m c main_arg12 := chain_keep m c main_arg12 (by decide) (by decide) (by decide) (by decide) (by decide) (by decide) (by decide)
theorem keep_arg13 : Kept m c main_arg13 := chain_keep m c main_arg13 (by decide) (by decide) (by decide) (by decide) (by decide) (by decide) (by decide)
theorem keep_arg14 : Kept m c main_arg14 := chain_keep m c main_arg14 (by decide) (by decide) (by decide) (by decide) (by decide) (by decide) (by decide)
theorem keep_arg15 : Kept m c main_arg15 := chain_keep m c main_arg15 (by decide) (by decide) (by decide) (by decide) (by decide) (by decide) (by decide)
theorem keep_arg16 : Kept m c main_arg16 := chain_keep m c main_arg16 (by decide) (by decide) (by decide) (by decide) (by decide) (by decide) (by decide)
theorem keep_arg17 : Kept m c main_arg17 := chain_keep m c main_arg17 (by decide) (by decide) (by decide) (by decide) (by decide) (by decide) (by decide)
theorem keep_arg18 : Kept m c main_arg18 := chain_keep m c main_arg18 (by decide) (by decide) (by decide) (by decide) (by decide) (by decide) (by decide)
theorem keep_arg19 : Kept m c main_arg19 := chain_keep m c main_arg19 (by decide) (by decide) (by decide) (by decide) (by decide) (by decide) (by decide)
theorem keep_arg20 : Kept m c main_arg20 := chain_keep m c main_arg20 (by decide) (by decide) (by decide) (by decide) (by decide) (by decide) (by decide)
theorem keep_arg21 : Kept m c main_arg21 := chain_keep m c main_arg21 (by decide) (by decide) (by decide) (by decide) (by decide) (by decide) (by decide)
theorem keep_arg22 : Kept m c main_arg22 := chain_keep m c main_arg22 (by decide) (by decide) (by decide) (by decide) (by decide) (by decide) (by decide)
theorem keep_arg23 : Kept m c main_arg23 := chain_keep m c main_arg23 (by decide) (by decide) (by decide) (by decide) (by decide) (by decide) (by decide)
theorem keep_arg24 : Kept m c main_arg24 := chain_keep m c main_arg24 (by decide) (by decide) (by decide) (by decide) (by decide) (by decide) (by decide)
theorem keep_arg25 : Kept m c main_arg25 := chain_keep m c main_arg25 (by decide) (by decide) (by decide) (by decide) (by decide) (by decide) (by decide)
theorem keep_arg26 : Kept m c main_arg26 := chain_keep m c main_arg26 (by decide) (by decide) (by decide) (by decide) (by decide) (by decide) (by decide)
theorem keep_arg27 : Kept m c main_arg27 := chain_keep m c main_arg27 (by decide) (by decide) (by decide) (by decide) (by decide) (by decide) (by decide)

/-- What the first stretch leaves in a buffer stays there up to region 2's entry, if nothing later writes it. -/
theorem keep_after0 (r : Ref sig .tc) (h1 : r ∉ (hostOps1_W : List (Ref sig .tc))) (h2 : r ∉ (hostOps2_W : List (Ref sig .tc)))
    (n22 : r ≠ main_v22) (n41 : r ≠ main_v41) :
    A2 m c r = A1 m c r ∧ A3 m c r = A1 m c r ∧ A4 m c r = A1 m c r := by
  have e2 : A2 m c r = A1 m c r := A2_of m c r n22
  have e3 : A3 m c r = A1 m c r := (StableHlo.after_of_writes_sub hostOps1 _ hostOps1_writes h1).trans e2
  have e4 : A4 m c r = A1 m c r := (A4_of m c r n41).trans e3
  exact ⟨e2, e3, e4⟩

/-- Region 0's output stays in its array up to region 3's entry stretch. -/
theorem keep_o22 : A4 m c main_v22 = o22 m c ∧ A6 m c main_v22 = o22 m c := by
  have e2 : A2 m c main_v22 = o22 m c := A2_same m c
  have e3 : A3 m c main_v22 = o22 m c := (StableHlo.after_of_writes_sub hostOps1 _ hostOps1_writes (by decide)).trans e2
  have e4 : A4 m c main_v22 = o22 m c := (A4_of m c main_v22 (by decide)).trans e3
  have e5 : A5 m c main_v22 = o22 m c := (StableHlo.after_of_writes_sub hostOps2 _ hostOps2_writes (by decide)).trans e4
  have e6 : A6 m c main_v22 = o22 m c := (A6_of m c main_v22 (by decide)).trans e5
  exact ⟨e4, e6⟩

/-- Region 1's output stays in its array up to region 3's entry stretch. -/
theorem keep_o41 : A6 m c main_v41 = o41 m c := by
  have e4 : A4 m c main_v41 = o41 m c := A4_same m c
  have e5 : A5 m c main_v41 = o41 m c := (StableHlo.after_of_writes_sub hostOps2 _ hostOps2_writes (by decide)).trans e4
  exact (A6_of m c main_v41 (by decide)).trans e5

/-! ## The four regions' outputs are the reference's stages -/

/-- Region 0's output array is the reference's first layer of the arguments. -/
theorem h1_eq : o22 m c = val_main_v34 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) := by
  funext i
  obtain ⟨r, j, rfl⟩ : ∃ (r : Fin 100000) (j : Fin 128), i = ix2 r j := ⟨i 0, i 1, eq_ix2 i⟩
  refine ((conv0_value (B1 m) c r j).trans ?_).trans (Cert.ReferenceIdeal.RefValue.layer1_eq _ _ _ _ _ _ _ _ r j).symm
  refine layer_congr (fun r i => ?_) (fun r i => ?_) (fun i k => ?_) (fun k => ?_) (fun k j => ?_) (fun j => ?_) (fun j => ?_) (fun j => ?_) r j
  · exact congrFun (keep_arg0 m c).1 (ix2 r i)
  · exact congrFun (glue0_v13 (fun b => m (c, b))) (ix2 r i)
  · exact congrFun (keep_arg4 m c).1 (ix2 i k)
  · exact glue0_v18 (fun b => m (c, b)) k
  · exact congrFun (keep_arg6 m c).1 (ix2 k j)
  · exact glue0_v19 (fun b => m (c, b)) j
  · exact glue0_v20 (fun b => m (c, b)) j
  · exact glue0_v21 (fun b => m (c, b)) j

/-- The edges' endpoints, computed by the first stretch, are still in place when regions 1 and 2 are entered. -/
theorem edges_kept : A2 m c main_v1 = val_main_v1 (F := Ideal) (m ((c : Thread nD τ).loc main_arg1)) ∧ A2 m c main_v3 = val_main_v3 (F := Ideal) (m ((c : Thread nD τ).loc main_arg1))
    ∧ A4 m c main_v1 = val_main_v1 (F := Ideal) (m ((c : Thread nD τ).loc main_arg1)) ∧ A4 m c main_v3 = val_main_v3 (F := Ideal) (m ((c : Thread nD τ).loc main_arg1)) := by
  have k1 := keep_after0 m c main_v1 (by decide) (by decide) (by decide) (by decide)
  have k3 := keep_after0 m c main_v3 (by decide) (by decide) (by decide) (by decide)
  exact ⟨k1.1.trans (glue0_v1 (fun b => m (c, b))), k3.1.trans (glue0_v3 (fun b => m (c, b))),
    k1.2.2.trans (glue0_v1 (fun b => m (c, b))), k3.2.2.trans (glue0_v3 (fun b => m (c, b)))⟩

/-- Region 1's output array is the reference's second layer of the arguments. -/
theorem h2_eq : o41 m c = val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) := by
  funext i
  obtain ⟨r, j, rfl⟩ : ∃ (r : Fin 100000) (j : Fin 128), i = ix2 r j := ⟨i 0, i 1, eq_ix2 i⟩
  refine ((conv1_value (B3 m) c r j).trans ?_).trans (Cert.ReferenceIdeal.RefValue.layer2_eq _ _ _ _ _ _ _ _ _ _ _ _ _ _ r j).symm
  have hv22 : A2 m c main_v22 = val_main_v34 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) := (A2_same m c).trans (h1_eq m c)
  obtain ⟨hv1, hv3, -, -⟩ := edges_kept m c
  refine layer_congr (fun r i => ?_) (fun r i => ?_) (fun i k => ?_) (fun k => ?_) (fun k j => ?_) (fun j => ?_) (fun j => ?_) (fun j => ?_) r j
  · exact congrFun ((StableHlo.after_of_writes_sub hostOps1 _ hostOps1_writes (by decide)).trans hv22) (ix2 r i)
  · exact congrFun (glue1_v32 (A2 m c) _ _ _ _ _ _ _ _ hv22 hv1 hv3) (ix2 r i)
  · exact congrFun (keep_arg8 m c).2.2.1 (ix2 i k)
  · exact (glue1_v37 (A2 m c) k).trans (congrFun (keep_arg9 m c).2.1 (ix1 k))
  · exact congrFun (keep_arg10 m c).2.2.1 (ix2 k j)
  · exact (glue1_v38 (A2 m c) j).trans (congrFun (keep_arg11 m c).2.1 (ix1 j))
  · exact (glue1_v39 (A2 m c) j).trans (congrArg (fun x => val_main_v58 (F := Ideal) x (ix1 j)) (keep_arg18 m c).2.1)
  · exact (glue1_v40 (A2 m c) j).trans (congrFun (keep_arg19 m c).2.1 (ix1 j))

/-- Region 2's output array is the reference's third layer of the arguments. -/
theorem h3_eq : o60 m c = val_main_v96 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  funext i
  obtain ⟨r, j, rfl⟩ : ∃ (r : Fin 100000) (j : Fin 256), i = ix2 r j := ⟨i 0, i 1, eq_ix2 i⟩
  refine ((conv2_value (B5 m) c r j).trans ?_).trans (Cert.ReferenceIdeal.RefValue.layer3_eq _ _ _ _ _ _ _ _ _ _ _ _ _ _ _ _ _ _ _ _ r j).symm
  have hv41 : A4 m c main_v41 = val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) := (A4_same m c).trans (h2_eq m c)
  obtain ⟨-, -, hv1, hv3⟩ := edges_kept m c
  refine layer_congr (fun r i => ?_) (fun r i => ?_) (fun i k => ?_) (fun k => ?_) (fun k j => ?_) (fun j => ?_) (fun j => ?_) (fun j => ?_) r j
  · exact congrFun ((StableHlo.after_of_writes_sub hostOps2 _ hostOps2_writes (by decide)).trans hv41) (ix2 r i)
  · exact congrFun (glue2_v51 (A4 m c) _ _ _ _ _ _ _ _ _ _ _ _ _ _ hv41 hv1 hv3) (ix2 r i)
  · exact congrFun (keep_arg12 m c).2.2.2.2.1 (ix2 i k)
  · exact (glue2_v56 (A4 m c) k).trans (congrFun (keep_arg13 m c).2.2.2.1 (ix1 k))
  · exact congrFun (keep_arg14 m c).2.2.2.2.1 (ix2 k j)
  · exact (glue2_v57 (A4 m c) j).trans (congrFun (keep_arg15 m c).2.2.2.1 (ix1 j))
  · exact (glue2_v58 (A4 m c) j).trans (congrArg (fun x => val_main_v89 (F := Ideal) x (ix1 j)) (keep_arg20 m c).2.2.2.1)
  · exact (glue2_v59 (A4 m c) j).trans (congrFun (keep_arg21 m c).2.2.2.1 (ix1 j))

/-- What the last stretch finds when it pools the layers' outputs: the three layers' arrays at the reference's three
    layers, the graph assignment and the given graph features as launched. -/
theorem pooled_inputs :
    A6 m c main_v22 = val_main_v34 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17))
    ∧ A6 m c main_v41 = val_main_v65 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19))
    ∧ A6 m c main_v60 = val_main_v96 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    ∧ A6 m c main_arg2 = (m ((c : Thread nD τ).loc main_arg2)) ∧ A6 m c main_arg3 = (m ((c : Thread nD τ).loc main_arg3)) :=
  ⟨(keep_o22 m c).2.trans (h1_eq m c), (keep_o41 m c).trans (h2_eq m c), (A6_same m c).trans (h3_eq m c),
    (keep_arg2 m c).2.2.2.2.2.1, (keep_arg3 m c).2.2.2.2.2.1⟩

/-- THE RESULT, given that the last stretch's pooled features are the reference's: region 3's output array, the
    program's result, is the reference's result of the arguments. -/
theorem result_eq_of
    (hFe : ∀ (a : Fin 512) (k : Fin 6656), A7 m c main_v75 (ix2 a k) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (ix2 a k)) :
    o82 m c = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  funext i
  obtain ⟨a, n, rfl⟩ : ∃ (a : Fin 512) (n : Fin 128), i = ix2 a n := ⟨i 0, i 1, eq_ix2 i⟩
  refine ((final_value (B7 m) c a n).trans ?_).trans (Cert.ReferenceIdeal.RefValue.readout_eq _ _ _ _ _ _ _ _ _ _ _ _ _ _ _ _ _ _ _ _ _ _ _ _ _ _ _ _ a n).symm
  refine readout_congr (fun a k => ?_) (fun k j => ?_) (fun j => ?_) (fun j => ?_) (fun j => ?_) (fun j n => ?_) (fun n => ?_) a n
  · exact hFe a k
  · exact (glue3_v76 (A6 m c) k j).trans (congrFun (keep_arg22 m c).2.2.2.2.2.1 (ix2 k j))
  · exact (glue3_v78 (A6 m c) j).trans (congrFun (keep_arg23 m c).2.2.2.2.2.1 (ix1 j))
  · exact (glue3_v79 (A6 m c) j).trans (congrArg (fun x => val_main_v114 (F := Ideal) x (ix1 j)) (keep_arg24 m c).2.2.2.2.2.1)
  · exact (glue3_v80 (A6 m c) j).trans (congrFun (keep_arg25 m c).2.2.2.2.2.1 (ix1 j))
  · exact (glue3_v77 (A6 m c) j n).trans (congrFun (keep_arg26 m c).2.2.2.2.2.1 (ix2 j n))
  · exact (glue3_v81 (A6 m c) n).trans (congrFun (keep_arg27 m c).2.2.2.2.2.1 (ix1 n))

/-- THE RESULT: region 3's output array, the program's result, is the reference's result of the arguments. -/
theorem result_eq : o82 m c = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) :=
  result_eq_of m c fun a k => by
    obtain ⟨h22, h41, h60, h2, h3⟩ := pooled_inputs m c
    exact glue3_v75 (A6 m c) _ _ _ _ _ _ _ _ _ _ _ _ _ _ _ _ _ _ _ _ _ _ h22 h41 h60 h2 h3 a k

end Bridge

end Cert.KernelIdeal.Gen

end
-- ==== Proof.Algebraic.lean ====
/-
  The two idealized programs return the same array. The kernel program's result array ends holding what the readout
  region's blocks wrote back, which, unfolded layer by layer, is the reference's composed term of the argument arrays;
  the reference's generated run ends at that same term of its own arguments, and the two memories agree on the arguments.
-/
import proofs.«104188_j20804821582443_1_alg».proof.Defs
import proofs.«104188_j20804821582443_1_alg».proof.Proof.Gen.KernelIdeal
import proofs.«104188_j20804821582443_1_alg».proof.Proof.Gen.ReferenceIdeal
import proofs.«104188_j20804821582443_1_alg».proof.Proof.Gen.Pre_finite_inputs
import proofs.«104188_j20804821582443_1_alg».proof.Proof.Gen.ReferenceIdeal.Run
import proofs.«104188_j20804821582443_1_alg».proof.Proof.Gen.ReferenceIdeal.Read
import proofs.«104188_j20804821582443_1_alg».proof.Proof.RunValue
import proofs.«104188_j20804821582443_1_alg».proof.Proof.Bridge

set_option maxRecDepth 16384

noncomputable section

namespace Cert.Proof.Parts

open Idealize.ShloMosaic Idealize.ShloMosaic.TcCoe Idealize.SL.Sem

set_option maxHeartbeats 2000000 in
/-- At the ideal instance the kernel program's result is the readout region's write-backs, the reference's its composed
    term; the bridge identifies the two as one function of arguments that agree. -/
theorem algebraic : Cert.algebraic_KernelIdeal_ReferenceIdeal := by
  intro m ρ m' ρ' _ hagree
  refine ⟨fun c => Cert.KernelIdeal.Gen.o82 m c, Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  beta_reduce
  obtain ⟨h0, h1, h2, h3, h4, h5, h6, h7, h8, h9, h10, h11, h12, h13, h14, h15, h16, h17, h18, h19, h20, h21, h22, h23, h24, h25, h26, h27⟩ := hagree c
  rw [Cert.ReferenceIdeal.Read.val_main_v125_eq, Cert.KernelIdeal.Gen.result_eq m c, h0, h1, h2, h3, h4, h5, h6, h7, h8, h9, h10, h11, h12, h13, h14, h15, h16, h17, h18, h19, h20, h21, h22, h23, h24, h25, h26, h27]

end Cert.Proof.Parts

end
-- ==== Proof.lean ====
/-
  A three-layer graph network with a readout, as a kernel program of four regions among host gathers and scatter-adds,
  against its plain reference.

  Each layer region runs over 50 blocks of 2000 nodes: a block's body adds the node features and the summed neighbour
  features, applies a linear map with bias, clamps below at zero, applies a second linear map with bias, scales and shifts
  each feature, and clamps again; its output array ends holding, row by row, that formula of the region's operand arrays.
  The readout region runs over 13 blocks of 512 pooled features: it zeroes an accumulator at the first block, adds each
  block's partial product, and at the last block adds the bias, scales, shifts, clamps and applies the last linear map;
  since a finite sum of extended reals may be grouped freely, the 13 partial products add up to the whole product.
  The host operations between the regions are the reference's own, so the kernel program's result is the reference's
  composed term of the arguments, entry by entry, on the extended reals; no step uses finiteness of the inputs.
  The frames: every region's body reads and writes only its own staging buffers and the readout's accumulator, so each
  program runs to the end without a fault and leaves every argument array as launched. The ideal pass rewrote nothing,
  so the kernel and its idealization are one text read at two instances.
-/
import proofs.«104188_j20804821582443_1_alg».proof.Defs
import proofs.«104188_j20804821582443_1_alg».proof.Proof.Gen.Kernel
import proofs.«104188_j20804821582443_1_alg».proof.Proof.Gen.Kernel.Skeleton
import proofs.«104188_j20804821582443_1_alg».proof.Proof.Gen.Kernel.Launch
import proofs.«104188_j20804821582443_1_alg».proof.Proof.Gen.Kernel.Regions
import proofs.«104188_j20804821582443_1_alg».proof.Proof.Gen.Kernel.Points
import proofs.«104188_j20804821582443_1_alg».proof.Proof.Gen.KernelIdeal
import proofs.«104188_j20804821582443_1_alg».proof.Proof.Gen.KernelIdeal.Skeleton
import proofs.«104188_j20804821582443_1_alg».proof.Proof.Gen.KernelIdeal.Launch
import proofs.«104188_j20804821582443_1_alg».proof.Proof.Gen.KernelIdeal.Regions
import proofs.«104188_j20804821582443_1_alg».proof.Proof.Gen.KernelIdeal.Points
import proofs.«104188_j20804821582443_1_alg».proof.Proof.Gen.ReferenceIdeal
import proofs.«104188_j20804821582443_1_alg».proof.Proof.Gen.Pre_finite_inputs
import proofs.«104188_j20804821582443_1_alg».proof.Proof.Gen.ReferenceIdeal.Run
import proofs.«104188_j20804821582443_1_alg».proof.Proof.Gen.ReferenceIdeal.Read
import proofs.«104188_j20804821582443_1_alg».proof.Proof.BitsRunRegions
import proofs.«104188_j20804821582443_1_alg».proof.Proof.RunRegions
import proofs.«104188_j20804821582443_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Parts.algebraic⟩

end Cert.Proof

end
